-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x64 : Shape := ⟨2, ![20000, 64]⟩
abbrev S128x64 : Shape := ⟨2, ![128, 64]⟩
abbrev S64 : Shape := ⟨1, ![64]⟩
abbrev S64x64 : Shape := ⟨2, ![64, 64]⟩
abbrev S2x64x64 : Shape := ⟨3, ![2, 64, 64]⟩
abbrev S2x64x32 : Shape := ⟨3, ![2, 64, 32]⟩
abbrev S64x32 : Shape := ⟨2, ![64, 32]⟩
abbrev S32 : Shape := ⟨1, ![32]⟩
abbrev S1000000 : Shape := ⟨1, ![1000000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x64 : S_.BroadcastsInDim S20000x64 (![] : Fin 0 → Fin S20000x64.rank)
  reducesTo_S20000x64_S_d0_1 : S20000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2x64x32 : S_.BroadcastsInDim S2x64x32 (![] : Fin 0 → Fin S2x64x32.rank)
  reducesTo_S2x64x32_S_d0_1_2 : S2x64x32.ReducesTo [0, 1, 2] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg11 : FVec F S32 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  main_v58

def fn_part2 {F : FTy → Type} [FloatOps F] (main_arg7 : FVec F S64x64 .f32) (main_arg8 : FVec F S64 .f32) (main_arg9 : FVec F S2x64x32 .f32) (main_arg10 : FVec F S64x32 .f32) (main_arg11 : FVec F S32 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S2x64x32 .f32 := Host.absf main_arg9
  let main_cst_16 : FVec F S_ .f32 := constant S_ .f32 0x7F800000#32
  let main_v45 : FVec F S2x64x32 .f32 := broadcastInDim S2x64x32 ![] bcast_S_S2x64x32 main_cst_16
  let main_v46 : IVec S2x64x32 1 := cmpf .olt main_v44 main_v45
  let main_c_17 : IVec S_ 1 := constantI S_ 1 1#1
  let main_v47 : IVec S_ 1 := (fun x v => Host.reduce IntOp.andi x v reducesTo_S2x64x32_S_d0_1_2 h_S_) main_v46 main_c_17
  let main_v48 : IVec S_ 1 := andi main_v43 main_v47
  let main_v49 : FVec F S64x32 .f32 := Host.absf main_arg10
  let main_cst_18 : FVec F S_ .f32 := constant S_ .f32 0x7F800000#32
  let main_v50 : FVec F S64x32 .f32 := broadcastInDim S64x32 ![] bcast_S_S64x32 main_cst_18
  fn_part3 (F := F) main_arg11 main_v48 main_v49 main_v50

def fn_part1 {F : FTy → Type} [FloatOps F] (main_arg4 : FVec F S64x64 .f32) (main_arg5 : FVec F S64 .f32) (main_arg6 : FVec F S2x64x64 .f32) (main_arg7 : FVec F S64x64 .f32) (main_arg8 : FVec F S64 .f32) (main_arg9 : FVec F S2x64x32 .f32) (main_arg10 : FVec F S64x32 .f32) (main_arg11 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S2x64x64 .f32 := Host.absf main_arg6
  let main_cst_10 : FVec F S_ .f32 := constant S_ .f32 0x7F800000#32
  let main_v30 : FVec F S2x64x64 .f32 := broadcastInDim S2x64x64 ![] bcast_S_S2x64x64 main_cst_10
  let main_v31 : IVec S2x64x64 1 := cmpf .olt main_v29 main_v30
  let main_c_11 : IVec S_ 1 := constantI S_ 1 1#1
  let main_v32 : IVec S_ 1 := (fun x v => Host.reduce IntOp.andi x v reducesTo_S2x64x64_S_d0_1_2 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x128 .f32) (main_arg1 : FVec F S20000x64 .f32) (main_arg2 : FVec F S128x64 .f32) (main_arg3 : FVec F S64 .f32) (main_arg4 : FVec F S64x64 .f32) (main_arg5 : FVec F S64 .f32) (main_arg6 : FVec F S2x64x64 .f32) (main_arg7 : FVec F S64x64 .f32) (main_arg8 : FVec F S64 .f32) (main_arg9 : FVec F S2x64x32 .f32) (main_arg10 : FVec F S64x32 .f32) (main_arg11 : FVec F S32 .f32) (main_arg12 : IVec S1000000 32) (main_arg13 : IVec S1000000 32) (main_arg14 : IVec S1000000 32) (main_arg15 : IVec S1000000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x64 .f32 := Host.absf main_arg1
  let main_cst_0 : FVec F S_ .f32 := constant S_ .f32 0x7F800000#32
  let main_v5 : FVec F S20000x64 .f32 := broadcastInDim S20000x64 ![] bcast_S_S20000x64 main_cst_0
  let main_v6 : IVec S20000x64 1 := cmpf .olt main_v4 main_v5
  let main_c_1 : IVec S_ 1 := constantI S_ 1 1#1
  let main_v7 : IVec S_ 1 := (fun x v => Host.reduce IntOp.andi x v reducesTo_S20000x64_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S100000x128 : Shape := ⟨2, ![100000, 128]⟩
abbrev S20000x64 : Shape := ⟨2, ![20000, 64]⟩
abbrev S128x64 : Shape := ⟨2, ![128, 64]⟩
abbrev S64 : Shape := ⟨1, ![64]⟩
abbrev S64x64 : Shape := ⟨2, ![64, 64]⟩
abbrev S2x64x64 : Shape := ⟨3, ![2, 64, 64]⟩
abbrev S2x64x32 : Shape := ⟨3, ![2, 64, 32]⟩
abbrev S64x32 : Shape := ⟨2, ![64, 32]⟩
abbrev S32 : Shape := ⟨1, ![32]⟩
abbrev S1000000 : Shape := ⟨1, ![1000000]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S5000x64 : Shape := ⟨2, ![5000, 64]⟩
abbrev S120000x64 : Shape := ⟨2, ![120000, 64]⟩
abbrev S_ : Shape := ⟨0, ![]⟩
abbrev S1000000x1 : Shape := ⟨2, ![1000000, 1]⟩
abbrev S120000x1 : Shape := ⟨2, ![120000, 1]⟩
abbrev S1000000x64 : Shape := ⟨2, ![1000000, 64]⟩
abbrev S1x64x64 : Shape := ⟨3, ![1, 64, 64]⟩
abbrev S4000x64 : Shape := ⟨2, ![4000, 64]⟩
abbrev S4000x1 : Shape := ⟨2, ![4000, 1]⟩
abbrev S1x64x32 : Shape := ⟨3, ![1, 64, 32]⟩
abbrev S1000000x32 : Shape := ⟨2, ![1000000, 32]⟩
abbrev S20000x32 : Shape := ⟨2, ![20000, 32]⟩
abbrev S120000x32 : Shape := ⟨2, ![120000, 32]⟩
abbrev S1x32 : Shape := ⟨2, ![1, 32]⟩
abbrev S4000x32 : Shape := ⟨2, ![4000, 32]⟩

abbrev nBuf : Space → Nat
  | .hbm => 113
  | .vmem => 60
  | .smem => 0
  | _ => 0

abbrev bufTy : (tb : Table) → Fin (tcTables nBuf tb) → BufTy
  | .hbm, ⟨0, _⟩ => ⟨S100000x128, .f32⟩
  | .hbm, ⟨1, _⟩ => ⟨S20000x64, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S2x64x64, .f32⟩
  | .hbm, ⟨7, _⟩ => ⟨S64x64, .f32⟩
  | .hbm, ⟨8, _⟩ => ⟨S64, .f32⟩
  | .hbm, ⟨9, _⟩ => ⟨S2x64x32, .f32⟩
  | .hbm, ⟨10, _⟩ => ⟨S64x32, .f32⟩
  | .hbm, ⟨11, _⟩ => ⟨S32, .f32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1x64, .f32⟩
  | .hbm, ⟨17, _⟩ => ⟨S100000x64, .f32⟩
  | .hbm, ⟨18, _⟩ => ⟨S1x64, .f32⟩
  | .hbm, ⟨19, _⟩ => ⟨S20000x64, .f32⟩
  | .hbm, ⟨20, _⟩ => ⟨S120000x64, .f32⟩
  | .hbm, ⟨21, _⟩ => ⟨S_, .f32⟩
  | .hbm, ⟨22, _⟩ => ⟨S1000000x1, .f32⟩
  | .hbm, ⟨23, _⟩ => ⟨S_, .f32⟩
  | .hbm, ⟨24, _⟩ => ⟨S120000x1, .f32⟩
  | .hbm, ⟨25, _⟩ => ⟨S1000000x1, .i32⟩
  | .hbm, ⟨26, _⟩ => ⟨S120000x1, .f32⟩
  | .hbm, ⟨27, _⟩ => ⟨S_, .f32⟩
  | .hbm, ⟨28, _⟩ => ⟨S120000x1, .f32⟩
  | .hbm, ⟨29, _⟩ => ⟨S1000000x1, .i32⟩
  | .hbm, ⟨30, _⟩ => ⟨S120000x1, .f32⟩
  | .hbm, ⟨31, _⟩ => ⟨S_, .f32⟩
  | .hbm, ⟨32, _⟩ => ⟨S120000x1, .f32⟩
  | .hbm, ⟨33, _⟩ => ⟨S120000x1, .f32⟩
  | .hbm, ⟨34, _⟩ => ⟨S_, .f32⟩
  | .hbm, ⟨35, _⟩ => ⟨S120000x1, .f32⟩
  | .hbm, ⟨36, _⟩ => ⟨S120000x1, .f32⟩
  | .hbm, ⟨37, _⟩ => ⟨S_, .f32⟩
  | .hbm, ⟨38, _⟩ => ⟨S120000x1, .f32⟩
  | .hbm, ⟨39, _⟩ => ⟨S120000x1, .f32⟩
  | .hbm, ⟨40, _⟩ => ⟨S_, .f32⟩
  | .hbm, ⟨41, _⟩ => ⟨S120000x1, .f32⟩
  | .hbm, ⟨42, _⟩ => ⟨S120000x1, .f32⟩
  | .hbm, ⟨43, _⟩ => ⟨S120000x64, .bf16⟩
  | .hbm, ⟨44, _⟩ => ⟨S_, .i32⟩
  | .hbm, ⟨45, _⟩ => ⟨S1000000, .i32⟩
  | .hbm, ⟨46, _⟩ => ⟨S1000000, .i1⟩
  | .hbm, ⟨47, _⟩ => ⟨S_, .i32⟩
  | .hbm, ⟨48, _⟩ => ⟨S1000000, .i32⟩
  | .hbm, ⟨49, _⟩ => ⟨S1000000, .i32⟩
  | .hbm, ⟨50, _⟩ => ⟨S1000000, .i32⟩
  | .hbm, ⟨51, _⟩ => ⟨S1000000x1, .i32⟩
  | .hbm, ⟨52, _⟩ => ⟨S1000000x64, .bf16⟩
  | .hbm, ⟨53, _⟩ => ⟨S1x64x64, .f32⟩
  | .hbm, ⟨54, _⟩ => ⟨S64x64, .f32⟩
  | .hbm, ⟨55, _⟩ => ⟨S1000000x64, .f32⟩
  | .hbm, ⟨56, _⟩ => ⟨S_, .f32⟩
  | .hbm, ⟨57, _⟩ => ⟨S120000x64, .f32⟩
  | .hbm, ⟨58, _⟩ => ⟨S1000000x1, .i32⟩
  | .hbm, ⟨59, _⟩ => ⟨S120000x64, .f32⟩
  | .hbm, ⟨60, _⟩ => ⟨S_, .i32⟩
  | .hbm, ⟨61, _⟩ => ⟨S1000000, .i32⟩
  | .hbm, ⟨62, _⟩ => ⟨S1000000, .i1⟩
  | .hbm, ⟨63, _⟩ => ⟨S_, .i32⟩
  | .hbm, ⟨64, _⟩ => ⟨S1000000, .i32⟩
  | .hbm, ⟨65, _⟩ => ⟨S1000000, .i32⟩
  | .hbm, ⟨66, _⟩ => ⟨S1000000, .i32⟩
  | .hbm, ⟨67, _⟩ => ⟨S1000000x1, .i32⟩
  | .hbm, ⟨68, _⟩ => ⟨S1000000x64, .bf16⟩
  | .hbm, ⟨69, _⟩ => ⟨S1x64x64, .f32⟩
  | .hbm, ⟨70, _⟩ => ⟨S64x64, .f32⟩
  | .hbm, ⟨71, _⟩ => ⟨S1000000x64, .f32⟩
  | .hbm, ⟨72, _⟩ => ⟨S_, .f32⟩
  | .hbm, ⟨73, _⟩ => ⟨S120000x64, .f32⟩
  | .hbm, ⟨74, _⟩ => ⟨S1000000x1, .i32⟩
  | .hbm, ⟨75, _⟩ => ⟨S120000x64, .f32⟩
  | .hbm, ⟨76, _⟩ => ⟨S1x64, .f32⟩
  | .hbm, ⟨77, _⟩ => ⟨S120000x64, .f32⟩
  | .hbm, ⟨78, _⟩ => ⟨S120000x64, .bf16⟩
  | .hbm, ⟨79, _⟩ => ⟨S_, .i32⟩
  | .hbm, ⟨80, _⟩ => ⟨S1000000, .i32⟩
  | .hbm, ⟨81, _⟩ => ⟨S1000000, .i1⟩
  | .hbm, ⟨82, _⟩ => ⟨S_, .i32⟩
  | .hbm, ⟨83, _⟩ => ⟨S1000000, .i32⟩
  | .hbm, ⟨84, _⟩ => ⟨S1000000, .i32⟩
  | .hbm, ⟨85, _⟩ => ⟨S1000000, .i32⟩
  | .hbm, ⟨86, _⟩ => ⟨S1000000x1, .i32⟩
  | .hbm, ⟨87, _⟩ => ⟨S1000000x64, .bf16⟩
  | .hbm, ⟨88, _⟩ => ⟨S1x64x32, .f32⟩
  | .hbm, ⟨89, _⟩ => ⟨S64x32, .f32⟩
  | .hbm, ⟨90, _⟩ => ⟨S1000000x32, .f32⟩
  | .hbm, ⟨91, _⟩ => ⟨S_, .f32⟩
  | .hbm, ⟨92, _⟩ => ⟨S120000x32, .f32⟩
  | .hbm, ⟨93, _⟩ => ⟨S1000000x1, .i32⟩
  | .hbm, ⟨94, _⟩ => ⟨S120000x32, .f32⟩
  | .hbm, ⟨95, _⟩ => ⟨S_, .i32⟩
  | .hbm, ⟨96, _⟩ => ⟨S1000000, .i32⟩
  | .hbm, ⟨97, _⟩ => ⟨S1000000, .i1⟩
  | .hbm, ⟨98, _⟩ => ⟨S_, .i32⟩
  | .hbm, ⟨99, _⟩ => ⟨S1000000, .i32⟩
  | .hbm, ⟨100, _⟩ => ⟨S1000000, .i32⟩
  | .hbm, ⟨101, _⟩ => ⟨S1000000, .i32⟩
  | .hbm, ⟨102, _⟩ => ⟨S1000000x1, .i32⟩
  | .hbm, ⟨103, _⟩ => ⟨S1000000x64, .bf16⟩
  | .hbm, ⟨104, _⟩ => ⟨S1x64x32, .f32⟩
  | .hbm, ⟨105, _⟩ => ⟨S64x32, .f32⟩
  | .hbm, ⟨106, _⟩ => ⟨S1000000x32, .f32⟩
  | .hbm, ⟨107, _⟩ => ⟨S_, .f32⟩
  | .hbm, ⟨108, _⟩ => ⟨S120000x32, .f32⟩
  | .hbm, ⟨109, _⟩ => ⟨S1000000x1, .i32⟩
  | .hbm, ⟨110, _⟩ => ⟨S120000x32, .f32⟩
  | .hbm, ⟨111, _⟩ => ⟨S1x32, .f32⟩
  | .hbm, ⟨112, _⟩ => ⟨S120000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S20000x64, .bf16⟩
  | .local _ .vmem, ⟨13, _⟩ => ⟨S20000x64, .bf16⟩
  | .local _ .vmem, ⟨14, _⟩ => ⟨S64x64, .f32⟩
  | .local _ .vmem, ⟨15, _⟩ => ⟨S20000x64, .f32⟩
  | .local _ .vmem, ⟨16, _⟩ => ⟨S20000x64, .f32⟩
  | .local _ .vmem, ⟨17, _⟩ => ⟨S20000x64, .bf16⟩
  | .local _ .vmem, ⟨18, _⟩ => ⟨S20000x64, .bf16⟩
  | .local _ .vmem, ⟨19, _⟩ => ⟨S64x64, .f32⟩
  | .local _ .vmem, ⟨20, _⟩ => ⟨S20000x64, .f32⟩
  | .local _ .vmem, ⟨21, _⟩ => ⟨S20000x64, .f32⟩
  | .local _ .vmem, ⟨22, _⟩ => ⟨S4000x64, .f32⟩
  | .local _ .vmem, ⟨23, _⟩ => ⟨S4000x64, .f32⟩
  | .local _ .vmem, ⟨24, _⟩ => ⟨S64x64, .f32⟩
  | .local _ .vmem, ⟨25, _⟩ => ⟨S1x64, .f32⟩
  | .local _ .vmem, ⟨26, _⟩ => ⟨S4000x64, .f32⟩
  | .local _ .vmem, ⟨27, _⟩ => ⟨S4000x64, .f32⟩
  | .local _ .vmem, ⟨28, _⟩ => ⟨S4000x1, .f32⟩
  | .local _ .vmem, ⟨29, _⟩ => ⟨S4000x1, .f32⟩
  | .local _ .vmem, ⟨30, _⟩ => ⟨S4000x64, .f32⟩
  | .local _ .vmem, ⟨31, _⟩ => ⟨S4000x64, .f32⟩
  | .local _ .vmem, ⟨32, _⟩ => ⟨S4000x1, .f32⟩
  | .local _ .vmem, ⟨33, _⟩ => ⟨S4000x1, .f32⟩
  | .local _ .vmem, ⟨34, _⟩ => ⟨S4000x64, .f32⟩
  | .local _ .vmem, ⟨35, _⟩ => ⟨S4000x64, .f32⟩
  | .local _ .vmem, ⟨36, _⟩ => ⟨S20000x64, .bf16⟩
  | .local _ .vmem, ⟨37, _⟩ => ⟨S20000x64, .bf16⟩
  | .local _ .vmem, ⟨38, _⟩ => ⟨S64x32, .f32⟩
  | .local _ .vmem, ⟨39, _⟩ => ⟨S20000x32, .f32⟩
  | .local _ .vmem, ⟨40, _⟩ => ⟨S20000x32, .f32⟩
  | .local _ .vmem, ⟨41, _⟩ => ⟨S20000x64, .bf16⟩
  | .local _ .vmem, ⟨42, _⟩ => ⟨S20000x64, .bf16⟩
  | .local _ .vmem, ⟨43, _⟩ => ⟨S64x32, .f32⟩
  | .local _ .vmem, ⟨44, _⟩ => ⟨S20000x32, .f32⟩
  | .local _ .vmem, ⟨45, _⟩ => ⟨S20000x32, .f32⟩
  | .local _ .vmem, ⟨46, _⟩ => ⟨S4000x64, .f32⟩
  | .local _ .vmem, ⟨47, _⟩ => ⟨S4000x64, .f32⟩
  | .local _ .vmem, ⟨48, _⟩ => ⟨S64x32, .f32⟩
  | .local _ .vmem, ⟨49, _⟩ => ⟨S1x32, .f32⟩
  | .local _ .vmem, ⟨50, _⟩ => ⟨S4000x32, .f32⟩
  | .local _ .vmem, ⟨51, _⟩ => ⟨S4000x32, .f32⟩
  | .local _ .vmem, ⟨52, _⟩ => ⟨S4000x1, .f32⟩
  | .local _ .vmem, ⟨53, _⟩ => ⟨S4000x1, .f32⟩
  | .local _ .vmem, ⟨54, _⟩ => ⟨S4000x32, .f32⟩
  | .local _ .vmem, ⟨55, _⟩ => ⟨S4000x32, .f32⟩
  | .local _ .vmem, ⟨56, _⟩ => ⟨S4000x1, .f32⟩
  | .local _ .vmem, ⟨57, _⟩ => ⟨S4000x1, .f32⟩
  | .local _ .vmem, ⟨58, _⟩ => ⟨S4000x32, .f32⟩
  | .local _ .vmem, ⟨59, _⟩ => ⟨S4000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_cst_4 : Ref sig .tc := ⟨.hbm, 37, rfl⟩
abbrev main_v16 : Ref sig .tc := ⟨.hbm, 38, rfl⟩
abbrev main_v17 : Ref sig .tc := ⟨.hbm, 39, rfl⟩
abbrev main_cst_5 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c : Ref sig .tc := ⟨.hbm, 44, rfl⟩
abbrev main_v21 : Ref sig .tc := ⟨.hbm, 45, rfl⟩
abbrev main_v22 : Ref sig .tc := ⟨.hbm, 46, rfl⟩
abbrev main_c_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_7 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_8 : Ref sig .tc := ⟨.hbm, 60, rfl⟩
abbrev main_v34 : Ref sig .tc := ⟨.hbm, 61, rfl⟩
abbrev main_v35 : Ref sig .tc := ⟨.hbm, 62, rfl⟩
abbrev main_c_9 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_10 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_11 : Ref sig .tc := ⟨.hbm, 79, rfl⟩
abbrev main_v50 : Ref sig .tc := ⟨.hbm, 80, rfl⟩
abbrev main_v51 : Ref sig .tc := ⟨.hbm, 81, rfl⟩
abbrev main_c_12 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_13 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_14 : Ref sig .tc := ⟨.hbm, 95, rfl⟩
abbrev main_v63 : Ref sig .tc := ⟨.hbm, 96, rfl⟩
abbrev main_v64 : Ref sig .tc := ⟨.hbm, 97, rfl⟩
abbrev main_c_15 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_16 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc4_stg4_0 : Ref sig .tc := ⟨.vmem, 28, rfl⟩
abbrev cc4_stg4_1 : Ref sig .tc := ⟨.vmem, 29, rfl⟩
abbrev cc4_stg5_0 : Ref sig .tc := ⟨.vmem, 30, rfl⟩
abbrev cc4_stg5_1 : Ref sig .tc := ⟨.vmem, 31, rfl⟩
abbrev cc4_stg6_0 : Ref sig .tc := ⟨.vmem, 32, rfl⟩
abbrev cc4_stg6_1 : Ref sig .tc := ⟨.vmem, 33, rfl⟩
abbrev cc4_stg7_0 : Ref sig .tc := ⟨.vmem, 34, rfl⟩
abbrev cc4_stg7_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg2_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg2_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg2_0 : Ref sig .tc := ⟨.vmem, 49, rfl⟩
abbrev cc7_stg3_0 : Ref sig .tc := ⟨.vmem, 50, rfl⟩
abbrev cc7_stg3_1 : Ref sig .tc := ⟨.vmem, 51, rfl⟩
abbrev cc7_stg4_0 : Ref sig .tc := ⟨.vmem, 52, rfl⟩
abbrev cc7_stg4_1 : Ref sig .tc := ⟨.vmem, 53, rfl⟩
abbrev cc7_stg5_0 : Ref sig .tc := ⟨.vmem, 54, rfl⟩
abbrev cc7_stg5_1 : Ref sig .tc := ⟨.vmem, 55, rfl⟩
abbrev cc7_stg6_0 : Ref sig .tc := ⟨.vmem, 56, rfl⟩
abbrev cc7_stg6_1 : Ref sig .tc := ⟨.vmem, 57, rfl⟩
abbrev cc7_stg7_0 : Ref sig .tc := ⟨.vmem, 58, rfl⟩
abbrev cc7_stg7_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc4_sem4_0 : DmaSem sig := 28
abbrev cc4_sem4_1 : DmaSem sig := 29
abbrev cc4_sem5_0 : DmaSem sig := 30
abbrev cc4_sem5_1 : DmaSem sig := 31
abbrev cc4_sem6_0 : DmaSem sig := 32
abbrev cc4_sem6_1 : DmaSem sig := 33
abbrev cc4_sem7_0 : DmaSem sig := 34
abbrev cc4_sem7_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem2_1 : DmaSem sig := 40
abbrev cc6_sem0_0 : DmaSem sig := 41
abbrev cc6_sem0_1 : DmaSem sig := 42
abbrev cc6_sem1_0 : DmaSem sig := 43
abbrev cc6_sem2_0 : DmaSem sig := 44
abbrev cc6_sem2_1 : DmaSem sig := 45
abbrev cc7_sem0_0 : DmaSem sig := 46
abbrev cc7_sem0_1 : DmaSem sig := 47
abbrev cc7_sem1_0 : DmaSem sig := 48
abbrev cc7_sem2_0 : DmaSem sig := 49
abbrev cc7_sem3_0 : DmaSem sig := 50
abbrev cc7_sem3_1 : DmaSem sig := 51
abbrev cc7_sem4_0 : DmaSem sig := 52
abbrev cc7_sem4_1 : DmaSem sig := 53
abbrev cc7_sem5_0 : DmaSem sig := 54
abbrev cc7_sem5_1 : DmaSem sig := 55
abbrev cc7_sem6_0 : DmaSem sig := 56
abbrev cc7_sem6_1 : DmaSem sig := 57
abbrev cc7_sem7_0 : DmaSem sig := 58
abbrev cc7_sem7_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S20000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S20000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![30], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S4000x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S4000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S4000x1 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S4000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S20000x64 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S20000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S20000x64 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S20000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![30], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S4000x32 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S4000x1 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S4000x32 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S4000x1 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S4000x32 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

class Facts₀ : Prop where
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  broadcasts_S1x64_S5000x64 : S1x64.Broadcasts S5000x64
  concatenates_S100000x64_S20000x64_S120000x64_d0 : Shape.Concatenates [S100000x64, S20000x64] S120000x64 0
  bcast_S_S1000000x1 : S_.BroadcastsInDim S1000000x1 (![] : Fin 0 → Fin S1000000x1.rank)
  bcast_S_S120000x1 : S_.BroadcastsInDim S120000x1 (![] : Fin 0 → Fin S120000x1.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  slices_S2x64x64_S1x64x64_0_0_0 : S2x64x64.Slices ![0, 0, 0] S1x64x64
  shapeCasts_S1x64x64_S64x64 : S1x64x64.ShapeCasts S64x64
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  shapeCasts_S64x64_S64x64 : S64x64.ShapeCasts S64x64
  bcast_S_S120000x64 : S_.BroadcastsInDim S120000x64 (![] : Fin 0 → Fin S120000x64.rank)
  slices_S2x64x64_S1x64x64_1_0_0 : S2x64x64.Slices ![1, 0, 0] S1x64x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S1x64_S4000x64 : S1x64.Broadcasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  slices_S2x64x32_S1x64x32_0_0_0 : S2x64x32.Slices ![0, 0, 0] S1x64x32
  shapeCasts_S1x64x32_S64x32 : S1x64x32.ShapeCasts S64x32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S20000x32_S20000x32_0_0 : ∀ a, (![0, 0] : Fin 2 → Nat) a + S20000x32.size a ≤ S20000x32.size a
  h_S20000x32 : 0 < S20000x32.numel
  bcast_S_S120000x32 : S_.BroadcastsInDim S120000x32 (![] : Fin 0 → Fin S120000x32.rank)
  slices_S2x64x32_S1x64x32_1_0_0 : S2x64x32.Slices ![1, 0, 0] S1x64x32
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  broadcasts_S4000x1_S4000x32 : S4000x1.Broadcasts S4000x32
  dot_S10000x128_S128x64_S10000x64_1_0_0_1_n_n_wf : DotDims.WF S10000x128 S128x64 S10000x64 [1] [0] [0] [1] [] []
  dot_S5000x64_S64x64_S5000x64_1_0_0_1_n_n_wf : DotDims.WF S5000x64 S64x64 S5000x64 [1] [0] [0] [1] [] []
  scatter_S120000x1_S1000000x1_S1000000x1_1_0_0_1_wf : ScatterDims.WF S120000x1 S1000000x1 S1000000x1 [1] [0] [0] 1
  gather_S120000x64_S1000000x1_S1000000x64_1_0_n_n_0_1_164_wf : GatherDims.WF S120000x64 S1000000x1 S1000000x64 [1] [0] [] [0] [] 1 ![1, 64]
  dot_S20000x64_S64x64_S20000x64_1_0_0_1_n_n_wf : DotDims.WF S20000x64 S64x64 S20000x64 [1] [0] [0] [1] [] []
  scatter_S120000x64_S1000000x1_S1000000x64_1_0_0_1_wf : ScatterDims.WF S120000x64 S1000000x1 S1000000x64 [1] [0] [0] 1
  dot_S4000x64_S64x64_S4000x64_1_0_0_1_n_n_wf : DotDims.WF S4000x64 S64x64 S4000x64 [1] [0] [0] [1] [] []
  dot_S20000x64_S64x32_S20000x32_1_0_0_1_n_n_wf : DotDims.WF S20000x64 S64x32 S20000x32 [1] [0] [0] [1] [] []
  scatter_S120000x32_S1000000x1_S1000000x32_1_0_0_1_wf : ScatterDims.WF S120000x32 S1000000x1 S1000000x32 [1] [0] [0] 1
  dot_S4000x64_S64x32_S4000x32_1_0_0_1_n_n_wf : DotDims.WF S4000x64 S64x32 S4000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S20000x64.size a
  hwx1_0 : ∀ i : grid1.Coords, EltTy.bits .f32 = 32 ∨ (Rect.block (s := S20000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S20000x64.size a
  hwx1_3 : ∀ i : grid1.Coords, EltTy.bits .f32 = 32 ∨ (Rect.block (s := S20000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x64.size a ≤ S1000000x64.size a
  hwx2_0 : ∀ i : grid2.Coords, EltTy.bits .bf16 = 32 ∨ (Rect.block (s := S1000000x64) S20000x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x64.size a ≤ S1000000x64.size a
  hwx2_2 : ∀ i : grid2.Coords, EltTy.bits .f32 = 32 ∨ (Rect.block (s := S1000000x64) S20000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x64.size a ≤ S1000000x64.size a
  hwx3_0 : ∀ i : grid3.Coords, EltTy.bits .bf16 = 32 ∨ (Rect.block (s := S1000000x64) S20000x64.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S20000x64.size a ≤ S1000000x64.size a
  hwx3_2 : ∀ i : grid3.Coords, EltTy.bits .f32 = 32 ∨ (Rect.block (s := S1000000x64) S20000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S120000x64.size a
  hwx4_0 : ∀ i : grid4.Coords, EltTy.bits .f32 = 32 ∨ (Rect.block (s := S120000x64) S4000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x64.size a ≤ S120000x64.size a
  hwx4_3 : ∀ i : grid4.Coords, EltTy.bits .f32 = 32 ∨ (Rect.block (s := S120000x64) S4000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x1.size a ≤ S120000x1.size a
  hwx4_4 : ∀ i : grid4.Coords, EltTy.bits .f32 = 32 ∨ (Rect.block (s := S120000x1) S4000x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x64.size a ≤ S120000x64.size a
  hwx4_5 : ∀ i : grid4.Coords, EltTy.bits .f32 = 32 ∨ (Rect.block (s := S120000x64) S4000x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x1.size a ≤ S120000x1.size a
  hwx4_6 : ∀ i : grid4.Coords, EltTy.bits .f32 = 32 ∨ (Rect.block (s := S120000x1) S4000x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S4000x64.size a ≤ S120000x64.size a
  hwx4_7 : ∀ i : grid4.Coords, EltTy.bits .f32 = 32 ∨ (Rect.block (s := S120000x64) S4000x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S20000x64.size a ≤ S1000000x64.size a
  hwx5_0 : ∀ i : grid5.Coords, EltTy.bits .bf16 = 32 ∨ (Rect.block (s := S1000000x64) S20000x64.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x32.size a ≤ S64x32.size a
  hwx5_1 : ∀ i : grid5.Coords, EltTy.bits .f32 = 32 ∨ (Rect.block (s := S64x32) S64x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S20000x32.size a ≤ S1000000x32.size a
  hwx5_2 : ∀ i : grid5.Coords, EltTy.bits .f32 = 32 ∨ (Rect.block (s := S1000000x32) S20000x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S20000x64.size a ≤ S1000000x64.size a
  hwx6_0 : ∀ i : grid6.Coords, EltTy.bits .bf16 = 32 ∨ (Rect.block (s := S1000000x64) S20000x64.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S20000x32.size a ≤ S1000000x32.size a
  hwx6_2 : ∀ i : grid6.Coords, EltTy.bits .f32 = 32 ∨ (Rect.block (s := S1000000x32) S20000x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x64.size a ≤ S120000x64.size a
  hwx7_0 : ∀ i : grid7.Coords, EltTy.bits .f32 = 32 ∨ (Rect.block (s := S120000x64) S4000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x32.size a ≤ S64x32.size a
  hwx7_1 : ∀ i : grid7.Coords, EltTy.bits .f32 = 32 ∨ (Rect.block (s := S64x32) S64x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S4000x32.size a ≤ S120000x32.size a
  hwx7_3 : ∀ i : grid7.Coords, EltTy.bits .f32 = 32 ∨ (Rect.block (s := S120000x32) S4000x32.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S4000x1.size a ≤ S120000x1.size a
  hwx7_4 : ∀ i : grid7.Coords, EltTy.bits .f32 = 32 ∨ (Rect.block (s := S120000x1) S4000x1.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S4000x32.size a ≤ S120000x32.size a
  hwx7_5 : ∀ i : grid7.Coords, EltTy.bits .f32 = 32 ∨ (Rect.block (s := S120000x32) S4000x32.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S4000x1.size a ≤ S120000x1.size a
  hwx7_6 : ∀ i : grid7.Coords, EltTy.bits .f32 = 32 ∨ (Rect.block (s := S120000x1) S4000x1.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S4000x32.size a ≤ S120000x32.size a
  hwx7_7 : ∀ i : grid7.Coords, EltTy.bits .f32 = 32 ∨ (Rect.block (s := S120000x32) S4000x32.size (cc7_transform_7 i) (hinb7_7 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S120000x1_S1000000x1_S1000000x1_1_0_0_1 : ScatterDims S120000x1 S1000000x1 S1000000x1 where
  updateWindowDims := [1]
  insertedWindowDims := [0]
  scatterDimsToOperandDims := [0]
  indexVectorDim := 1
  wf := scatter_S120000x1_S1000000x1_S1000000x1_1_0_0_1_wf
def gather_S120000x64_S1000000x1_S1000000x64_1_0_n_n_0_1_164 : GatherDims S120000x64 S1000000x1 S1000000x64 where
  offsetDims := [1]
  collapsedSliceDims := [0]
  operandBatchingDims := []
  startIndicesBatchingDims := []
  startIndexMap := [0]
  indexVectorDim := 1
  sliceSizes := ![1, 64]
  wf := gather_S120000x64_S1000000x1_S1000000x64_1_0_n_n_0_1_164_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def scatter_S120000x64_S1000000x1_S1000000x64_1_0_0_1 : ScatterDims S120000x64 S1000000x1 S1000000x64 where
  updateWindowDims := [1]
  insertedWindowDims := [0]
  scatterDimsToOperandDims := [0]
  indexVectorDim := 1
  wf := scatter_S120000x64_S1000000x1_S1000000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S20000x64_S64x32_S20000x32_1_0_0_1_n_n : DotDims S20000x64 S64x32 S20000x32 where
  lhsContracting := [1]
  rhsContracting := [0]
  lhsNonContracting := [0]
  rhsNonContracting := [1]
  lhsBatch := []
  rhsBatch := []
  wf := dot_S20000x64_S64x32_S20000x32_1_0_0_1_n_n_wf
def scatter_S120000x32_S1000000x1_S1000000x32_1_0_0_1 : ScatterDims S120000x32 S1000000x1 S1000000x32 where
  updateWindowDims := [1]
  insertedWindowDims := [0]
  scatterDimsToOperandDims := [0]
  indexVectorDim := 1
  wf := scatter_S120000x32_S1000000x1_S1000000x32_1_0_0_1_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S20000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S20000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v40) S20000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S20000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v4) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v47) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v33) S4000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v15) S4000x1.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v46) S4000x64.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v19) S4000x1.size cc4_transform_6 reads4_6 false false 2 stage4_6 sem4_6
    hrank4 hreads4_6 hinb4_6 nbuf4_6 (Memref.isWhole_whole _) hwx4_6 hstage4_6

abbrev win4_7 : Pipeline.Window sig grid4 :=
  Pipeline.Window.ofSpec (Memref.whole main_v48) S4000x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v56) S20000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S64x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v59) S20000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v69) S20000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v71) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v72) S20000x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v48) S4000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S64x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v76) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v62) S4000x32.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v15) S4000x1.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v75) S4000x32.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v19) S4000x1.size cc7_transform_6 reads7_6 false false 2 stage7_6 sem7_6
    hrank7 hreads7_6 hinb7_6 nbuf7_6 (Memref.isWhole_whole _) hwx7_6 hstage7_6

abbrev win7_7 : Pipeline.Window sig grid7 :=
  Pipeline.Window.ofSpec (Memref.whole main_v77) S4000x32.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S100000x128 : Shape := ⟨2, ![100000, 128]⟩
abbrev S20000x64 : Shape := ⟨2, ![20000, 64]⟩
abbrev S128x64 : Shape := ⟨2, ![128, 64]⟩
abbrev S64 : Shape := ⟨1, ![64]⟩
abbrev S64x64 : Shape := ⟨2, ![64, 64]⟩
abbrev S2x64x64 : Shape := ⟨3, ![2, 64, 64]⟩
abbrev S2x64x32 : Shape := ⟨3, ![2, 64, 32]⟩
abbrev S64x32 : Shape := ⟨2, ![64, 32]⟩
abbrev S32 : Shape := ⟨1, ![32]⟩
abbrev S1000000 : Shape := ⟨1, ![1000000]⟩
abbrev S100000x64 : Shape := ⟨2, ![100000, 64]⟩
abbrev S1x64 : Shape := ⟨2, ![1, 64]⟩
abbrev S120000x64 : Shape := ⟨2, ![120000, 64]⟩
abbrev S_ : Shape := ⟨0, ![]⟩
abbrev S1000000x1 : Shape := ⟨2, ![1000000, 1]⟩
abbrev S1000000x64 : Shape := ⟨2, ![1000000, 64]⟩
abbrev S1x64x64 : Shape := ⟨3, ![1, 64, 64]⟩
abbrev S120000x1 : Shape := ⟨2, ![120000, 1]⟩
abbrev S120000x32 : Shape := ⟨2, ![120000, 32]⟩
abbrev S1x32 : Shape := ⟨2, ![1, 32]⟩
abbrev S1x64x32 : Shape := ⟨3, ![1, 64, 32]⟩
abbrev S1000000x32 : Shape := ⟨2, ![1000000, 32]⟩

abbrev nBuf : Space → Nat
  | .hbm => 148
  | .vmem => 0
  | .smem => 0
  | _ => 0

abbrev hbmTy0_0 (i : Nat) : BufTy := match i % 128 with
  | 0 => ⟨S100000x128, .f32⟩
  | 1 => ⟨S20000x64, .f32⟩
  | 2 => ⟨S128x64, .f32⟩
  | 3 => ⟨S64, .f32⟩
  | 4 => ⟨S64x64, .f32⟩
  | 5 => ⟨S64, .f32⟩
  | 6 => ⟨S2x64x64, .f32⟩
  | 7 => ⟨S64x64, .f32⟩
  | 8 => ⟨S64, .f32⟩
  | 9 => ⟨S2x64x32, .f32⟩
  | 10 => ⟨S64x32, .f32⟩
  | 11 => ⟨S32, .f32⟩
  | 12 => ⟨S1000000, .i32⟩
  | 13 => ⟨S1000000, .i32⟩
  | 14 => ⟨S1000000, .i32⟩
  | 15 => ⟨S1000000, .i32⟩
  | 16 => ⟨S100000x64, .f32⟩
  | 17 => ⟨S1x64, .f32⟩
  | 18 => ⟨S100000x64, .f32⟩
  | 19 => ⟨S100000x64, .f32⟩
  | 20 => ⟨S20000x64, .f32⟩
  | 21 => ⟨S1x64, .f32⟩
  | 22 => ⟨S20000x64, .f32⟩
  | 23 => ⟨S20000x64, .f32⟩
  | 24 => ⟨S120000x64, .f32⟩
  | 25 => ⟨S120000x64, .f32⟩
  | 26 => ⟨S1x64, .f32⟩
  | 27 => ⟨S120000x64, .f32⟩
  | 28 => ⟨S120000x64, .f32⟩
  | 29 => ⟨S_, .i32⟩
  | 30 => ⟨S1000000, .i32⟩
  | 31 => ⟨S1000000, .i1⟩
  | 32 => ⟨S_, .i32⟩
  | 33 => ⟨S1000000, .i32⟩
  | 34 => ⟨S1000000, .i32⟩
  | 35 => ⟨S1000000, .i32⟩
  | 36 => ⟨S1000000x1, .i32⟩
  | 37 => ⟨S1000000x64, .f32⟩
  | 38 => ⟨S1x64x64, .f32⟩
  | 39 => ⟨S64x64, .f32⟩
  | 40 => ⟨S1000000x64, .f32⟩
  | 41 => ⟨S_, .f32⟩
  | 42 => ⟨S120000x64, .f32⟩
  | 43 => ⟨S1000000x1, .i32⟩
  | 44 => ⟨S120000x64, .f32⟩
  | 45 => ⟨S_, .f32⟩
  | 46 => ⟨S1000000x1, .f32⟩
  | 47 => ⟨S_, .f32⟩
  | 48 => ⟨S120000x1, .f32⟩
  | 49 => ⟨S1000000x1, .i32⟩
  | 50 => ⟨S120000x1, .f32⟩
  | 51 => ⟨S_, .f32⟩
  | 52 => ⟨S120000x1, .f32⟩
  | 53 => ⟨S120000x1, .f32⟩
  | 54 => ⟨S120000x64, .f32⟩
  | 55 => ⟨S120000x64, .f32⟩
  | 56 => ⟨S120000x64, .f32⟩
  | 57 => ⟨S_, .i32⟩
  | 58 => ⟨S1000000, .i32⟩
  | 59 => ⟨S1000000, .i1⟩
  | 60 => ⟨S_, .i32⟩
  | 61 => ⟨S1000000, .i32⟩
  | 62 => ⟨S1000000, .i32⟩
  | 63 => ⟨S1000000, .i32⟩
  | 64 => ⟨S1000000x1, .i32⟩
  | 65 => ⟨S1000000x64, .f32⟩
  | 66 => ⟨S1x64x64, .f32⟩
  | 67 => ⟨S64x64, .f32⟩
  | 68 => ⟨S1000000x64, .f32⟩
  | 69 => ⟨S_, .f32⟩
  | 70 => ⟨S120000x64, .f32⟩
  | 71 => ⟨S1000000x1, .i32⟩
  | 72 => ⟨S120000x64, .f32⟩
  | 73 => ⟨S_, .f32⟩
  | 74 => ⟨S1000000x1, .f32⟩
  | 75 => ⟨S_, .f32⟩
  | 76 => ⟨S120000x1, .f32⟩
  | 77 => ⟨S1000000x1, .i32⟩
  | 78 => ⟨S120000x1, .f32⟩
  | 79 => ⟨S_, .f32⟩
  | 80 => ⟨S120000x1, .f32⟩
  | 81 => ⟨S120000x1, .f32⟩
  | 82 => ⟨S120000x64, .f32⟩
  | 83 => ⟨S120000x64, .f32⟩
  | 84 => ⟨S120000x64, .f32⟩
  | 85 => ⟨S_, .f32⟩
  | 86 => ⟨S120000x64, .f32⟩
  | 87 => ⟨S120000x64, .f32⟩
  | 88 => ⟨S120000x32, .f32⟩
  | 89 => ⟨S1x32, .f32⟩
  | 90 => ⟨S120000x32, .f32⟩
  | 91 => ⟨S120000x32, .f32⟩
  | 92 => ⟨S_, .i32⟩
  | 93 => ⟨S1000000, .i32⟩
  | 94 => ⟨S1000000, .i1⟩
  | 95 => ⟨S_, .i32⟩
  | 96 => ⟨S1000000, .i32⟩
  | 97 => ⟨S1000000, .i32⟩
  | 98 => ⟨S1000000, .i32⟩
  | 99 => ⟨S1000000x1, .i32⟩
  | 100 => ⟨S1000000x64, .f32⟩
  | 101 => ⟨S1x64x32, .f32⟩
  | 102 => ⟨S64x32, .f32⟩
  | 103 => ⟨S1000000x32, .f32⟩
  | 104 => ⟨S_, .f32⟩
  | 105 => ⟨S120000x32, .f32⟩
  | 106 => ⟨S1000000x1, .i32⟩
  | 107 => ⟨S120000x32, .f32⟩
  | 108 => ⟨S_, .f32⟩
  | 109 => ⟨S1000000x1, .f32⟩
  | 110 => ⟨S_, .f32⟩
  | 111 => ⟨S120000x1, .f32⟩
  | 112 => ⟨S1000000x1, .i32⟩
  | 113 => ⟨S120000x1, .f32⟩
  | 114 => ⟨S_, .f32⟩
  | 115 => ⟨S120000x1, .f32⟩
  | 116 => ⟨S120000x1, .f32⟩
  | 117 => ⟨S120000x32, .f32⟩
  | 118 => ⟨S120000x32, .f32⟩
  | 119 => ⟨S120000x32, .f32⟩
  | 120 => ⟨S_, .i32⟩
  | 121 => ⟨S1000000, .i32⟩
  | 122 => ⟨S1000000, .i1⟩
  | 123 => ⟨S_, .i32⟩
  | 124 => ⟨S1000000, .i32⟩
  | 125 => ⟨S1000000, .i32⟩
  | 126 => ⟨S1000000, .i32⟩
  | 127 => ⟨S1000000x1, .i32⟩
  | _ => ⟨S100000x128, .f32⟩

abbrev hbmTy0_1 (i : Nat) : BufTy := match i % 128 with
  | 0 => ⟨S1000000x64, .f32⟩
  | 1 => ⟨S1x64x32, .f32⟩
  | 2 => ⟨S64x32, .f32⟩
  | 3 => ⟨S1000000x32, .f32⟩
  | 4 => ⟨S_, .f32⟩
  | 5 => ⟨S120000x32, .f32⟩
  | 6 => ⟨S1000000x1, .i32⟩
  | 7 => ⟨S120000x32, .f32⟩
  | 8 => ⟨S_, .f32⟩
  | 9 => ⟨S1000000x1, .f32⟩
  | 10 => ⟨S_, .f32⟩
  | 11 => ⟨S120000x1, .f32⟩
  | 12 => ⟨S1000000x1, .i32⟩
  | 13 => ⟨S120000x1, .f32⟩
  | 14 => ⟨S_, .f32⟩
  | 15 => ⟨S120000x1, .f32⟩
  | 16 => ⟨S120000x1, .f32⟩
  | 17 => ⟨S120000x32, .f32⟩
  | 18 => ⟨S120000x32, .f32⟩
  | 19 => ⟨S120000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_1 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_4 : Ref sig .tc := ⟨.hbm, 57, rfl⟩
abbrev main_v35 : Ref sig .tc := ⟨.hbm, 58, rfl⟩
abbrev main_v36 : Ref sig .tc := ⟨.hbm, 59, rfl⟩
abbrev main_c_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_6 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_7 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_call0_cst : Ref sig .tc := ⟨.hbm, 85, rfl⟩
abbrev main_call0_v0 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_10 : Ref sig .tc := ⟨.hbm, 92, rfl⟩
abbrev main_v62 : Ref sig .tc := ⟨.hbm, 93, rfl⟩
abbrev main_v63 : Ref sig .tc := ⟨.hbm, 94, rfl⟩
abbrev main_c_11 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_12 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_13 : Ref sig .tc := ⟨.hbm, 108, rfl⟩
abbrev main_v75 : Ref sig .tc := ⟨.hbm, 109, rfl⟩
abbrev main_cst_14 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_15 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_16 : Ref sig .tc := ⟨.hbm, 120, rfl⟩
abbrev main_v84 : Ref sig .tc := ⟨.hbm, 121, rfl⟩
abbrev main_v85 : Ref sig .tc := ⟨.hbm, 122, rfl⟩
abbrev main_c_17 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_18 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_19 : Ref sig .tc := ⟨.hbm, 136, rfl⟩
abbrev main_v97 : Ref sig .tc := ⟨.hbm, 137, rfl⟩
abbrev main_cst_20 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_21 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S20000x64_0_1 : S1x64.BroadcastsInDim S20000x64 (![0, 1] : Fin 2 → Fin S20000x64.rank)
  concatenates_S100000x64_S20000x64_S120000x64_d0 : Shape.Concatenates [S100000x64, S20000x64] S120000x64 0
  bcast_S1x64_S120000x64_0_1 : S1x64.BroadcastsInDim S120000x64 (![0, 1] : Fin 2 → Fin S120000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x64x64_S1x64x64_0_0_0 : S2x64x64.Slices ![0, 0, 0] S1x64x64
  shapeCasts_S1x64x64_S64x64 : S1x64x64.ShapeCasts S64x64
  bcast_S_S120000x64 : S_.BroadcastsInDim S120000x64 (![] : Fin 0 → Fin S120000x64.rank)
  bcast_S_S1000000x1 : S_.BroadcastsInDim S1000000x1 (![] : Fin 0 → Fin S1000000x1.rank)
  bcast_S_S120000x1 : S_.BroadcastsInDim S120000x1 (![] : Fin 0 → Fin S120000x1.rank)
  bcast_S120000x1_S120000x64_0_1 : S120000x1.BroadcastsInDim S120000x64 (![0, 1] : Fin 2 → Fin S120000x64.rank)
  slices_S2x64x64_S1x64x64_1_0_0 : S2x64x64.Slices ![1, 0, 0] S1x64x64
  bcast_S32_S1x32_1 : S32.BroadcastsInDim S1x32 (![1] : Fin 1 → Fin S1x32.rank)
  bcast_S1x32_S120000x32_0_1 : S1x32.BroadcastsInDim S120000x32 (![0, 1] : Fin 2 → Fin S120000x32.rank)
  slices_S2x64x32_S1x64x32_0_0_0 : S2x64x32.Slices ![0, 0, 0] S1x64x32
  shapeCasts_S1x64x32_S64x32 : S1x64x32.ShapeCasts S64x32
  bcast_S_S120000x32 : S_.BroadcastsInDim S120000x32 (![] : Fin 0 → Fin S120000x32.rank)
  bcast_S120000x1_S120000x32_0_1 : S120000x1.BroadcastsInDim S120000x32 (![0, 1] : Fin 2 → Fin S120000x32.rank)
  slices_S2x64x32_S1x64x32_1_0_0 : S2x64x32.Slices ![1, 0, 0] S1x64x32
  dot_S100000x128_S128x64_S100000x64_1_0_0_1_n_n_wf : DotDims.WF S100000x128 S128x64 S100000x64 [1] [0] [0] [1] [] []
  dot_S20000x64_S64x64_S20000x64_1_0_0_1_n_n_wf : DotDims.WF S20000x64 S64x64 S20000x64 [1] [0] [0] [1] [] []
  dot_S120000x64_S64x64_S120000x64_1_0_0_1_n_n_wf : DotDims.WF S120000x64 S64x64 S120000x64 [1] [0] [0] [1] [] []
  gather_S120000x64_S1000000x1_S1000000x64_1_0_n_n_0_1_164_wf : GatherDims.WF S120000x64 S1000000x1 S1000000x64 [1] [0] [] [0] [] 1 ![1, 64]
  dot_S1000000x64_S64x64_S1000000x64_1_0_0_1_n_n_wf : DotDims.WF S1000000x64 S64x64 S1000000x64 [1] [0] [0] [1] [] []
  scatter_S120000x64_S1000000x1_S1000000x64_1_0_0_1_wf : ScatterDims.WF S120000x64 S1000000x1 S1000000x64 [1] [0] [0] 1
  scatter_S120000x1_S1000000x1_S1000000x1_1_0_0_1_wf : ScatterDims.WF S120000x1 S1000000x1 S1000000x1 [1] [0] [0] 1
  dot_S120000x64_S64x32_S120000x32_1_0_0_1_n_n_wf : DotDims.WF S120000x64 S64x32 S120000x32 [1] [0] [0] [1] [] []
  dot_S1000000x64_S64x32_S1000000x32_1_0_0_1_n_n_wf : DotDims.WF S1000000x64 S64x32 S1000000x32 [1] [0] [0] [1] [] []
  scatter_S120000x32_S1000000x1_S1000000x32_1_0_0_1_wf : ScatterDims.WF S120000x32 S1000000x1 S1000000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def dot_S120000x64_S64x64_S120000x64_1_0_0_1_n_n : DotDims S120000x64 S64x64 S120000x64 where
  lhsContracting := [1]
  rhsContracting := [0]
  lhsNonContracting := [0]
  rhsNonContracting := [1]
  lhsBatch := []
  rhsBatch := []
  wf := dot_S120000x64_S64x64_S120000x64_1_0_0_1_n_n_wf
def gather_S120000x64_S1000000x1_S1000000x64_1_0_n_n_0_1_164 : GatherDims S120000x64 S1000000x1 S1000000x64 where
  offsetDims := [1]
  collapsedSliceDims := [0]
  operandBatchingDims := []
  startIndicesBatchingDims := []
  startIndexMap := [0]
  indexVectorDim := 1
  sliceSizes := ![1, 64]
  wf := gather_S120000x64_S1000000x1_S1000000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S120000x64_S1000000x1_S1000000x64_1_0_0_1 : ScatterDims S120000x64 S1000000x1 S1000000x64 where
  updateWindowDims := [1]
  insertedWindowDims := [0]
  scatterDimsToOperandDims := [0]
  indexVectorDim := 1
  wf := scatter_S120000x64_S1000000x1_S1000000x64_1_0_0_1_wf
def scatter_S120000x1_S1000000x1_S1000000x1_1_0_0_1 : ScatterDims S120000x1 S1000000x1 S1000000x1 where
  updateWindowDims := [1]
  insertedWindowDims := [0]
  scatterDimsToOperandDims := [0]
  indexVectorDim := 1
  wf := scatter_S120000x1_S1000000x1_S1000000x1_1_0_0_1_wf
def dot_S120000x64_S64x32_S120000x32_1_0_0_1_n_n : DotDims S120000x64 S64x32 S120000x32 where
  lhsContracting := [1]
  rhsContracting := [0]
  lhsNonContracting := [0]
  rhsNonContracting := [1]
  lhsBatch := []
  rhsBatch := []
  wf := dot_S120000x64_S64x32_S120000x32_1_0_0_1_n_n_wf
def dot_S1000000x64_S64x32_S1000000x32_1_0_0_1_n_n : DotDims S1000000x64 S64x32 S1000000x32 where
  lhsContracting := [1]
  rhsContracting := [0]
  lhsNonContracting := [0]
  rhsNonContracting := [1]
  lhsBatch := []
  rhsBatch := []
  wf := dot_S1000000x64_S64x32_S1000000x32_1_0_0_1_n_n_wf
def scatter_S120000x32_S1000000x1_S1000000x32_1_0_0_1 : ScatterDims S120000x32 S1000000x1 S1000000x32 where
  updateWindowDims := [1]
  insertedWindowDims := [0]
  scatterDimsToOperandDims := [0]
  indexVectorDim := 1
  wf := scatter_S120000x32_S1000000x1_S1000000x32_1_0_0_1_wf

class Facts : Prop extends Facts₀ where

variable [Facts]
-- ==== Proof.KRun.lean ====
/-
  The idealized kernel's run, with every buffer named at its end.

  The program is eight kernel regions among stretches of host operations. Its run is the launch of these sixteen
  segments in order; at the end every buffer of a core that no region scopes holds the contents of the last
  segment boundary, a fold of the host operations and of the regions' write-backs over the launch memory. The frame
  claim keeps only the argument buffers of this; here the whole final valuation is kept, so that the result buffer
  can be read from it.
-/
import proofs.«169592_j3186865733924_2_alg».proof.Proof.Gen.KernelIdeal.Frame

set_option maxRecDepth 16384

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every unscoped buffer of every core
    ends at the last boundary's contents. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h => h)

/-- The result buffer and the sixteen argument buffers at the end of the run: the result at the last boundary's
    contents, each argument as launched. -/
theorem run_result : θ_run defs (onTc (τ := τ) (main (F := F))) ⟨m, fun _ => 0, ρ⟩ (fun r => ∀ c : Dev nD,
      r.2.mem ((c.tc : Thread nD τ).loc main_v77) = W16 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
      ⟨h c _ (mem_uc main_v77 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c)⟩)
    (run_fold m ρ)

end Cert.KernelIdeal.Fold

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.LibLayerProduct.lean ====
/-
  One layer of the network, read at an entry, over the extended reals.

  A layer multiplies a matrix of node features by a weight matrix. From the second layer on, the features are first
  shifted by a bias row and clamped below at zero. Entry (r, q) of the result is therefore a sum over the contracted
  axis k: of a (r, k) · w (k, q) for the first layer, and of max (a (r, k) + b (0, k)) 0 · w (k, q) for the others.
  Rounding the two factors to a narrower float format changes nothing over the extended reals, and a product
  accumulated into zero is the plain sum, so the tiled kernel body's stored value, read at an entry of its tile, is
  that sum over the tile's own rows.
-/
import Idealize.ShloMosaic.PureOps.Ideal.Laws
import Idealize.ShloMosaic.Lib.ValueIdx
import Idealize.ShloMosaic.Lib.ValueLayout
import Idealize.ShloMosaic.Lib.Pipeline.Value
import proofs.«169592_j3186865733924_2_alg».proof.Proof.LibMatmul

noncomputable section

namespace Cert.Layer

open Idealize.ShloMosaic Idealize.ShloMosaic.ValueIdx

/-- The plain product: entry (r, q) is the sum over k of a (r, k) · w (k, q). -/
def prod {A K B : ℕ} (a : FVec Ideal (⟨2, ![A, K]⟩ : Shape) .f32) (w : FVec Ideal (⟨2, ![K, B]⟩ : Shape) .f32) :
    FVec Ideal (⟨2, ![A, B]⟩ : Shape) .f32 :=
  fun i => ∑ k : Fin K, a (ix2 (i 0) k) * w (ix2 k (i 1))

/-- The product after the bias row is added and negatives are clamped to zero:
    entry (r, q) is the sum over k of max (a (r, k) + b (0, k)) 0 · w (k, q). -/
def biasReluProd {A K B : ℕ} (a : FVec Ideal (⟨2, ![A, K]⟩ : Shape) .f32) (b : FVec Ideal (⟨2, ![1, K]⟩ : Shape) .f32)
    (w : FVec Ideal (⟨2, ![K, B]⟩ : Shape) .f32) : FVec Ideal (⟨2, ![A, B]⟩ : Shape) .f32 :=
  fun i => ∑ k : Fin K, max (a (ix2 (i 0) k) + b (ix2 (0 : Fin 1) k)) 0 * w (ix2 k (i 1))

/-- Two entries of the plain product agree when the row and the column they sum over agree, term by term. -/
theorem prod_congr {A A' K B B' : ℕ}
    (a : FVec Ideal (⟨2, ![A, K]⟩ : Shape) .f32) (w : FVec Ideal (⟨2, ![K, B]⟩ : Shape) .f32)
    (a' : FVec Ideal (⟨2, ![A', K]⟩ : Shape) .f32) (w' : FVec Ideal (⟨2, ![K, B']⟩ : Shape) .f32)
    (r : Fin A) (q : Fin B) (r' : Fin A') (q' : Fin B')
    (ha : ∀ k : Fin K, a (ix2 r k) = a' (ix2 r' k)) (hw : ∀ k : Fin K, w (ix2 k q) = w' (ix2 k q')) :
    prod a w (ix2 r q) = prod a' w' (ix2 r' q') := by
  show (∑ k : Fin K, a (ix2 r k) * w (ix2 k q)) = ∑ k : Fin K, a' (ix2 r' k) * w' (ix2 k q')
  exact Finset.sum_congr rfl fun k _ => by rw [ha k, hw k]

/-- Two entries of the clamped product agree when the row, the bias row and the column they sum over agree. -/
theorem biasReluProd_congr {A A' K B B' : ℕ}
    (a : FVec Ideal (⟨2, ![A, K]⟩ : Shape) .f32) (b : FVec Ideal (⟨2, ![1, K]⟩ : Shape) .f32) (w : FVec Ideal (⟨2, ![K, B]⟩ : Shape) .f32)
    (a' : FVec Ideal (⟨2, ![A', K]⟩ : Shape) .f32) (b' : FVec Ideal (⟨2, ![1, K]⟩ : Shape) .f32) (w' : FVec Ideal (⟨2, ![K, B']⟩ : Shape) .f32)
    (r : Fin A) (q : Fin B) (r' : Fin A') (q' : Fin B')
    (ha : ∀ k : Fin K, a (ix2 r k) = a' (ix2 r' k)) (hb : ∀ k : Fin K, b (ix2 (0 : Fin 1) k) = b' (ix2 (0 : Fin 1) k))
    (hw : ∀ k : Fin K, w (ix2 k q) = w' (ix2 k q')) :
    biasReluProd a b w (ix2 r q) = biasReluProd a' b' w' (ix2 r' q') := by
  show (∑ k : Fin K, max (a (ix2 r k) + b (ix2 (0 : Fin 1) k)) 0 * w (ix2 k q))
    = ∑ k : Fin K, max (a' (ix2 r' k) + b' (ix2 (0 : Fin 1) k)) 0 * w' (ix2 k q')
  exact Finset.sum_congr rfl fun k _ => by rw [ha k, hb k, hw k]

/-- The two factors rounded to a narrower format and multiplied into a zero accumulator: the plain product. -/
theorem matmul_trunc_apply {A K B : ℕ}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (h16 : FTy.bf16.bits < FTy.f32.bits)
    (x0 : FVec Ideal (⟨2, ![A, K]⟩ : Shape) .f32) (x2 : FVec Ideal (⟨2, ![K, B]⟩ : Shape) .f32) (p : Fin A) (q : Fin B) :
    FloatOps.matmul d none (truncf .bf16 x0 h16) (truncf .bf16 x2 h16)
        (constant (F := Ideal) (⟨2, ![A, B]⟩ : Shape) .f32 0x00000000#32) (ix2 p q)
      = prod x0 x2 (ix2 p q) :=
  (Cert.LibMatmul.matmul_zero_ix2 d hr hs hl0 hl1 hr0 hr1 none _ _ p q).trans
    (Finset.sum_congr rfl fun _ _ => rfl)

/-- The same with the left factor first shifted by a bias row spread over all rows and clamped below at zero. -/
theorem biasRelu_matmul_apply {A K B : ℕ}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (h16 : FTy.bf16.bits < FTy.f32.bits)
    (hbc : (⟨2, ![1, K]⟩ : Shape).Broadcasts ⟨2, ![A, K]⟩)
    (x0 : FVec Ideal (⟨2, ![A, K]⟩ : Shape) .f32) (x1 : FVec Ideal (⟨2, ![1, K]⟩ : Shape) .f32)
    (x2 : FVec Ideal (⟨2, ![K, B]⟩ : Shape) .f32) (p : Fin A) (q : Fin B) :
    FloatOps.matmul d none
        (truncf .bf16 (maximumf (addf x0 (broadcastTo (⟨2, ![A, K]⟩ : Shape) x1 hbc))
          (broadcast (⟨2, ![A, K]⟩ : Shape) (Scalar.ofBits (F := Ideal) .f32 0x00000000#32))) h16)
        (truncf .bf16 x2 h16)
        (constant (F := Ideal) (⟨2, ![A, B]⟩ : Shape) .f32 0x00000000#32) (ix2 p q)
      = biasReluProd x0 x1 x2 (ix2 p q) := by
  refine (Cert.LibMatmul.matmul_zero_ix2 d hr hs hl0 hl1 hr0 hr1 none _ _ p q).trans ?_
  refine Finset.sum_congr rfl fun k _ => ?_
  show max (x0 (ix2 p k) + broadcastTo (⟨2, ![A, K]⟩ : Shape) x1 hbc (ix2 p k)) (Ideal.ofBits .f32 0x00000000#32) * x2 (ix2 k q)
    = max (x0 (ix2 p k) + x1 (ix2 (0 : Fin 1) k)) 0 * x2 (ix2 k q)
  rw [broadcastTo_1b_ab_apply, Ideal.ofBits_zero_f32]

end Cert.Layer

end
-- ==== Proof.Spec.lean ====
/-
  The network both programs compute, as one function of the argument arrays over the extended reals.

  Reviews and products are embedded by a linear map each, a matrix product plus a bias row, and stacked into one table of
  nodes. A layer then replaces the table x by
      x · W_root + b + (sum of the messages arriving over relation 0) · n0 + (sum arriving over relation 1) · n1,
  where the message an edge carries is the row of x at its source times that relation's weight matrix, a node sums the
  messages of the edges that end at it, and n0, n1 hold one number per node: the reciprocal of the number of such
  edges, at least one. The first layer clamps the result below at zero; the second does not.

  How rows are taken at the sources, how messages are summed at the targets, how the two embedded tables are stacked and
  what the per-node reciprocals are is the same in both programs and is kept here as a record of functions, so that
  the network is stated once and each program is shown to compute it at its own record.
-/
import Idealize.ShloMosaic.PureOps.Ideal.Laws
import Idealize.ShloMosaic.Lib.ValueIdx
import proofs.«169592_j3186865733924_2_alg».proof.Proof.LibLayerProduct

noncomputable section

namespace Cert.Rgcn

open Idealize.ShloMosaic Idealize.ShloMosaic.ValueIdx

/-- An A by B array of extended reals. -/
abbrev Mat (A B : ℕ) : Type := FVec Ideal (⟨2, ![A, B]⟩ : Shape) .f32

/-- A matrix product plus a bias row: entry (p, q) is the sum over k of x (p, k) · w (k, q), plus b (0, q). -/
def linBias {A K B : ℕ} (x : Mat A K) (w : Mat K B) (b : Mat 1 B) : Mat A B :=
  fun i => Cert.Layer.prod x w i + b (ix2 (0 : Fin 1) (i 1))

/-- One layer without the clamp: the root term and the bias, then relation 0's sums scaled per node, then relation 1's. -/
def root {A K B : ℕ} (x : Mat A K) (w : Mat K B) (b : Mat 1 B) (g0 : Mat A B) (n0 : Mat A 1) (g1 : Mat A B) (n1 : Mat A 1) :
    Mat A B :=
  fun i => (linBias x w b i + g0 i * n0 (ix2 (i 0) (0 : Fin 1))) + g1 i * n1 (ix2 (i 0) (0 : Fin 1))

/-- One layer clamped below at zero. -/
def rootRelu {A K B : ℕ} (x : Mat A K) (w : Mat K B) (b : Mat 1 B) (g0 : Mat A B) (n0 : Mat A 1) (g1 : Mat A B) (n1 : Mat A 1) :
    Mat A B :=
  fun i => max (root x w b g0 n0 g1 n1 i) 0

/-- What the two programs share outside the matrix products: stacking the two embedded tables, taking the rows at each
    relation's sources, summing messages at each relation's targets (for 64 and for 32 columns), and the per-node
    reciprocal counts. -/
structure Glue (NR NP N E : ℕ) where
  cat : Mat NR 64 → Mat NP 64 → Mat N 64
  take0 : Mat N 64 → Mat E 64
  take1 : Mat N 64 → Mat E 64
  sum0h : Mat E 64 → Mat N 64
  sum1h : Mat E 64 → Mat N 64
  sum0o : Mat E 32 → Mat N 32
  sum1o : Mat E 32 → Mat N 32
  inv0 : Mat N 1
  inv1 : Mat N 1

variable {NR NP N E : ℕ}

/-- The stacked table of embedded nodes. -/
def embed (g : Glue NR NP N E) (xr : Mat NR 128) (wr : Mat 128 64) (br : Mat 1 64) (xp : Mat NP 64) (wp : Mat 64 64)
    (bp : Mat 1 64) : Mat N 64 :=
  g.cat (linBias xr wr br) (linBias xp wp bp)

/-- The first layer: clamped. -/
def layer1 (g : Glue NR NP N E) (x : Mat N 64) (u0 u1 w : Mat 64 64) (b : Mat 1 64) : Mat N 64 :=
  rootRelu x w b (g.sum0h (Cert.Layer.prod (g.take0 x) u0)) g.inv0 (g.sum1h (Cert.Layer.prod (g.take1 x) u1)) g.inv1

/-- The second layer: not clamped. -/
def layer2 (g : Glue NR NP N E) (x : Mat N 64) (v0 v1 w : Mat 64 32) (b : Mat 1 32) : Mat N 32 :=
  root x w b (g.sum0o (Cert.Layer.prod (g.take0 x) v0)) g.inv0 (g.sum1o (Cert.Layer.prod (g.take1 x) v1)) g.inv1

/-- The network. -/
def net (g : Glue NR NP N E) (xr : Mat NR 128) (wr : Mat 128 64) (br : Mat 1 64) (xp : Mat NP 64) (wp : Mat 64 64)
    (bp : Mat 1 64) (u0 u1 w1 : Mat 64 64) (b1 : Mat 1 64) (v0 v1 w2 : Mat 64 32) (b2 : Mat 1 32) : Mat N 32 :=
  layer2 g (layer1 g (embed g xr wr br xp wp bp) u0 u1 w1 b1) v0 v1 w2 b2

end Cert.Rgcn

end
-- ==== Proof.KGlue.lean ====
/-
  What the idealized kernel's program does outside its matrix products, as functions.

  Between the kernel regions the program stacks the two embedded tables, wraps negative edge endpoints around the node
  count and takes the table's rows at them (after a change of float format, which is the identity over the extended
  reals), sums the per-edge messages at the edges' targets into a zero table, and computes per node the reciprocal of
  the number of edges ending there, at least one. Each is spelled here exactly as the program's host operations spell
  it, as a function of the endpoint arrays, and collected into the record the network is stated over.
-/
import proofs.«169592_j3186865733924_2_alg».proof.Proof.Gen.KernelIdeal
import proofs.«169592_j3186865733924_2_alg».proof.Proof.Spec

noncomputable section

namespace Cert.KernelIdeal.KGlue

open Idealize.ShloMosaic Idealize.ShloMosaic.TcCoe
open Cert.KernelIdeal Cert.KernelIdeal.Gen Cert.Rgcn

/-- One endpoint per edge. -/
abbrev Ends : Type := (⟨S1000000, .i32⟩ : BufTy).Contents (Elt Ideal)

/-- The endpoints as a column, a negative endpoint wrapped around by the node count. -/
def col (s : Ends) : (⟨S1000000x1, .i32⟩ : BufTy).Contents (Elt Ideal) :=
  broadcastInDim S1000000x1 ![0] bcast_S1000000_S1000000x1_0
    (select (cmpi .slt s (broadcastInDim S1000000 ![] bcast_S_S1000000 (constantI S_ 32 0#32)))
      (addi s (broadcastInDim S1000000 ![] bcast_S_S1000000 (constantI S_ 32 120000#32))) s)

/-- The table's rows at the edges' sources. -/
def take (s : Ends) (x : Mat 120000 64) : Mat 1000000 64 :=
  Host.gather gather_S120000x64_S1000000x1_S1000000x64_1_0_n_n_0_1_164 (truncf .bf16 x bitsLt_bf16_f32) (col s)

/-- The per-edge messages summed at the edges' targets, 64 columns. -/
def sumH (d : Ends) (u : Mat 1000000 64) : Mat 120000 64 :=
  Host.scatterAdd scatter_S120000x64_S1000000x1_S1000000x64_1_0_0_1
    (broadcastInDim S120000x64 ![] bcast_S_S120000x64 (constant (F := Ideal) S_ .f32 0x00000000#32))
    (broadcastInDim S1000000x1 ![0] bcast_S1000000_S1000000x1_0 d) u

/-- The per-edge messages summed at the edges' targets, 32 columns. -/
def sumO (d : Ends) (u : Mat 1000000 32) : Mat 120000 32 :=
  Host.scatterAdd scatter_S120000x32_S1000000x1_S1000000x32_1_0_0_1
    (broadcastInDim S120000x32 ![] bcast_S_S120000x32 (constant (F := Ideal) S_ .f32 0x00000000#32))
    (broadcastInDim S1000000x1 ![0] bcast_S1000000_S1000000x1_0 d) u

/-- Per node, one over the number of edges ending there, the number taken as at least one. -/
def inv (d : Ends) : Mat 120000 1 :=
  Host.divf (F := Ideal) (broadcastInDim S120000x1 ![] bcast_S_S120000x1 (constant (F := Ideal) S_ .f32 0x3F800000#32))
    (maximumf
      (Host.scatterAdd scatter_S120000x1_S1000000x1_S1000000x1_1_0_0_1
        (broadcastInDim S120000x1 ![] bcast_S_S120000x1 (constant (F := Ideal) S_ .f32 0x00000000#32))
        (broadcastInDim S1000000x1 ![0] bcast_S1000000_S1000000x1_0 d)
        (broadcastInDim S1000000x1 ![] bcast_S_S1000000x1 (constant (F := Ideal) S_ .f32 0x3F800000#32)))
      (broadcastInDim S120000x1 ![] bcast_S_S120000x1 (constant (F := Ideal) S_ .f32 0x3F800000#32)))

/-- The two embedded tables stacked, reviews first. -/
def cat (a : Mat 100000 64) (b : Mat 20000 64) : Mat 120000 64 :=
  concatenate S120000x64 0 [⟨S100000x64, a⟩, ⟨S20000x64, b⟩] concatenates_S100000x64_S20000x64_S120000x64_d0

/-- The record of these, for endpoint arrays src0, dst0, src1, dst1. -/
def glue (s0 d0 s1 d1 : Ends) : Glue 100000 20000 120000 1000000 where
  cat := cat
  take0 := take s0
  take1 := take s1
  sum0h := sumH d0
  sum1h := sumH d1
  sum0o := sumO d0
  sum1o := sumO d1
  inv0 := inv d0
  inv1 := inv d1

/-- A bias vector of 64 numbers as a row. -/
def row64 (b : (⟨S64, .f32⟩ : BufTy).Contents (Elt Ideal)) : Mat 1 64 := shapeCast S1x64 b shapeCasts_S64_S1x64
/-- A bias vector of 32 numbers as a row. -/
def row32 (b : (⟨S32, .f32⟩ : BufTy).Contents (Elt Ideal)) : Mat 1 32 := shapeCast S1x32 b shapeCasts_S32_S1x32

/-- Relation 0's weight matrix of the first layer. -/
def rel1_0 (w : (⟨S2x64x64, .f32⟩ : BufTy).Contents (Elt Ideal)) : Mat 64 64 :=
  shapeCast S64x64 (extractStridedSlice S1x64x64 ![0, 0, 0] w slices_S2x64x64_S1x64x64_0_0_0) shapeCasts_S1x64x64_S64x64
/-- Relation 1's weight matrix of the first layer. -/
def rel1_1 (w : (⟨S2x64x64, .f32⟩ : BufTy).Contents (Elt Ideal)) : Mat 64 64 :=
  shapeCast S64x64 (extractStridedSlice S1x64x64 ![1, 0, 0] w slices_S2x64x64_S1x64x64_1_0_0) shapeCasts_S1x64x64_S64x64
/-- Relation 0's weight matrix of the second layer. -/
def rel2_0 (w : (⟨S2x64x32, .f32⟩ : BufTy).Contents (Elt Ideal)) : Mat 64 32 :=
  shapeCast S64x32 (extractStridedSlice S1x64x32 ![0, 0, 0] w slices_S2x64x32_S1x64x32_0_0_0) shapeCasts_S1x64x32_S64x32
/-- Relation 1's weight matrix of the second layer. -/
def rel2_1 (w : (⟨S2x64x32, .f32⟩ : BufTy).Contents (Elt Ideal)) : Mat 64 32 :=
  shapeCast S64x32 (extractStridedSlice S1x64x32 ![1, 0, 0] w slices_S2x64x32_S1x64x32_1_0_0) shapeCasts_S1x64x32_S64x32

end Cert.KernelIdeal.KGlue

end
-- ==== Proof.Keep.lean ====
/-
  Buffers that nothing writes between two points of the program keep their contents.

  The program's buffer contents at its sixteen segment boundaries are a fold over the launch memory: a stretch of host
  operations rewrites the buffers its operations write, a kernel region rewrites its output array. Read at a buffer that
  a stretch does not write, the fold steps back over the stretch; read at a buffer that is not one of a region's
  arrays, or is one of its input arrays, it steps back over the region. Each lemma here walks one buffer back over a
  run of boundaries in this way; the argument buffers walk back to the launch memory.
-/
import proofs.«169592_j3186865733924_2_alg».proof.Proof.Gen.KernelIdeal.Frame

set_option maxRecDepth 16384

noncomputable section

namespace Cert.KernelIdeal.Keep

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg) (c : Dev nD)

/-! ## The argument buffers, back to the launch memory -/

theorem arg0_1 : W1 m ρ c (Proc.devRef .tc main_arg0) = W0 m ρ c (Proc.devRef .tc main_arg0) :=
  StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at_arg0_0 : W0 m ρ c (Proc.devRef .tc main_arg0) = m ((c : Thread nD τ).loc main_arg0) := rfl
theorem at_arg0_1 : W1 m ρ c (Proc.devRef .tc main_arg0) = m ((c : Thread nD τ).loc main_arg0) := (arg0_1 m ρ c).trans (at_arg0_0 m ρ c)

theorem arg1_3 : W3 m ρ c (Proc.devRef .tc main_arg1) = W2 m ρ c (Proc.devRef .tc main_arg1) :=
  StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg1_2 : W2 m ρ c (Proc.devRef .tc main_arg1) = W1 m ρ c (Proc.devRef .tc main_arg1) :=
  W2_of_ne m ρ c main_arg1 (by decide)
theorem arg1_1 : W1 m ρ c (Proc.devRef .tc main_arg1) = W0 m ρ c (Proc.devRef .tc main_arg1) :=
  StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at_arg1_0 : W0 m ρ c (Proc.devRef .tc main_arg1) = m ((c : Thread nD τ).loc main_arg1) := rfl
theorem at_arg1_1 : W1 m ρ c (Proc.devRef .tc main_arg1) = m ((c : Thread nD τ).loc main_arg1) := (arg1_1 m ρ c).trans (at_arg1_0 m ρ c)
theorem at_arg1_2 : W2 m ρ c (Proc.devRef .tc main_arg1) = m ((c : Thread nD τ).loc main_arg1) := (arg1_2 m ρ c).trans (at_arg1_1 m ρ c)
theorem at_arg1_3 : W3 m ρ c (Proc.devRef .tc main_arg1) = m ((c : Thread nD τ).loc main_arg1) := (arg1_3 m ρ c).trans (at_arg1_2 m ρ c)

theorem arg2_1 : W1 m ρ c (Proc.devRef .tc main_arg2) = W0 m ρ c (Proc.devRef .tc main_arg2) :=
  StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at_arg2_0 : W0 m ρ c (Proc.devRef .tc main_arg2) = m ((c : Thread nD τ).loc main_arg2) := rfl
theorem at_arg2_1 : W1 m ρ c (Proc.devRef .tc main_arg2) = m ((c : Thread nD τ).loc main_arg2) := (arg2_1 m ρ c).trans (at_arg2_0 m ρ c)

theorem at_arg3_0 : W0 m ρ c (Proc.devRef .tc main_arg3) = m ((c : Thread nD τ).loc main_arg3) := rfl

theorem arg4_3 : W3 m ρ c (Proc.devRef .tc main_arg4) = W2 m ρ c (Proc.devRef .tc main_arg4) :=
  StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg4_2 : W2 m ρ c (Proc.devRef .tc main_arg4) = W1 m ρ c (Proc.devRef .tc main_arg4) :=
  W2_of_ne m ρ c main_arg4 (by decide)
theorem arg4_1 : W1 m ρ c (Proc.devRef .tc main_arg4) = W0 m ρ c (Proc.devRef .tc main_arg4) :=
  StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at_arg4_0 : W0 m ρ c (Proc.devRef .tc main_arg4) = m ((c : Thread nD τ).loc main_arg4) := rfl
theorem at_arg4_1 : W1 m ρ c (Proc.devRef .tc main_arg4) = m ((c : Thread nD τ).loc main_arg4) := (arg4_1 m ρ c).trans (at_arg4_0 m ρ c)
theorem at_arg4_2 : W2 m ρ c (Proc.devRef .tc main_arg4) = m ((c : Thread nD τ).loc main_arg4) := (arg4_2 m ρ c).trans (at_arg4_1 m ρ c)
theorem at_arg4_3 : W3 m ρ c (Proc.devRef .tc main_arg4) = m ((c : Thread nD τ).loc main_arg4) := (arg4_3 m ρ c).trans (at_arg4_2 m ρ c)

theorem arg5_2 : W2 m ρ c (Proc.devRef .tc main_arg5) = W1 m ρ c (Proc.devRef .tc main_arg5) :=
  W2_of_ne m ρ c main_arg5 (by decide)
theorem arg5_1 : W1 m ρ c (Proc.devRef .tc main_arg5) = W0 m ρ c (Proc.devRef .tc main_arg5) :=
  StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at_arg5_0 : W0 m ρ c (Proc.devRef .tc main_arg5) = m ((c : Thread nD τ).loc main_arg5) := rfl
theorem at_arg5_1 : W1 m ρ c (Proc.devRef .tc main_arg5) = m ((c : Thread nD τ).loc main_arg5) := (arg5_1 m ρ c).trans (at_arg5_0 m ρ c)
theorem at_arg5_2 : W2 m ρ c (Proc.devRef .tc main_arg5) = m ((c : Thread nD τ).loc main_arg5) := (arg5_2 m ρ c).trans (at_arg5_1 m ρ c)

theorem arg6_6 : W6 m ρ c (Proc.devRef .tc main_arg6) = W5 m ρ c (Proc.devRef .tc main_arg6) :=
  W6_of_ne m ρ c main_arg6 (by decide)
theorem arg6_5 : W5 m ρ c (Proc.devRef .tc main_arg6) = W4 m ρ c (Proc.devRef .tc main_arg6) :=
  StableHlo.after_of_forall_not_mem (b := Proc.devRef .tc main_arg6) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg6_4 : W4 m ρ c (Proc.devRef .tc main_arg6) = W3 m ρ c (Proc.devRef .tc main_arg6) :=
  W4_of_ne m ρ c main_arg6 (by decide)
theorem arg6_3 : W3 m ρ c (Proc.devRef .tc main_arg6) = W2 m ρ c (Proc.devRef .tc main_arg6) :=
  StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg6_2 : W2 m ρ c (Proc.devRef .tc main_arg6) = W1 m ρ c (Proc.devRef .tc main_arg6) :=
  W2_of_ne m ρ c main_arg6 (by decide)
theorem arg6_1 : W1 m ρ c (Proc.devRef .tc main_arg6) = W0 m ρ c (Proc.devRef .tc main_arg6) :=
  StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at_arg6_0 : W0 m ρ c (Proc.devRef .tc main_arg6) = m ((c : Thread nD τ).loc main_arg6) := rfl
theorem at_arg6_1 : W1 m ρ c (Proc.devRef .tc main_arg6) = m ((c : Thread nD τ).loc main_arg6) := (arg6_1 m ρ c).trans (at_arg6_0 m ρ c)
theorem at_arg6_2 : W2 m ρ c (Proc.devRef .tc main_arg6) = m ((c : Thread nD τ).loc main_arg6) := (arg6_2 m ρ c).trans (at_arg6_1 m ρ c)
theorem at_arg6_3 : W3 m ρ c (Proc.devRef .tc main_arg6) = m ((c : Thread nD τ).loc main_arg6) := (arg6_3 m ρ c).trans (at_arg6_2 m ρ c)
theorem at_arg6_4 : W4 m ρ c (Proc.devRef .tc main_arg6) = m ((c : Thread nD τ).loc main_arg6) := (arg6_4 m ρ c).trans (at_arg6_3 m ρ c)
theorem at_arg6_5 : W5 m ρ c (Proc.devRef .tc main_arg6) = m ((c : Thread nD τ).loc main_arg6) := (arg6_5 m ρ c).trans (at_arg6_4 m ρ c)
theorem at_arg6_6 : W6 m ρ c (Proc.devRef .tc main_arg6) = m ((c : Thread nD τ).loc main_arg6) := (arg6_6 m ρ c).trans (at_arg6_5 m ρ c)

theorem arg7_9 : W9 m ρ c (Proc.devRef .tc main_arg7) = W8 m ρ c (Proc.devRef .tc main_arg7) :=
  StableHlo.after_of_forall_not_mem (b := Proc.devRef .tc main_arg7) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg7_8 : W8 m ρ c (Proc.devRef .tc main_arg7) = W7 m ρ c (Proc.devRef .tc main_arg7) :=
  W8_of_ne m ρ c main_arg7 (by decide)
theorem arg7_7 : W7 m ρ c (Proc.devRef .tc main_arg7) = W6 m ρ c (Proc.devRef .tc main_arg7) :=
  StableHlo.after_of_forall_not_mem (b := Proc.devRef .tc main_arg7) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg7_6 : W6 m ρ c (Proc.devRef .tc main_arg7) = W5 m ρ c (Proc.devRef .tc main_arg7) :=
  W6_of_ne m ρ c main_arg7 (by decide)
theorem arg7_5 : W5 m ρ c (Proc.devRef .tc main_arg7) = W4 m ρ c (Proc.devRef .tc main_arg7) :=
  StableHlo.after_of_forall_not_mem (b := Proc.devRef .tc main_arg7) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg7_4 : W4 m ρ c (Proc.devRef .tc main_arg7) = W3 m ρ c (Proc.devRef .tc main_arg7) :=
  W4_of_ne m ρ c main_arg7 (by decide)
theorem arg7_3 : W3 m ρ c (Proc.devRef .tc main_arg7) = W2 m ρ c (Proc.devRef .tc main_arg7) :=
  StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg7_2 : W2 m ρ c (Proc.devRef .tc main_arg7) = W1 m ρ c (Proc.devRef .tc main_arg7) :=
  W2_of_ne m ρ c main_arg7 (by decide)
theorem arg7_1 : W1 m ρ c (Proc.devRef .tc main_arg7) = W0 m ρ c (Proc.devRef .tc main_arg7) :=
  StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at_arg7_0 : W0 m ρ c (Proc.devRef .tc main_arg7) = m ((c : Thread nD τ).loc main_arg7) := rfl
theorem at_arg7_1 : W1 m ρ c (Proc.devRef .tc main_arg7) = m ((c : Thread nD τ).loc main_arg7) := (arg7_1 m ρ c).trans (at_arg7_0 m ρ c)
theorem at_arg7_2 : W2 m ρ c (Proc.devRef .tc main_arg7) = m ((c : Thread nD τ).loc main_arg7) := (arg7_2 m ρ c).trans (at_arg7_1 m ρ c)
theorem at_arg7_3 : W3 m ρ c (Proc.devRef .tc main_arg7) = m ((c : Thread nD τ).loc main_arg7) := (arg7_3 m ρ c).trans (at_arg7_2 m ρ c)
theorem at_arg7_4 : W4 m ρ c (Proc.devRef .tc main_arg7) = m ((c : Thread nD τ).loc main_arg7) := (arg7_4 m ρ c).trans (at_arg7_3 m ρ c)
theorem at_arg7_5 : W5 m ρ c (Proc.devRef .tc main_arg7) = m ((c : Thread nD τ).loc main_arg7) := (arg7_5 m ρ c).trans (at_arg7_4 m ρ c)
theorem at_arg7_6 : W6 m ρ c (Proc.devRef .tc main_arg7) = m ((c : Thread nD τ).loc main_arg7) := (arg7_6 m ρ c).trans (at_arg7_5 m ρ c)
theorem at_arg7_7 : W7 m ρ c (Proc.devRef .tc main_arg7) = m ((c : Thread nD τ).loc main_arg7) := (arg7_7 m ρ c).trans (at_arg7_6 m ρ c)
theorem at_arg7_8 : W8 m ρ c (Proc.devRef .tc main_arg7) = m ((c : Thread nD τ).loc main_arg7) := (arg7_8 m ρ c).trans (at_arg7_7 m ρ c)
theorem at_arg7_9 : W9 m ρ c (Proc.devRef .tc main_arg7) = m ((c : Thread nD τ).loc main_arg7) := (arg7_9 m ρ c).trans (at_arg7_8 m ρ c)

theorem arg8_8 : W8 m ρ c (Proc.devRef .tc main_arg8) = W7 m ρ c (Proc.devRef .tc main_arg8) :=
  W8_of_ne m ρ c main_arg8 (by decide)
theorem arg8_7 : W7 m ρ c (Proc.devRef .tc main_arg8) = W6 m ρ c (Proc.devRef .tc main_arg8) :=
  StableHlo.after_of_forall_not_mem (b := Proc.devRef .tc main_arg8) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg8_6 : W6 m ρ c (Proc.devRef .tc main_arg8) = W5 m ρ c (Proc.devRef .tc main_arg8) :=
  W6_of_ne m ρ c main_arg8 (by decide)
theorem arg8_5 : W5 m ρ c (Proc.devRef .tc main_arg8) = W4 m ρ c (Proc.devRef .tc main_arg8) :=
  StableHlo.after_of_forall_not_mem (b := Proc.devRef .tc main_arg8) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg8_4 : W4 m ρ c (Proc.devRef .tc main_arg8) = W3 m ρ c (Proc.devRef .tc main_arg8) :=
  W4_of_ne m ρ c main_arg8 (by decide)
theorem arg8_3 : W3 m ρ c (Proc.devRef .tc main_arg8) = W2 m ρ c (Proc.devRef .tc main_arg8) :=
  StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg8_2 : W2 m ρ c (Proc.devRef .tc main_arg8) = W1 m ρ c (Proc.devRef .tc main_arg8) :=
  W2_of_ne m ρ c main_arg8 (by decide)
theorem arg8_1 : W1 m ρ c (Proc.devRef .tc main_arg8) = W0 m ρ c (Proc.devRef .tc main_arg8) :=
  StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at_arg8_0 : W0 m ρ c (Proc.devRef .tc main_arg8) = m ((c : Thread nD τ).loc main_arg8) := rfl
theorem at_arg8_1 : W1 m ρ c (Proc.devRef .tc main_arg8) = m ((c : Thread nD τ).loc main_arg8) := (arg8_1 m ρ c).trans (at_arg8_0 m ρ c)
theorem at_arg8_2 : W2 m ρ c (Proc.devRef .tc main_arg8) = m ((c : Thread nD τ).loc main_arg8) := (arg8_2 m ρ c).trans (at_arg8_1 m ρ c)
theorem at_arg8_3 : W3 m ρ c (Proc.devRef .tc main_arg8) = m ((c : Thread nD τ).loc main_arg8) := (arg8_3 m ρ c).trans (at_arg8_2 m ρ c)
theorem at_arg8_4 : W4 m ρ c (Proc.devRef .tc main_arg8) = m ((c : Thread nD τ).loc main_arg8) := (arg8_4 m ρ c).trans (at_arg8_3 m ρ c)
theorem at_arg8_5 : W5 m ρ c (Proc.devRef .tc main_arg8) = m ((c : Thread nD τ).loc main_arg8) := (arg8_5 m ρ c).trans (at_arg8_4 m ρ c)
theorem at_arg8_6 : W6 m ρ c (Proc.devRef .tc main_arg8) = m ((c : Thread nD τ).loc main_arg8) := (arg8_6 m ρ c).trans (at_arg8_5 m ρ c)
theorem at_arg8_7 : W7 m ρ c (Proc.devRef .tc main_arg8) = m ((c : Thread nD τ).loc main_arg8) := (arg8_7 m ρ c).trans (at_arg8_6 m ρ c)
theorem at_arg8_8 : W8 m ρ c (Proc.devRef .tc main_arg8) = m ((c : Thread nD τ).loc main_arg8) := (arg8_8 m ρ c).trans (at_arg8_7 m ρ c)

theorem arg9_12 : W12 m ρ c (Proc.devRef .tc main_arg9) = W11 m ρ c (Proc.devRef .tc main_arg9) :=
  W12_of_ne m ρ c main_arg9 (by decide)
theorem arg9_11 : W11 m ρ c (Proc.devRef .tc main_arg9) = W10 m ρ c (Proc.devRef .tc main_arg9) :=
  StableHlo.after_of_forall_not_mem (b := Proc.devRef .tc main_arg9) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg9_10 : W10 m ρ c (Proc.devRef .tc main_arg9) = W9 m ρ c (Proc.devRef .tc main_arg9) :=
  W10_of_ne m ρ c main_arg9 (by decide)
theorem arg9_9 : W9 m ρ c (Proc.devRef .tc main_arg9) = W8 m ρ c (Proc.devRef .tc main_arg9) :=
  StableHlo.after_of_forall_not_mem (b := Proc.devRef .tc main_arg9) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg9_8 : W8 m ρ c (Proc.devRef .tc main_arg9) = W7 m ρ c (Proc.devRef .tc main_arg9) :=
  W8_of_ne m ρ c main_arg9 (by decide)
theorem arg9_7 : W7 m ρ c (Proc.devRef .tc main_arg9) = W6 m ρ c (Proc.devRef .tc main_arg9) :=
  StableHlo.after_of_forall_not_mem (b := Proc.devRef .tc main_arg9) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg9_6 : W6 m ρ c (Proc.devRef .tc main_arg9) = W5 m ρ c (Proc.devRef .tc main_arg9) :=
  W6_of_ne m ρ c main_arg9 (by decide)
theorem arg9_5 : W5 m ρ c (Proc.devRef .tc main_arg9) = W4 m ρ c (Proc.devRef .tc main_arg9) :=
  StableHlo.after_of_forall_not_mem (b := Proc.devRef .tc main_arg9) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg9_4 : W4 m ρ c (Proc.devRef .tc main_arg9) = W3 m ρ c (Proc.devRef .tc main_arg9) :=
  W4_of_ne m ρ c main_arg9 (by decide)
theorem arg9_3 : W3 m ρ c (Proc.devRef .tc main_arg9) = W2 m ρ c (Proc.devRef .tc main_arg9) :=
  StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg9_2 : W2 m ρ c (Proc.devRef .tc main_arg9) = W1 m ρ c (Proc.devRef .tc main_arg9) :=
  W2_of_ne m ρ c main_arg9 (by decide)
theorem arg9_1 : W1 m ρ c (Proc.devRef .tc main_arg9) = W0 m ρ c (Proc.devRef .tc main_arg9) :=
  StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at_arg9_0 : W0 m ρ c (Proc.devRef .tc main_arg9) = m ((c : Thread nD τ).loc main_arg9) := rfl
theorem at_arg9_1 : W1 m ρ c (Proc.devRef .tc main_arg9) = m ((c : Thread nD τ).loc main_arg9) := (arg9_1 m ρ c).trans (at_arg9_0 m ρ c)
theorem at_arg9_2 : W2 m ρ c (Proc.devRef .tc main_arg9) = m ((c : Thread nD τ).loc main_arg9) := (arg9_2 m ρ c).trans (at_arg9_1 m ρ c)
theorem at_arg9_3 : W3 m ρ c (Proc.devRef .tc main_arg9) = m ((c : Thread nD τ).loc main_arg9) := (arg9_3 m ρ c).trans (at_arg9_2 m ρ c)
theorem at_arg9_4 : W4 m ρ c (Proc.devRef .tc main_arg9) = m ((c : Thread nD τ).loc main_arg9) := (arg9_4 m ρ c).trans (at_arg9_3 m ρ c)
theorem at_arg9_5 : W5 m ρ c (Proc.devRef .tc main_arg9) = m ((c : Thread nD τ).loc main_arg9) := (arg9_5 m ρ c).trans (at_arg9_4 m ρ c)
theorem at_arg9_6 : W6 m ρ c (Proc.devRef .tc main_arg9) = m ((c : Thread nD τ).loc main_arg9) := (arg9_6 m ρ c).trans (at_arg9_5 m ρ c)
theorem at_arg9_7 : W7 m ρ c (Proc.devRef .tc main_arg9) = m ((c : Thread nD τ).loc main_arg9) := (arg9_7 m ρ c).trans (at_arg9_6 m ρ c)
theorem at_arg9_8 : W8 m ρ c (Proc.devRef .tc main_arg9) = m ((c : Thread nD τ).loc main_arg9) := (arg9_8 m ρ c).trans (at_arg9_7 m ρ c)
theorem at_arg9_9 : W9 m ρ c (Proc.devRef .tc main_arg9) = m ((c : Thread nD τ).loc main_arg9) := (arg9_9 m ρ c).trans (at_arg9_8 m ρ c)
theorem at_arg9_10 : W10 m ρ c (Proc.devRef .tc main_arg9) = m ((c : Thread nD τ).loc main_arg9) := (arg9_10 m ρ c).trans (at_arg9_9 m ρ c)
theorem at_arg9_11 : W11 m ρ c (Proc.devRef .tc main_arg9) = m ((c : Thread nD τ).loc main_arg9) := (arg9_11 m ρ c).trans (at_arg9_10 m ρ c)
theorem at_arg9_12 : W12 m ρ c (Proc.devRef .tc main_arg9) = m ((c : Thread nD τ).loc main_arg9) := (arg9_12 m ρ c).trans (at_arg9_11 m ρ c)

theorem arg10_15 : W15 m ρ c (Proc.devRef .tc main_arg10) = W14 m ρ c (Proc.devRef .tc main_arg10) :=
  StableHlo.after_of_forall_not_mem (b := Proc.devRef .tc main_arg10) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg10_14 : W14 m ρ c (Proc.devRef .tc main_arg10) = W13 m ρ c (Proc.devRef .tc main_arg10) :=
  W14_of_ne m ρ c main_arg10 (by decide)
theorem arg10_13 : W13 m ρ c (Proc.devRef .tc main_arg10) = W12 m ρ c (Proc.devRef .tc main_arg10) :=
  StableHlo.after_of_forall_not_mem (b := Proc.devRef .tc main_arg10) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg10_12 : W12 m ρ c (Proc.devRef .tc main_arg10) = W11 m ρ c (Proc.devRef .tc main_arg10) :=
  W12_of_ne m ρ c main_arg10 (by decide)
theorem arg10_11 : W11 m ρ c (Proc.devRef .tc main_arg10) = W10 m ρ c (Proc.devRef .tc main_arg10) :=
  StableHlo.after_of_forall_not_mem (b := Proc.devRef .tc main_arg10) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg10_10 : W10 m ρ c (Proc.devRef .tc main_arg10) = W9 m ρ c (Proc.devRef .tc main_arg10) :=
  W10_of_ne m ρ c main_arg10 (by decide)
theorem arg10_9 : W9 m ρ c (Proc.devRef .tc main_arg10) = W8 m ρ c (Proc.devRef .tc main_arg10) :=
  StableHlo.after_of_forall_not_mem (b := Proc.devRef .tc main_arg10) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg10_8 : W8 m ρ c (Proc.devRef .tc main_arg10) = W7 m ρ c (Proc.devRef .tc main_arg10) :=
  W8_of_ne m ρ c main_arg10 (by decide)
theorem arg10_7 : W7 m ρ c (Proc.devRef .tc main_arg10) = W6 m ρ c (Proc.devRef .tc main_arg10) :=
  StableHlo.after_of_forall_not_mem (b := Proc.devRef .tc main_arg10) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg10_6 : W6 m ρ c (Proc.devRef .tc main_arg10) = W5 m ρ c (Proc.devRef .tc main_arg10) :=
  W6_of_ne m ρ c main_arg10 (by decide)
theorem arg10_5 : W5 m ρ c (Proc.devRef .tc main_arg10) = W4 m ρ c (Proc.devRef .tc main_arg10) :=
  StableHlo.after_of_forall_not_mem (b := Proc.devRef .tc main_arg10) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg10_4 : W4 m ρ c (Proc.devRef .tc main_arg10) = W3 m ρ c (Proc.devRef .tc main_arg10) :=
  W4_of_ne m ρ c main_arg10 (by decide)
theorem arg10_3 : W3 m ρ c (Proc.devRef .tc main_arg10) = W2 m ρ c (Proc.devRef .tc main_arg10) :=
  StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg10_2 : W2 m ρ c (Proc.devRef .tc main_arg10) = W1 m ρ c (Proc.devRef .tc main_arg10) :=
  W2_of_ne m ρ c main_arg10 (by decide)
theorem arg10_1 : W1 m ρ c (Proc.devRef .tc main_arg10) = W0 m ρ c (Proc.devRef .tc main_arg10) :=
  StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at_arg10_0 : W0 m ρ c (Proc.devRef .tc main_arg10) = m ((c : Thread nD τ).loc main_arg10) := rfl
theorem at_arg10_1 : W1 m ρ c (Proc.devRef .tc main_arg10) = m ((c : Thread nD τ).loc main_arg10) := (arg10_1 m ρ c).trans (at_arg10_0 m ρ c)
theorem at_arg10_2 : W2 m ρ c (Proc.devRef .tc main_arg10) = m ((c : Thread nD τ).loc main_arg10) := (arg10_2 m ρ c).trans (at_arg10_1 m ρ c)
theorem at_arg10_3 : W3 m ρ c (Proc.devRef .tc main_arg10) = m ((c : Thread nD τ).loc main_arg10) := (arg10_3 m ρ c).trans (at_arg10_2 m ρ c)
theorem at_arg10_4 : W4 m ρ c (Proc.devRef .tc main_arg10) = m ((c : Thread nD τ).loc main_arg10) := (arg10_4 m ρ c).trans (at_arg10_3 m ρ c)
theorem at_arg10_5 : W5 m ρ c (Proc.devRef .tc main_arg10) = m ((c : Thread nD τ).loc main_arg10) := (arg10_5 m ρ c).trans (at_arg10_4 m ρ c)
theorem at_arg10_6 : W6 m ρ c (Proc.devRef .tc main_arg10) = m ((c : Thread nD τ).loc main_arg10) := (arg10_6 m ρ c).trans (at_arg10_5 m ρ c)
theorem at_arg10_7 : W7 m ρ c (Proc.devRef .tc main_arg10) = m ((c : Thread nD τ).loc main_arg10) := (arg10_7 m ρ c).trans (at_arg10_6 m ρ c)
theorem at_arg10_8 : W8 m ρ c (Proc.devRef .tc main_arg10) = m ((c : Thread nD τ).loc main_arg10) := (arg10_8 m ρ c).trans (at_arg10_7 m ρ c)
theorem at_arg10_9 : W9 m ρ c (Proc.devRef .tc main_arg10) = m ((c : Thread nD τ).loc main_arg10) := (arg10_9 m ρ c).trans (at_arg10_8 m ρ c)
theorem at_arg10_10 : W10 m ρ c (Proc.devRef .tc main_arg10) = m ((c : Thread nD τ).loc main_arg10) := (arg10_10 m ρ c).trans (at_arg10_9 m ρ c)
theorem at_arg10_11 : W11 m ρ c (Proc.devRef .tc main_arg10) = m ((c : Thread nD τ).loc main_arg10) := (arg10_11 m ρ c).trans (at_arg10_10 m ρ c)
theorem at_arg10_12 : W12 m ρ c (Proc.devRef .tc main_arg10) = m ((c : Thread nD τ).loc main_arg10) := (arg10_12 m ρ c).trans (at_arg10_11 m ρ c)
theorem at_arg10_13 : W13 m ρ c (Proc.devRef .tc main_arg10) = m ((c : Thread nD τ).loc main_arg10) := (arg10_13 m ρ c).trans (at_arg10_12 m ρ c)
theorem at_arg10_14 : W14 m ρ c (Proc.devRef .tc main_arg10) = m ((c : Thread nD τ).loc main_arg10) := (arg10_14 m ρ c).trans (at_arg10_13 m ρ c)
theorem at_arg10_15 : W15 m ρ c (Proc.devRef .tc main_arg10) = m ((c : Thread nD τ).loc main_arg10) := (arg10_15 m ρ c).trans (at_arg10_14 m ρ c)

theorem arg11_14 : W14 m ρ c (Proc.devRef .tc main_arg11) = W13 m ρ c (Proc.devRef .tc main_arg11) :=
  W14_of_ne m ρ c main_arg11 (by decide)
theorem arg11_13 : W13 m ρ c (Proc.devRef .tc main_arg11) = W12 m ρ c (Proc.devRef .tc main_arg11) :=
  StableHlo.after_of_forall_not_mem (b := Proc.devRef .tc main_arg11) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg11_12 : W12 m ρ c (Proc.devRef .tc main_arg11) = W11 m ρ c (Proc.devRef .tc main_arg11) :=
  W12_of_ne m ρ c main_arg11 (by decide)
theorem arg11_11 : W11 m ρ c (Proc.devRef .tc main_arg11) = W10 m ρ c (Proc.devRef .tc main_arg11) :=
  StableHlo.after_of_forall_not_mem (b := Proc.devRef .tc main_arg11) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg11_10 : W10 m ρ c (Proc.devRef .tc main_arg11) = W9 m ρ c (Proc.devRef .tc main_arg11) :=
  W10_of_ne m ρ c main_arg11 (by decide)
theorem arg11_9 : W9 m ρ c (Proc.devRef .tc main_arg11) = W8 m ρ c (Proc.devRef .tc main_arg11) :=
  StableHlo.after_of_forall_not_mem (b := Proc.devRef .tc main_arg11) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg11_8 : W8 m ρ c (Proc.devRef .tc main_arg11) = W7 m ρ c (Proc.devRef .tc main_arg11) :=
  W8_of_ne m ρ c main_arg11 (by decide)
theorem arg11_7 : W7 m ρ c (Proc.devRef .tc main_arg11) = W6 m ρ c (Proc.devRef .tc main_arg11) :=
  StableHlo.after_of_forall_not_mem (b := Proc.devRef .tc main_arg11) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg11_6 : W6 m ρ c (Proc.devRef .tc main_arg11) = W5 m ρ c (Proc.devRef .tc main_arg11) :=
  W6_of_ne m ρ c main_arg11 (by decide)
theorem arg11_5 : W5 m ρ c (Proc.devRef .tc main_arg11) = W4 m ρ c (Proc.devRef .tc main_arg11) :=
  StableHlo.after_of_forall_not_mem (b := Proc.devRef .tc main_arg11) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg11_4 : W4 m ρ c (Proc.devRef .tc main_arg11) = W3 m ρ c (Proc.devRef .tc main_arg11) :=
  W4_of_ne m ρ c main_arg11 (by decide)
theorem arg11_3 : W3 m ρ c (Proc.devRef .tc main_arg11) = W2 m ρ c (Proc.devRef .tc main_arg11) :=
  StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg11_2 : W2 m ρ c (Proc.devRef .tc main_arg11) = W1 m ρ c (Proc.devRef .tc main_arg11) :=
  W2_of_ne m ρ c main_arg11 (by decide)
theorem arg11_1 : W1 m ρ c (Proc.devRef .tc main_arg11) = W0 m ρ c (Proc.devRef .tc main_arg11) :=
  StableHlo.after_of_forall_not_mem (b := Proc.devRef .tc main_arg11) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at_arg11_0 : W0 m ρ c (Proc.devRef .tc main_arg11) = m ((c : Thread nD τ).loc main_arg11) := rfl
theorem at_arg11_1 : W1 m ρ c (Proc.devRef .tc main_arg11) = m ((c : Thread nD τ).loc main_arg11) := (arg11_1 m ρ c).trans (at_arg11_0 m ρ c)
theorem at_arg11_2 : W2 m ρ c (Proc.devRef .tc main_arg11) = m ((c : Thread nD τ).loc main_arg11) := (arg11_2 m ρ c).trans (at_arg11_1 m ρ c)
theorem at_arg11_3 : W3 m ρ c (Proc.devRef .tc main_arg11) = m ((c : Thread nD τ).loc main_arg11) := (arg11_3 m ρ c).trans (at_arg11_2 m ρ c)
theorem at_arg11_4 : W4 m ρ c (Proc.devRef .tc main_arg11) = m ((c : Thread nD τ).loc main_arg11) := (arg11_4 m ρ c).trans (at_arg11_3 m ρ c)
theorem at_arg11_5 : W5 m ρ c (Proc.devRef .tc main_arg11) = m ((c : Thread nD τ).loc main_arg11) := (arg11_5 m ρ c).trans (at_arg11_4 m ρ c)
theorem at_arg11_6 : W6 m ρ c (Proc.devRef .tc main_arg11) = m ((c : Thread nD τ).loc main_arg11) := (arg11_6 m ρ c).trans (at_arg11_5 m ρ c)
theorem at_arg11_7 : W7 m ρ c (Proc.devRef .tc main_arg11) = m ((c : Thread nD τ).loc main_arg11) := (arg11_7 m ρ c).trans (at_arg11_6 m ρ c)
theorem at_arg11_8 : W8 m ρ c (Proc.devRef .tc main_arg11) = m ((c : Thread nD τ).loc main_arg11) := (arg11_8 m ρ c).trans (at_arg11_7 m ρ c)
theorem at_arg11_9 : W9 m ρ c (Proc.devRef .tc main_arg11) = m ((c : Thread nD τ).loc main_arg11) := (arg11_9 m ρ c).trans (at_arg11_8 m ρ c)
theorem at_arg11_10 : W10 m ρ c (Proc.devRef .tc main_arg11) = m ((c : Thread nD τ).loc main_arg11) := (arg11_10 m ρ c).trans (at_arg11_9 m ρ c)
theorem at_arg11_11 : W11 m ρ c (Proc.devRef .tc main_arg11) = m ((c : Thread nD τ).loc main_arg11) := (arg11_11 m ρ c).trans (at_arg11_10 m ρ c)
theorem at_arg11_12 : W12 m ρ c (Proc.devRef .tc main_arg11) = m ((c : Thread nD τ).loc main_arg11) := (arg11_12 m ρ c).trans (at_arg11_11 m ρ c)
theorem at_arg11_13 : W13 m ρ c (Proc.devRef .tc main_arg11) = m ((c : Thread nD τ).loc main_arg11) := (arg11_13 m ρ c).trans (at_arg11_12 m ρ c)
theorem at_arg11_14 : W14 m ρ c (Proc.devRef .tc main_arg11) = m ((c : Thread nD τ).loc main_arg11) := (arg11_14 m ρ c).trans (at_arg11_13 m ρ c)

theorem arg12_10 : W10 m ρ c (Proc.devRef .tc main_arg12) = W9 m ρ c (Proc.devRef .tc main_arg12) :=
  W10_of_ne m ρ c main_arg12 (by decide)
theorem arg12_9 : W9 m ρ c (Proc.devRef .tc main_arg12) = W8 m ρ c (Proc.devRef .tc main_arg12) :=
  StableHlo.after_of_forall_not_mem (b := Proc.devRef .tc main_arg12) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg12_8 : W8 m ρ c (Proc.devRef .tc main_arg12) = W7 m ρ c (Proc.devRef .tc main_arg12) :=
  W8_of_ne m ρ c main_arg12 (by decide)
theorem arg12_7 : W7 m ρ c (Proc.devRef .tc main_arg12) = W6 m ρ c (Proc.devRef .tc main_arg12) :=
  StableHlo.after_of_forall_not_mem (b := Proc.devRef .tc main_arg12) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg12_6 : W6 m ρ c (Proc.devRef .tc main_arg12) = W5 m ρ c (Proc.devRef .tc main_arg12) :=
  W6_of_ne m ρ c main_arg12 (by decide)
theorem arg12_5 : W5 m ρ c (Proc.devRef .tc main_arg12) = W4 m ρ c (Proc.devRef .tc main_arg12) :=
  StableHlo.after_of_forall_not_mem (b := Proc.devRef .tc main_arg12) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg12_4 : W4 m ρ c (Proc.devRef .tc main_arg12) = W3 m ρ c (Proc.devRef .tc main_arg12) :=
  W4_of_ne m ρ c main_arg12 (by decide)
theorem arg12_3 : W3 m ρ c (Proc.devRef .tc main_arg12) = W2 m ρ c (Proc.devRef .tc main_arg12) :=
  StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg12_2 : W2 m ρ c (Proc.devRef .tc main_arg12) = W1 m ρ c (Proc.devRef .tc main_arg12) :=
  W2_of_ne m ρ c main_arg12 (by decide)
theorem arg12_1 : W1 m ρ c (Proc.devRef .tc main_arg12) = W0 m ρ c (Proc.devRef .tc main_arg12) :=
  StableHlo.after_of_forall_not_mem (b := Proc.devRef .tc main_arg12) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at_arg12_0 : W0 m ρ c (Proc.devRef .tc main_arg12) = m ((c : Thread nD τ).loc main_arg12) := rfl
theorem at_arg12_1 : W1 m ρ c (Proc.devRef .tc main_arg12) = m ((c : Thread nD τ).loc main_arg12) := (arg12_1 m ρ c).trans (at_arg12_0 m ρ c)
theorem at_arg12_2 : W2 m ρ c (Proc.devRef .tc main_arg12) = m ((c : Thread nD τ).loc main_arg12) := (arg12_2 m ρ c).trans (at_arg12_1 m ρ c)
theorem at_arg12_3 : W3 m ρ c (Proc.devRef .tc main_arg12) = m ((c : Thread nD τ).loc main_arg12) := (arg12_3 m ρ c).trans (at_arg12_2 m ρ c)
theorem at_arg12_4 : W4 m ρ c (Proc.devRef .tc main_arg12) = m ((c : Thread nD τ).loc main_arg12) := (arg12_4 m ρ c).trans (at_arg12_3 m ρ c)
theorem at_arg12_5 : W5 m ρ c (Proc.devRef .tc main_arg12) = m ((c : Thread nD τ).loc main_arg12) := (arg12_5 m ρ c).trans (at_arg12_4 m ρ c)
theorem at_arg12_6 : W6 m ρ c (Proc.devRef .tc main_arg12) = m ((c : Thread nD τ).loc main_arg12) := (arg12_6 m ρ c).trans (at_arg12_5 m ρ c)
theorem at_arg12_7 : W7 m ρ c (Proc.devRef .tc main_arg12) = m ((c : Thread nD τ).loc main_arg12) := (arg12_7 m ρ c).trans (at_arg12_6 m ρ c)
theorem at_arg12_8 : W8 m ρ c (Proc.devRef .tc main_arg12) = m ((c : Thread nD τ).loc main_arg12) := (arg12_8 m ρ c).trans (at_arg12_7 m ρ c)
theorem at_arg12_9 : W9 m ρ c (Proc.devRef .tc main_arg12) = m ((c : Thread nD τ).loc main_arg12) := (arg12_9 m ρ c).trans (at_arg12_8 m ρ c)
theorem at_arg12_10 : W10 m ρ c (Proc.devRef .tc main_arg12) = m ((c : Thread nD τ).loc main_arg12) := (arg12_10 m ρ c).trans (at_arg12_9 m ρ c)

theorem arg13_12 : W12 m ρ c (Proc.devRef .tc main_arg13) = W11 m ρ c (Proc.devRef .tc main_arg13) :=
  W12_of_ne m ρ c main_arg13 (by decide)
theorem arg13_11 : W11 m ρ c (Proc.devRef .tc main_arg13) = W10 m ρ c (Proc.devRef .tc main_arg13) :=
  StableHlo.after_of_forall_not_mem (b := Proc.devRef .tc main_arg13) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg13_10 : W10 m ρ c (Proc.devRef .tc main_arg13) = W9 m ρ c (Proc.devRef .tc main_arg13) :=
  W10_of_ne m ρ c main_arg13 (by decide)
theorem arg13_9 : W9 m ρ c (Proc.devRef .tc main_arg13) = W8 m ρ c (Proc.devRef .tc main_arg13) :=
  StableHlo.after_of_forall_not_mem (b := Proc.devRef .tc main_arg13) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg13_8 : W8 m ρ c (Proc.devRef .tc main_arg13) = W7 m ρ c (Proc.devRef .tc main_arg13) :=
  W8_of_ne m ρ c main_arg13 (by decide)
theorem arg13_7 : W7 m ρ c (Proc.devRef .tc main_arg13) = W6 m ρ c (Proc.devRef .tc main_arg13) :=
  StableHlo.after_of_forall_not_mem (b := Proc.devRef .tc main_arg13) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg13_6 : W6 m ρ c (Proc.devRef .tc main_arg13) = W5 m ρ c (Proc.devRef .tc main_arg13) :=
  W6_of_ne m ρ c main_arg13 (by decide)
theorem arg13_5 : W5 m ρ c (Proc.devRef .tc main_arg13) = W4 m ρ c (Proc.devRef .tc main_arg13) :=
  StableHlo.after_of_forall_not_mem (b := Proc.devRef .tc main_arg13) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg13_4 : W4 m ρ c (Proc.devRef .tc main_arg13) = W3 m ρ c (Proc.devRef .tc main_arg13) :=
  W4_of_ne m ρ c main_arg13 (by decide)
theorem arg13_3 : W3 m ρ c (Proc.devRef .tc main_arg13) = W2 m ρ c (Proc.devRef .tc main_arg13) :=
  StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg13_2 : W2 m ρ c (Proc.devRef .tc main_arg13) = W1 m ρ c (Proc.devRef .tc main_arg13) :=
  W2_of_ne m ρ c main_arg13 (by decide)
theorem arg13_1 : W1 m ρ c (Proc.devRef .tc main_arg13) = W0 m ρ c (Proc.devRef .tc main_arg13) :=
  StableHlo.after_of_forall_not_mem (b := Proc.devRef .tc main_arg13) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at_arg13_0 : W0 m ρ c (Proc.devRef .tc main_arg13) = m ((c : Thread nD τ).loc main_arg13) := rfl
theorem at_arg13_1 : W1 m ρ c (Proc.devRef .tc main_arg13) = m ((c : Thread nD τ).loc main_arg13) := (arg13_1 m ρ c).trans (at_arg13_0 m ρ c)
theorem at_arg13_2 : W2 m ρ c (Proc.devRef .tc main_arg13) = m ((c : Thread nD τ).loc main_arg13) := (arg13_2 m ρ c).trans (at_arg13_1 m ρ c)
theorem at_arg13_3 : W3 m ρ c (Proc.devRef .tc main_arg13) = m ((c : Thread nD τ).loc main_arg13) := (arg13_3 m ρ c).trans (at_arg13_2 m ρ c)
theorem at_arg13_4 : W4 m ρ c (Proc.devRef .tc main_arg13) = m ((c : Thread nD τ).loc main_arg13) := (arg13_4 m ρ c).trans (at_arg13_3 m ρ c)
theorem at_arg13_5 : W5 m ρ c (Proc.devRef .tc main_arg13) = m ((c : Thread nD τ).loc main_arg13) := (arg13_5 m ρ c).trans (at_arg13_4 m ρ c)
theorem at_arg13_6 : W6 m ρ c (Proc.devRef .tc main_arg13) = m ((c : Thread nD τ).loc main_arg13) := (arg13_6 m ρ c).trans (at_arg13_5 m ρ c)
theorem at_arg13_7 : W7 m ρ c (Proc.devRef .tc main_arg13) = m ((c : Thread nD τ).loc main_arg13) := (arg13_7 m ρ c).trans (at_arg13_6 m ρ c)
theorem at_arg13_8 : W8 m ρ c (Proc.devRef .tc main_arg13) = m ((c : Thread nD τ).loc main_arg13) := (arg13_8 m ρ c).trans (at_arg13_7 m ρ c)
theorem at_arg13_9 : W9 m ρ c (Proc.devRef .tc main_arg13) = m ((c : Thread nD τ).loc main_arg13) := (arg13_9 m ρ c).trans (at_arg13_8 m ρ c)
theorem at_arg13_10 : W10 m ρ c (Proc.devRef .tc main_arg13) = m ((c : Thread nD τ).loc main_arg13) := (arg13_10 m ρ c).trans (at_arg13_9 m ρ c)
theorem at_arg13_11 : W11 m ρ c (Proc.devRef .tc main_arg13) = m ((c : Thread nD τ).loc main_arg13) := (arg13_11 m ρ c).trans (at_arg13_10 m ρ c)
theorem at_arg13_12 : W12 m ρ c (Proc.devRef .tc main_arg13) = m ((c : Thread nD τ).loc main_arg13) := (arg13_12 m ρ c).trans (at_arg13_11 m ρ c)

theorem arg14_12 : W12 m ρ c (Proc.devRef .tc main_arg14) = W11 m ρ c (Proc.devRef .tc main_arg14) :=
  W12_of_ne m ρ c main_arg14 (by decide)
theorem arg14_11 : W11 m ρ c (Proc.devRef .tc main_arg14) = W10 m ρ c (Proc.devRef .tc main_arg14) :=
  StableHlo.after_of_forall_not_mem (b := Proc.devRef .tc main_arg14) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg14_10 : W10 m ρ c (Proc.devRef .tc main_arg14) = W9 m ρ c (Proc.devRef .tc main_arg14) :=
  W10_of_ne m ρ c main_arg14 (by decide)
theorem arg14_9 : W9 m ρ c (Proc.devRef .tc main_arg14) = W8 m ρ c (Proc.devRef .tc main_arg14) :=
  StableHlo.after_of_forall_not_mem (b := Proc.devRef .tc main_arg14) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg14_8 : W8 m ρ c (Proc.devRef .tc main_arg14) = W7 m ρ c (Proc.devRef .tc main_arg14) :=
  W8_of_ne m ρ c main_arg14 (by decide)
theorem arg14_7 : W7 m ρ c (Proc.devRef .tc main_arg14) = W6 m ρ c (Proc.devRef .tc main_arg14) :=
  StableHlo.after_of_forall_not_mem (b := Proc.devRef .tc main_arg14) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg14_6 : W6 m ρ c (Proc.devRef .tc main_arg14) = W5 m ρ c (Proc.devRef .tc main_arg14) :=
  W6_of_ne m ρ c main_arg14 (by decide)
theorem arg14_5 : W5 m ρ c (Proc.devRef .tc main_arg14) = W4 m ρ c (Proc.devRef .tc main_arg14) :=
  StableHlo.after_of_forall_not_mem (b := Proc.devRef .tc main_arg14) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg14_4 : W4 m ρ c (Proc.devRef .tc main_arg14) = W3 m ρ c (Proc.devRef .tc main_arg14) :=
  W4_of_ne m ρ c main_arg14 (by decide)
theorem arg14_3 : W3 m ρ c (Proc.devRef .tc main_arg14) = W2 m ρ c (Proc.devRef .tc main_arg14) :=
  StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg14_2 : W2 m ρ c (Proc.devRef .tc main_arg14) = W1 m ρ c (Proc.devRef .tc main_arg14) :=
  W2_of_ne m ρ c main_arg14 (by decide)
theorem arg14_1 : W1 m ρ c (Proc.devRef .tc main_arg14) = W0 m ρ c (Proc.devRef .tc main_arg14) :=
  StableHlo.after_of_forall_not_mem (b := Proc.devRef .tc main_arg14) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at_arg14_0 : W0 m ρ c (Proc.devRef .tc main_arg14) = m ((c : Thread nD τ).loc main_arg14) := rfl
theorem at_arg14_1 : W1 m ρ c (Proc.devRef .tc main_arg14) = m ((c : Thread nD τ).loc main_arg14) := (arg14_1 m ρ c).trans (at_arg14_0 m ρ c)
theorem at_arg14_2 : W2 m ρ c (Proc.devRef .tc main_arg14) = m ((c : Thread nD τ).loc main_arg14) := (arg14_2 m ρ c).trans (at_arg14_1 m ρ c)
theorem at_arg14_3 : W3 m ρ c (Proc.devRef .tc main_arg14) = m ((c : Thread nD τ).loc main_arg14) := (arg14_3 m ρ c).trans (at_arg14_2 m ρ c)
theorem at_arg14_4 : W4 m ρ c (Proc.devRef .tc main_arg14) = m ((c : Thread nD τ).loc main_arg14) := (arg14_4 m ρ c).trans (at_arg14_3 m ρ c)
theorem at_arg14_5 : W5 m ρ c (Proc.devRef .tc main_arg14) = m ((c : Thread nD τ).loc main_arg14) := (arg14_5 m ρ c).trans (at_arg14_4 m ρ c)
theorem at_arg14_6 : W6 m ρ c (Proc.devRef .tc main_arg14) = m ((c : Thread nD τ).loc main_arg14) := (arg14_6 m ρ c).trans (at_arg14_5 m ρ c)
theorem at_arg14_7 : W7 m ρ c (Proc.devRef .tc main_arg14) = m ((c : Thread nD τ).loc main_arg14) := (arg14_7 m ρ c).trans (at_arg14_6 m ρ c)
theorem at_arg14_8 : W8 m ρ c (Proc.devRef .tc main_arg14) = m ((c : Thread nD τ).loc main_arg14) := (arg14_8 m ρ c).trans (at_arg14_7 m ρ c)
theorem at_arg14_9 : W9 m ρ c (Proc.devRef .tc main_arg14) = m ((c : Thread nD τ).loc main_arg14) := (arg14_9 m ρ c).trans (at_arg14_8 m ρ c)
theorem at_arg14_10 : W10 m ρ c (Proc.devRef .tc main_arg14) = m ((c : Thread nD τ).loc main_arg14) := (arg14_10 m ρ c).trans (at_arg14_9 m ρ c)
theorem at_arg14_11 : W11 m ρ c (Proc.devRef .tc main_arg14) = m ((c : Thread nD τ).loc main_arg14) := (arg14_11 m ρ c).trans (at_arg14_10 m ρ c)
theorem at_arg14_12 : W12 m ρ c (Proc.devRef .tc main_arg14) = m ((c : Thread nD τ).loc main_arg14) := (arg14_12 m ρ c).trans (at_arg14_11 m ρ c)

theorem arg15_14 : W14 m ρ c (Proc.devRef .tc main_arg15) = W13 m ρ c (Proc.devRef .tc main_arg15) :=
  W14_of_ne m ρ c main_arg15 (by decide)
theorem arg15_13 : W13 m ρ c (Proc.devRef .tc main_arg15) = W12 m ρ c (Proc.devRef .tc main_arg15) :=
  StableHlo.after_of_forall_not_mem (b := Proc.devRef .tc main_arg15) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg15_12 : W12 m ρ c (Proc.devRef .tc main_arg15) = W11 m ρ c (Proc.devRef .tc main_arg15) :=
  W12_of_ne m ρ c main_arg15 (by decide)
theorem arg15_11 : W11 m ρ c (Proc.devRef .tc main_arg15) = W10 m ρ c (Proc.devRef .tc main_arg15) :=
  StableHlo.after_of_forall_not_mem (b := Proc.devRef .tc main_arg15) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg15_10 : W10 m ρ c (Proc.devRef .tc main_arg15) = W9 m ρ c (Proc.devRef .tc main_arg15) :=
  W10_of_ne m ρ c main_arg15 (by decide)
theorem arg15_9 : W9 m ρ c (Proc.devRef .tc main_arg15) = W8 m ρ c (Proc.devRef .tc main_arg15) :=
  StableHlo.after_of_forall_not_mem (b := Proc.devRef .tc main_arg15) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg15_8 : W8 m ρ c (Proc.devRef .tc main_arg15) = W7 m ρ c (Proc.devRef .tc main_arg15) :=
  W8_of_ne m ρ c main_arg15 (by decide)
theorem arg15_7 : W7 m ρ c (Proc.devRef .tc main_arg15) = W6 m ρ c (Proc.devRef .tc main_arg15) :=
  StableHlo.after_of_forall_not_mem (b := Proc.devRef .tc main_arg15) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg15_6 : W6 m ρ c (Proc.devRef .tc main_arg15) = W5 m ρ c (Proc.devRef .tc main_arg15) :=
  W6_of_ne m ρ c main_arg15 (by decide)
theorem arg15_5 : W5 m ρ c (Proc.devRef .tc main_arg15) = W4 m ρ c (Proc.devRef .tc main_arg15) :=
  StableHlo.after_of_forall_not_mem (b := Proc.devRef .tc main_arg15) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg15_4 : W4 m ρ c (Proc.devRef .tc main_arg15) = W3 m ρ c (Proc.devRef .tc main_arg15) :=
  W4_of_ne m ρ c main_arg15 (by decide)
theorem arg15_3 : W3 m ρ c (Proc.devRef .tc main_arg15) = W2 m ρ c (Proc.devRef .tc main_arg15) :=
  StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem arg15_2 : W2 m ρ c (Proc.devRef .tc main_arg15) = W1 m ρ c (Proc.devRef .tc main_arg15) :=
  W2_of_ne m ρ c main_arg15 (by decide)
theorem arg15_1 : W1 m ρ c (Proc.devRef .tc main_arg15) = W0 m ρ c (Proc.devRef .tc main_arg15) :=
  StableHlo.after_of_forall_not_mem (b := Proc.devRef .tc main_arg15) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem at_arg15_0 : W0 m ρ c (Proc.devRef .tc main_arg15) = m ((c : Thread nD τ).loc main_arg15) := rfl
theorem at_arg15_1 : W1 m ρ c (Proc.devRef .tc main_arg15) = m ((c : Thread nD τ).loc main_arg15) := (arg15_1 m ρ c).trans (at_arg15_0 m ρ c)
theorem at_arg15_2 : W2 m ρ c (Proc.devRef .tc main_arg15) = m ((c : Thread nD τ).loc main_arg15) := (arg15_2 m ρ c).trans (at_arg15_1 m ρ c)
theorem at_arg15_3 : W3 m ρ c (Proc.devRef .tc main_arg15) = m ((c : Thread nD τ).loc main_arg15) := (arg15_3 m ρ c).trans (at_arg15_2 m ρ c)
theorem at_arg15_4 : W4 m ρ c (Proc.devRef .tc main_arg15) = m ((c : Thread nD τ).loc main_arg15) := (arg15_4 m ρ c).trans (at_arg15_3 m ρ c)
theorem at_arg15_5 : W5 m ρ c (Proc.devRef .tc main_arg15) = m ((c : Thread nD τ).loc main_arg15) := (arg15_5 m ρ c).trans (at_arg15_4 m ρ c)
theorem at_arg15_6 : W6 m ρ c (Proc.devRef .tc main_arg15) = m ((c : Thread nD τ).loc main_arg15) := (arg15_6 m ρ c).trans (at_arg15_5 m ρ c)
theorem at_arg15_7 : W7 m ρ c (Proc.devRef .tc main_arg15) = m ((c : Thread nD τ).loc main_arg15) := (arg15_7 m ρ c).trans (at_arg15_6 m ρ c)
theorem at_arg15_8 : W8 m ρ c (Proc.devRef .tc main_arg15) = m ((c : Thread nD τ).loc main_arg15) := (arg15_8 m ρ c).trans (at_arg15_7 m ρ c)
theorem at_arg15_9 : W9 m ρ c (Proc.devRef .tc main_arg15) = m ((c : Thread nD τ).loc main_arg15) := (arg15_9 m ρ c).trans (at_arg15_8 m ρ c)
theorem at_arg15_10 : W10 m ρ c (Proc.devRef .tc main_arg15) = m ((c : Thread nD τ).loc main_arg15) := (arg15_10 m ρ c).trans (at_arg15_9 m ρ c)
theorem at_arg15_11 : W11 m ρ c (Proc.devRef .tc main_arg15) = m ((c : Thread nD τ).loc main_arg15) := (arg15_11 m ρ c).trans (at_arg15_10 m ρ c)
theorem at_arg15_12 : W12 m ρ c (Proc.devRef .tc main_arg15) = m ((c : Thread nD τ).loc main_arg15) := (arg15_12 m ρ c).trans (at_arg15_11 m ρ c)
theorem at_arg15_13 : W13 m ρ c (Proc.devRef .tc main_arg15) = m ((c : Thread nD τ).loc main_arg15) := (arg15_13 m ρ c).trans (at_arg15_12 m ρ c)
theorem at_arg15_14 : W14 m ρ c (Proc.devRef .tc main_arg15) = m ((c : Thread nD τ).loc main_arg15) := (arg15_14 m ρ c).trans (at_arg15_13 m ρ c)

/-! ## Results of earlier segments, back to the boundary where they were written -/

theorem v1_4 : W4 m ρ c (Proc.devRef .tc main_v1) = W3 m ρ c (Proc.devRef .tc main_v1) :=
  W4_of_ne m ρ c main_v1 (by decide)
theorem v1_3 : W3 m ρ c (Proc.devRef .tc main_v1) = W2 m ρ c (Proc.devRef .tc main_v1) :=
  StableHlo.after_of_forall_not_mem (b := Proc.devRef .tc main_v1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem from_v1_3 : W3 m ρ c (Proc.devRef .tc main_v1) = W2 m ρ c (Proc.devRef .tc main_v1) := v1_3 m ρ c
theorem from_v1_4 : W4 m ρ c (Proc.devRef .tc main_v1) = W2 m ρ c (Proc.devRef .tc main_v1) := (v1_4 m ρ c).trans (from_v1_3 m ρ c)

theorem v4_9 : W9 m ρ c (Proc.devRef .tc main_v4) = W8 m ρ c (Proc.devRef .tc main_v4) :=
  StableHlo.after_of_forall_not_mem (b := Proc.devRef .tc main_v4) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem v4_8 : W8 m ρ c (Proc.devRef .tc main_v4) = W7 m ρ c (Proc.devRef .tc main_v4) :=
  W8_of_ne m ρ c main_v4 (by decide)
theorem v4_7 : W7 m ρ c (Proc.devRef .tc main_v4) = W6 m ρ c (Proc.devRef .tc main_v4) :=
  StableHlo.after_of_forall_not_mem (b := Proc.devRef .tc main_v4) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem v4_6 : W6 m ρ c (Proc.devRef .tc main_v4) = W5 m ρ c (Proc.devRef .tc main_v4) :=
  W6_of_ne m ρ c main_v4 (by decide)
theorem from_v4_6 : W6 m ρ c (Proc.devRef .tc main_v4) = W5 m ρ c (Proc.devRef .tc main_v4) := v4_6 m ρ c
theorem from_v4_7 : W7 m ρ c (Proc.devRef .tc main_v4) = W5 m ρ c (Proc.devRef .tc main_v4) := (v4_7 m ρ c).trans (from_v4_6 m ρ c)
theorem from_v4_8 : W8 m ρ c (Proc.devRef .tc main_v4) = W5 m ρ c (Proc.devRef .tc main_v4) := (v4_8 m ρ c).trans (from_v4_7 m ρ c)
theorem from_v4_9 : W9 m ρ c (Proc.devRef .tc main_v4) = W5 m ρ c (Proc.devRef .tc main_v4) := (v4_9 m ρ c).trans (from_v4_8 m ρ c)

theorem v15_15 : W15 m ρ c (Proc.devRef .tc main_v15) = W14 m ρ c (Proc.devRef .tc main_v15) :=
  StableHlo.after_of_forall_not_mem (b := Proc.devRef .tc main_v15) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem v15_14 : W14 m ρ c (Proc.devRef .tc main_v15) = W13 m ρ c (Proc.devRef .tc main_v15) :=
  W14_of_ne m ρ c main_v15 (by decide)
theorem v15_13 : W13 m ρ c (Proc.devRef .tc main_v15) = W12 m ρ c (Proc.devRef .tc main_v15) :=
  StableHlo.after_of_forall_not_mem (b := Proc.devRef .tc main_v15) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem v15_12 : W12 m ρ c (Proc.devRef .tc main_v15) = W11 m ρ c (Proc.devRef .tc main_v15) :=
  W12_of_ne m ρ c main_v15 (by decide)
theorem v15_11 : W11 m ρ c (Proc.devRef .tc main_v15) = W10 m ρ c (Proc.devRef .tc main_v15) :=
  StableHlo.after_of_forall_not_mem (b := Proc.devRef .tc main_v15) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem v15_10 : W10 m ρ c (Proc.devRef .tc main_v15) = W9 m ρ c (Proc.devRef .tc main_v15) :=
  (W10_arr m ρ c 4).trans (((dat4 (V9 m ρ) c).arrAt_in 4 rfl _).trans (A_eq4 (V9 m ρ) c 4))
theorem v15_9 : W9 m ρ c (Proc.devRef .tc main_v15) = W8 m ρ c (Proc.devRef .tc main_v15) :=
  StableHlo.after_of_forall_not_mem (b := Proc.devRef .tc main_v15) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem v15_8 : W8 m ρ c (Proc.devRef .tc main_v15) = W7 m ρ c (Proc.devRef .tc main_v15) :=
  W8_of_ne m ρ c main_v15 (by decide)
theorem v15_7 : W7 m ρ c (Proc.devRef .tc main_v15) = W6 m ρ c (Proc.devRef .tc main_v15) :=
  StableHlo.after_of_forall_not_mem (b := Proc.devRef .tc main_v15) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem v15_6 : W6 m ρ c (Proc.devRef .tc main_v15) = W5 m ρ c (Proc.devRef .tc main_v15) :=
  W6_of_ne m ρ c main_v15 (by decide)
theorem from_v15_6 : W6 m ρ c (Proc.devRef .tc main_v15) = W5 m ρ c (Proc.devRef .tc main_v15) := v15_6 m ρ c
theorem from_v15_7 : W7 m ρ c (Proc.devRef .tc main_v15) = W5 m ρ c (Proc.devRef .tc main_v15) := (v15_7 m ρ c).trans (from_v15_6 m ρ c)
theorem from_v15_8 : W8 m ρ c (Proc.devRef .tc main_v15) = W5 m ρ c (Proc.devRef .tc main_v15) := (v15_8 m ρ c).trans (from_v15_7 m ρ c)
theorem from_v15_9 : W9 m ρ c (Proc.devRef .tc main_v15) = W5 m ρ c (Proc.devRef .tc main_v15) := (v15_9 m ρ c).trans (from_v15_8 m ρ c)
theorem from_v15_10 : W10 m ρ c (Proc.devRef .tc main_v15) = W5 m ρ c (Proc.devRef .tc main_v15) := (v15_10 m ρ c).trans (from_v15_9 m ρ c)
theorem from_v15_11 : W11 m ρ c (Proc.devRef .tc main_v15) = W5 m ρ c (Proc.devRef .tc main_v15) := (v15_11 m ρ c).trans (from_v15_10 m ρ c)
theorem from_v15_12 : W12 m ρ c (Proc.devRef .tc main_v15) = W5 m ρ c (Proc.devRef .tc main_v15) := (v15_12 m ρ c).trans (from_v15_11 m ρ c)
theorem from_v15_13 : W13 m ρ c (Proc.devRef .tc main_v15) = W5 m ρ c (Proc.devRef .tc main_v15) := (v15_13 m ρ c).trans (from_v15_12 m ρ c)
theorem from_v15_14 : W14 m ρ c (Proc.devRef .tc main_v15) = W5 m ρ c (Proc.devRef .tc main_v15) := (v15_14 m ρ c).trans (from_v15_13 m ρ c)
theorem from_v15_15 : W15 m ρ c (Proc.devRef .tc main_v15) = W5 m ρ c (Proc.devRef .tc main_v15) := (v15_15 m ρ c).trans (from_v15_14 m ρ c)

theorem v19_15 : W15 m ρ c (Proc.devRef .tc main_v19) = W14 m ρ c (Proc.devRef .tc main_v19) :=
  StableHlo.after_of_forall_not_mem (b := Proc.devRef .tc main_v19) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem v19_14 : W14 m ρ c (Proc.devRef .tc main_v19) = W13 m ρ c (Proc.devRef .tc main_v19) :=
  W14_of_ne m ρ c main_v19 (by decide)
theorem v19_13 : W13 m ρ c (Proc.devRef .tc main_v19) = W12 m ρ c (Proc.devRef .tc main_v19) :=
  StableHlo.after_of_forall_not_mem (b := Proc.devRef .tc main_v19) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem v19_12 : W12 m ρ c (Proc.devRef .tc main_v19) = W11 m ρ c (Proc.devRef .tc main_v19) :=
  W12_of_ne m ρ c main_v19 (by decide)
theorem v19_11 : W11 m ρ c (Proc.devRef .tc main_v19) = W10 m ρ c (Proc.devRef .tc main_v19) :=
  StableHlo.after_of_forall_not_mem (b := Proc.devRef .tc main_v19) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem v19_10 : W10 m ρ c (Proc.devRef .tc main_v19) = W9 m ρ c (Proc.devRef .tc main_v19) :=
  (W10_arr m ρ c 6).trans (((dat4 (V9 m ρ) c).arrAt_in 6 rfl _).trans (A_eq4 (V9 m ρ) c 6))
theorem v19_9 : W9 m ρ c (Proc.devRef .tc main_v19) = W8 m ρ c (Proc.devRef .tc main_v19) :=
  StableHlo.after_of_forall_not_mem (b := Proc.devRef .tc main_v19) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem v19_8 : W8 m ρ c (Proc.devRef .tc main_v19) = W7 m ρ c (Proc.devRef .tc main_v19) :=
  W8_of_ne m ρ c main_v19 (by decide)
theorem v19_7 : W7 m ρ c (Proc.devRef .tc main_v19) = W6 m ρ c (Proc.devRef .tc main_v19) :=
  StableHlo.after_of_forall_not_mem (b := Proc.devRef .tc main_v19) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem v19_6 : W6 m ρ c (Proc.devRef .tc main_v19) = W5 m ρ c (Proc.devRef .tc main_v19) :=
  W6_of_ne m ρ c main_v19 (by decide)
theorem from_v19_6 : W6 m ρ c (Proc.devRef .tc main_v19) = W5 m ρ c (Proc.devRef .tc main_v19) := v19_6 m ρ c
theorem from_v19_7 : W7 m ρ c (Proc.devRef .tc main_v19) = W5 m ρ c (Proc.devRef .tc main_v19) := (v19_7 m ρ c).trans (from_v19_6 m ρ c)
theorem from_v19_8 : W8 m ρ c (Proc.devRef .tc main_v19) = W5 m ρ c (Proc.devRef .tc main_v19) := (v19_8 m ρ c).trans (from_v19_7 m ρ c)
theorem from_v19_9 : W9 m ρ c (Proc.devRef .tc main_v19) = W5 m ρ c (Proc.devRef .tc main_v19) := (v19_9 m ρ c).trans (from_v19_8 m ρ c)
theorem from_v19_10 : W10 m ρ c (Proc.devRef .tc main_v19) = W5 m ρ c (Proc.devRef .tc main_v19) := (v19_10 m ρ c).trans (from_v19_9 m ρ c)
theorem from_v19_11 : W11 m ρ c (Proc.devRef .tc main_v19) = W5 m ρ c (Proc.devRef .tc main_v19) := (v19_11 m ρ c).trans (from_v19_10 m ρ c)
theorem from_v19_12 : W12 m ρ c (Proc.devRef .tc main_v19) = W5 m ρ c (Proc.devRef .tc main_v19) := (v19_12 m ρ c).trans (from_v19_11 m ρ c)
theorem from_v19_13 : W13 m ρ c (Proc.devRef .tc main_v19) = W5 m ρ c (Proc.devRef .tc main_v19) := (v19_13 m ρ c).trans (from_v19_12 m ρ c)
theorem from_v19_14 : W14 m ρ c (Proc.devRef .tc main_v19) = W5 m ρ c (Proc.devRef .tc main_v19) := (v19_14 m ρ c).trans (from_v19_13 m ρ c)
theorem from_v19_15 : W15 m ρ c (Proc.devRef .tc main_v19) = W5 m ρ c (Proc.devRef .tc main_v19) := (v19_15 m ρ c).trans (from_v19_14 m ρ c)

theorem v20_6 : W6 m ρ c (Proc.devRef .tc main_v20) = W5 m ρ c (Proc.devRef .tc main_v20) :=
  W6_of_ne m ρ c main_v20 (by decide)
theorem from_v20_6 : W6 m ρ c (Proc.devRef .tc main_v20) = W5 m ρ c (Proc.devRef .tc main_v20) := v20_6 m ρ c

theorem v33_9 : W9 m ρ c (Proc.devRef .tc main_v33) = W8 m ρ c (Proc.devRef .tc main_v33) :=
  StableHlo.after_of_forall_not_mem (b := Proc.devRef .tc main_v33) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem v33_8 : W8 m ρ c (Proc.devRef .tc main_v33) = W7 m ρ c (Proc.devRef .tc main_v33) :=
  W8_of_ne m ρ c main_v33 (by decide)
theorem from_v33_8 : W8 m ρ c (Proc.devRef .tc main_v33) = W7 m ρ c (Proc.devRef .tc main_v33) := v33_8 m ρ c
theorem from_v33_9 : W9 m ρ c (Proc.devRef .tc main_v33) = W7 m ρ c (Proc.devRef .tc main_v33) := (v33_9 m ρ c).trans (from_v33_8 m ρ c)

theorem v48_15 : W15 m ρ c (Proc.devRef .tc main_v48) = W14 m ρ c (Proc.devRef .tc main_v48) :=
  StableHlo.after_of_forall_not_mem (b := Proc.devRef .tc main_v48) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem v48_14 : W14 m ρ c (Proc.devRef .tc main_v48) = W13 m ρ c (Proc.devRef .tc main_v48) :=
  W14_of_ne m ρ c main_v48 (by decide)
theorem v48_13 : W13 m ρ c (Proc.devRef .tc main_v48) = W12 m ρ c (Proc.devRef .tc main_v48) :=
  StableHlo.after_of_forall_not_mem (b := Proc.devRef .tc main_v48) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem v48_12 : W12 m ρ c (Proc.devRef .tc main_v48) = W11 m ρ c (Proc.devRef .tc main_v48) :=
  W12_of_ne m ρ c main_v48 (by decide)
theorem v48_11 : W11 m ρ c (Proc.devRef .tc main_v48) = W10 m ρ c (Proc.devRef .tc main_v48) :=
  StableHlo.after_of_forall_not_mem (b := Proc.devRef .tc main_v48) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem from_v48_11 : W11 m ρ c (Proc.devRef .tc main_v48) = W10 m ρ c (Proc.devRef .tc main_v48) := v48_11 m ρ c
theorem from_v48_12 : W12 m ρ c (Proc.devRef .tc main_v48) = W10 m ρ c (Proc.devRef .tc main_v48) := (v48_12 m ρ c).trans (from_v48_11 m ρ c)
theorem from_v48_13 : W13 m ρ c (Proc.devRef .tc main_v48) = W10 m ρ c (Proc.devRef .tc main_v48) := (v48_13 m ρ c).trans (from_v48_12 m ρ c)
theorem from_v48_14 : W14 m ρ c (Proc.devRef .tc main_v48) = W10 m ρ c (Proc.devRef .tc main_v48) := (v48_14 m ρ c).trans (from_v48_13 m ρ c)
theorem from_v48_15 : W15 m ρ c (Proc.devRef .tc main_v48) = W10 m ρ c (Proc.devRef .tc main_v48) := (v48_15 m ρ c).trans (from_v48_14 m ρ c)

theorem v49_12 : W12 m ρ c (Proc.devRef .tc main_v49) = W11 m ρ c (Proc.devRef .tc main_v49) :=
  W12_of_ne m ρ c main_v49 (by decide)
theorem from_v49_12 : W12 m ρ c (Proc.devRef .tc main_v49) = W11 m ρ c (Proc.devRef .tc main_v49) := v49_12 m ρ c

theorem v62_15 : W15 m ρ c (Proc.devRef .tc main_v62) = W14 m ρ c (Proc.devRef .tc main_v62) :=
  StableHlo.after_of_forall_not_mem (b := Proc.devRef .tc main_v62) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem v62_14 : W14 m ρ c (Proc.devRef .tc main_v62) = W13 m ρ c (Proc.devRef .tc main_v62) :=
  W14_of_ne m ρ c main_v62 (by decide)
theorem from_v62_14 : W14 m ρ c (Proc.devRef .tc main_v62) = W13 m ρ c (Proc.devRef .tc main_v62) := v62_14 m ρ c
theorem from_v62_15 : W15 m ρ c (Proc.devRef .tc main_v62) = W13 m ρ c (Proc.devRef .tc main_v62) := (v62_15 m ρ c).trans (from_v62_14 m ρ c)

end Cert.KernelIdeal.Keep

end
-- ==== Proof.Vals.lean ====
/-
  The idealized kernel's result buffer at the end of the run, as the network of the argument arrays.

  The contents of the program's buffers at its segment boundaries are a fold over the launch memory. Walking the fold
  forward: a stretch of host operations leaves in each buffer it writes that operation's function of its operands'
  contents; a kernel region leaves in its output array one whole-array function of its input arrays (the eight region
  facts, taken here as a hypothesis); every other buffer keeps what it held. So the two embedded tables, their stack,
  the rows taken at the sources, the per-edge messages, their sums at the targets and the two layers appear one after
  the other, each as the network's corresponding term, and the last region's output array is the network.
-/
import proofs.«169592_j3186865733924_2_alg».proof.Proof.Gen.KernelIdeal.Frame
import proofs.«169592_j3186865733924_2_alg».proof.Proof.Spec
import proofs.«169592_j3186865733924_2_alg».proof.Proof.KGlue
import proofs.«169592_j3186865733924_2_alg».proof.Proof.Keep
import Idealize.ShloMosaic.Lib.StableHlo.Run

set_option maxRecDepth 16384

noncomputable section

namespace Cert.KernelIdeal.Vals

open Idealize.ShloMosaic Idealize.ShloMosaic.TcCoe Idealize.SL.Sem Idealize.ShloMosaic.StableHlo
open Idealize.ShloMosaic.Pipeline (Dat Cfg Window)
open Cert.KernelIdeal Cert.KernelIdeal.Gen Cert.Rgcn Cert.KernelIdeal.KGlue

/-- What each kernel region leaves in its output array, for any contents at its entry: the linear maps with bias, the
    per-edge message products, and the two layer updates, each as one function of the region's input arrays. -/
structure RegionFacts : Prop where
  f0 : ∀ (V : (c : Dev nD) → (b : Ref sig .tc) → Buf (Elt Ideal) ((c : Thread nD τ).loc b)) (c : Dev nD),
    (dat0 (F := Ideal) V c).arrAt 3 cfg0.N = linBias (V c main_arg0) (V c main_arg2) (V c main_v0)
  f1 : ∀ (V : (c : Dev nD) → (b : Ref sig .tc) → Buf (Elt Ideal) ((c : Thread nD τ).loc b)) (c : Dev nD),
    (dat1 (F := Ideal) V c).arrAt 3 cfg1.N = linBias (V c main_arg1) (V c main_arg4) (V c main_v2)
  f2 : ∀ (V : (c : Dev nD) → (b : Ref sig .tc) → Buf (Elt Ideal) ((c : Thread nD τ).loc b)) (c : Dev nD),
    (dat2 (F := Ideal) V c).arrAt 2 cfg2.N = Cert.Layer.prod (V c main_v27) (V c main_v29)
  f3 : ∀ (V : (c : Dev nD) → (b : Ref sig .tc) → Buf (Elt Ideal) ((c : Thread nD τ).loc b)) (c : Dev nD),
    (dat3 (F := Ideal) V c).arrAt 2 cfg3.N = Cert.Layer.prod (V c main_v40) (V c main_v42)
  f4 : ∀ (V : (c : Dev nD) → (b : Ref sig .tc) → Buf (Elt Ideal) ((c : Thread nD τ).loc b)) (c : Dev nD),
    (dat4 (F := Ideal) V c).arrAt 7 cfg4.N
      = rootRelu (V c main_v4) (V c main_arg7) (V c main_v47) (V c main_v33) (V c main_v15) (V c main_v46) (V c main_v19)
  f5 : ∀ (V : (c : Dev nD) → (b : Ref sig .tc) → Buf (Elt Ideal) ((c : Thread nD τ).loc b)) (c : Dev nD),
    (dat5 (F := Ideal) V c).arrAt 2 cfg5.N = Cert.Layer.prod (V c main_v56) (V c main_v58)
  f6 : ∀ (V : (c : Dev nD) → (b : Ref sig .tc) → Buf (Elt Ideal) ((c : Thread nD τ).loc b)) (c : Dev nD),
    (dat6 (F := Ideal) V c).arrAt 2 cfg6.N = Cert.Layer.prod (V c main_v69) (V c main_v71)
  f7 : ∀ (V : (c : Dev nD) → (b : Ref sig .tc) → Buf (Elt Ideal) ((c : Thread nD τ).loc b)) (c : Dev nD),
    (dat7 (F := Ideal) V c).arrAt 7 cfg7.N
      = root (V c main_v48) (V c main_arg10) (V c main_v76) (V c main_v62) (V c main_v15) (V c main_v75) (V c main_v19)

/-! ## The host stretches, over any contents -/

section Host
variable (W : Valuation τ sig (Elt Ideal))

theorem host0_v0 : StableHlo.after hostOps0 W (Proc.devRef .tc main_v0) = row64 (W (Proc.devRef .tc main_arg3)) := by
  after_results; rfl
theorem host1_v2 : StableHlo.after hostOps1 W (Proc.devRef .tc main_v2) = row64 (W (Proc.devRef .tc main_arg5)) := by
  after_results; rfl

theorem host2_v4 : StableHlo.after hostOps2 W (Proc.devRef .tc main_v4)
    = cat (W (Proc.devRef .tc main_v1)) (W (Proc.devRef .tc main_v3)) := by
  after_results_simp; rfl
theorem host2_v15 : StableHlo.after hostOps2 W (Proc.devRef .tc main_v15) = inv (W (Proc.devRef .tc main_arg13)) := by
  after_results_simp; rfl
theorem host2_v19 : StableHlo.after hostOps2 W (Proc.devRef .tc main_v19) = inv (W (Proc.devRef .tc main_arg15)) := by
  after_results_simp; rfl
theorem host2_v20 : StableHlo.after hostOps2 W (Proc.devRef .tc main_v20)
    = truncf .bf16 (cat (W (Proc.devRef .tc main_v1)) (W (Proc.devRef .tc main_v3))) bitsLt_bf16_f32 := by
  after_results_simp; rfl
theorem host2_v27 : StableHlo.after hostOps2 W (Proc.devRef .tc main_v27)
    = take (W (Proc.devRef .tc main_arg12)) (cat (W (Proc.devRef .tc main_v1)) (W (Proc.devRef .tc main_v3))) := by
  after_results_simp; rfl
theorem host2_v29 : StableHlo.after hostOps2 W (Proc.devRef .tc main_v29) = rel1_0 (W (Proc.devRef .tc main_arg6)) := by
  after_results_simp; rfl

theorem host3_v33 : StableHlo.after hostOps3 W (Proc.devRef .tc main_v33)
    = sumH (W (Proc.devRef .tc main_arg13)) (W (Proc.devRef .tc main_v30)) := by
  after_results_simp; rfl
theorem host3_v40 : StableHlo.after hostOps3 W (Proc.devRef .tc main_v40)
    = Host.gather gather_S120000x64_S1000000x1_S1000000x64_1_0_n_n_0_1_164 (W (Proc.devRef .tc main_v20)) (col (W (Proc.devRef .tc main_arg14))) := by
  after_results_simp; rfl
theorem host3_v42 : StableHlo.after hostOps3 W (Proc.devRef .tc main_v42) = rel1_1 (W (Proc.devRef .tc main_arg6)) := by
  after_results_simp; rfl

theorem host4_v46 : StableHlo.after hostOps4 W (Proc.devRef .tc main_v46)
    = sumH (W (Proc.devRef .tc main_arg15)) (W (Proc.devRef .tc main_v43)) := by
  after_results; rfl
theorem host4_v47 : StableHlo.after hostOps4 W (Proc.devRef .tc main_v47) = row64 (W (Proc.devRef .tc main_arg8)) := by
  after_results; rfl

theorem host5_v49 : StableHlo.after hostOps5 W (Proc.devRef .tc main_v49)
    = (truncf .bf16 (W (Proc.devRef .tc main_v48) : FVec Ideal S120000x64 .f32) bitsLt_bf16_f32 : FVec Ideal S120000x64 .bf16) := by
  after_results_simp
theorem host5_v56 : StableHlo.after hostOps5 W (Proc.devRef .tc main_v56)
    = take (W (Proc.devRef .tc main_arg12)) (W (Proc.devRef .tc main_v48)) := by
  after_results_simp; rfl
theorem host5_v58 : StableHlo.after hostOps5 W (Proc.devRef .tc main_v58) = rel2_0 (W (Proc.devRef .tc main_arg9)) := by
  after_results_simp; rfl

theorem host6_v62 : StableHlo.after hostOps6 W (Proc.devRef .tc main_v62)
    = sumO (W (Proc.devRef .tc main_arg13)) (W (Proc.devRef .tc main_v59)) := by
  after_results_simp; rfl
theorem host6_v69 : StableHlo.after hostOps6 W (Proc.devRef .tc main_v69)
    = Host.gather gather_S120000x64_S1000000x1_S1000000x64_1_0_n_n_0_1_164 (W (Proc.devRef .tc main_v49)) (col (W (Proc.devRef .tc main_arg14))) := by
  after_results_simp; rfl
theorem host6_v71 : StableHlo.after hostOps6 W (Proc.devRef .tc main_v71) = rel2_1 (W (Proc.devRef .tc main_arg9)) := by
  after_results_simp; rfl

theorem host7_v75 : StableHlo.after hostOps7 W (Proc.devRef .tc main_v75)
    = sumO (W (Proc.devRef .tc main_arg15)) (W (Proc.devRef .tc main_v72)) := by
  after_results; rfl
theorem host7_v76 : StableHlo.after hostOps7 W (Proc.devRef .tc main_v76) = row32 (W (Proc.devRef .tc main_arg11)) := by
  after_results; rfl

end Host

/-! ## The boundaries, in order -/

section Walk
variable (RF : RegionFacts)
variable (m : (ℓ : Loc nD τ sig) → Buf (Elt Ideal) ℓ) (ρ : Dev nD → PrngReg) (c : Dev nD)

/-- The shared record at the launch memory's endpoint arrays. -/
abbrev G : Glue 100000 20000 120000 1000000 := glue (m ((c : Thread nD τ).loc main_arg12)) (m ((c : Thread nD τ).loc main_arg13)) (m ((c : Thread nD τ).loc main_arg14)) (m ((c : Thread nD τ).loc main_arg15))
/-- The embedded reviews. -/
abbrev hRev : Mat 100000 64 := linBias (m ((c : Thread nD τ).loc main_arg0)) (m ((c : Thread nD τ).loc main_arg2)) (row64 (m ((c : Thread nD τ).loc main_arg3)))
/-- The embedded products. -/
abbrev hProd : Mat 20000 64 := linBias (m ((c : Thread nD τ).loc main_arg1)) (m ((c : Thread nD τ).loc main_arg4)) (row64 (m ((c : Thread nD τ).loc main_arg5)))
/-- The stacked table. -/
abbrev H : Mat 120000 64 := embed (G m c) (m ((c : Thread nD τ).loc main_arg0)) (m ((c : Thread nD τ).loc main_arg2)) (row64 (m ((c : Thread nD τ).loc main_arg3))) (m ((c : Thread nD τ).loc main_arg1)) (m ((c : Thread nD τ).loc main_arg4)) (row64 (m ((c : Thread nD τ).loc main_arg5)))
/-- The table after the first layer. -/
abbrev H1 : Mat 120000 64 := layer1 (G m c) (H m c) (rel1_0 (m ((c : Thread nD τ).loc main_arg6))) (rel1_1 (m ((c : Thread nD τ).loc main_arg6))) (m ((c : Thread nD τ).loc main_arg7)) (row64 (m ((c : Thread nD τ).loc main_arg8)))
/-- The network. -/
abbrev OUT : Mat 120000 32 := layer2 (G m c) (H1 m c) (rel2_0 (m ((c : Thread nD τ).loc main_arg9))) (rel2_1 (m ((c : Thread nD τ).loc main_arg9))) (m ((c : Thread nD τ).loc main_arg10)) (row32 (m ((c : Thread nD τ).loc main_arg11)))

include RF

/-- Region 0 leaves the embedded reviews. -/
theorem w2_v1 : W2 m ρ c (Proc.devRef .tc main_v1) = hRev m c := by
  refine (W2_arr m ρ c 3).trans ?_
  rw [RF.f0 (V1 m ρ) c]
  have e0 : V1 m ρ c main_arg0 = (m ((c : Thread nD τ).loc main_arg0)) := Keep.at_arg0_1 m ρ c
  have e2 : V1 m ρ c main_arg2 = (m ((c : Thread nD τ).loc main_arg2)) := Keep.at_arg2_1 m ρ c
  have e3 : V1 m ρ c main_v0 = row64 (m ((c : Thread nD τ).loc main_arg3)) := host0_v0 (W0 m ρ c)
  rw [e0, e2, e3]

/-- Region 1 leaves the embedded products. -/
theorem w4_v3 : W4 m ρ c (Proc.devRef .tc main_v3) = hProd m c := by
  refine (W4_arr m ρ c 3).trans ?_
  rw [RF.f1 (V3 m ρ) c]
  have e1 : V3 m ρ c main_arg1 = (m ((c : Thread nD τ).loc main_arg1)) := Keep.at_arg1_3 m ρ c
  have e4 : V3 m ρ c main_arg4 = (m ((c : Thread nD τ).loc main_arg4)) := Keep.at_arg4_3 m ρ c
  have e5 : V3 m ρ c main_v2 = row64 (m ((c : Thread nD τ).loc main_arg5)) := (host1_v2 (W2 m ρ c)).trans (congrArg row64 (Keep.at_arg5_2 m ρ c))
  rw [e1, e4, e5]

theorem w4_v1 : W4 m ρ c (Proc.devRef .tc main_v1) = hRev m c := (Keep.from_v1_4 m ρ c).trans (w2_v1 RF m ρ c)

/-- After the third stretch: the stacked table, its rows at relation 0's sources, relation 0's weights, the reciprocals. -/
theorem w5_v4 : W5 m ρ c (Proc.devRef .tc main_v4) = H m c :=
  (host2_v4 (W4 m ρ c)).trans (by rw [w4_v1 RF m ρ c, w4_v3 RF m ρ c]; simp only [G, H, H1, embed, glue])
theorem w5_v20 : W5 m ρ c (Proc.devRef .tc main_v20) = truncf .bf16 (H m c) bitsLt_bf16_f32 :=
  (host2_v20 (W4 m ρ c)).trans (by rw [w4_v1 RF m ρ c, w4_v3 RF m ρ c]; simp only [G, H, H1, embed, glue])
theorem w5_v27 : W5 m ρ c (Proc.devRef .tc main_v27) = (G m c).take0 (H m c) :=
  (host2_v27 (W4 m ρ c)).trans (by rw [w4_v1 RF m ρ c, w4_v3 RF m ρ c, Keep.at_arg12_4 m ρ c]; simp only [G, H, H1, embed, glue])
theorem w5_v29 : W5 m ρ c (Proc.devRef .tc main_v29) = rel1_0 (m ((c : Thread nD τ).loc main_arg6)) :=
  (host2_v29 (W4 m ρ c)).trans (by rw [Keep.at_arg6_4 m ρ c])
theorem w5_v15 : W5 m ρ c (Proc.devRef .tc main_v15) = (G m c).inv0 :=
  (host2_v15 (W4 m ρ c)).trans (by rw [Keep.at_arg13_4 m ρ c]; simp only [G, H, H1, embed, glue])
theorem w5_v19 : W5 m ρ c (Proc.devRef .tc main_v19) = (G m c).inv1 :=
  (host2_v19 (W4 m ρ c)).trans (by rw [Keep.at_arg15_4 m ρ c]; simp only [G, H, H1, embed, glue])

/-- Region 2 leaves relation 0's messages of the first layer. -/
theorem w6_v30 : W6 m ρ c (Proc.devRef .tc main_v30) = Cert.Layer.prod ((G m c).take0 (H m c)) (rel1_0 (m ((c : Thread nD τ).loc main_arg6))) := by
  refine (W6_arr m ρ c 2).trans ?_
  rw [RF.f2 (V5 m ρ) c]
  have ea : V5 m ρ c main_v27 = (G m c).take0 (H m c) := w5_v27 RF m ρ c
  have eb : V5 m ρ c main_v29 = rel1_0 (m ((c : Thread nD τ).loc main_arg6)) := w5_v29 RF m ρ c
  rw [ea, eb]

/-- After the fourth stretch: relation 0's sums, the rows at relation 1's sources, relation 1's weights. -/
theorem w7_v33 : W7 m ρ c (Proc.devRef .tc main_v33) = (G m c).sum0h (Cert.Layer.prod ((G m c).take0 (H m c)) (rel1_0 (m ((c : Thread nD τ).loc main_arg6)))) :=
  (host3_v33 (W6 m ρ c)).trans (by rw [w6_v30 RF m ρ c, Keep.at_arg13_6 m ρ c]; simp only [G, H, H1, embed, glue])
theorem w7_v40 : W7 m ρ c (Proc.devRef .tc main_v40) = (G m c).take1 (H m c) :=
  (host3_v40 (W6 m ρ c)).trans (by rw [(Keep.from_v20_6 m ρ c).trans (w5_v20 RF m ρ c), Keep.at_arg14_6 m ρ c]; simp only [G, H, H1, embed, glue, take])
theorem w7_v42 : W7 m ρ c (Proc.devRef .tc main_v42) = rel1_1 (m ((c : Thread nD τ).loc main_arg6)) :=
  (host3_v42 (W6 m ρ c)).trans (by rw [Keep.at_arg6_6 m ρ c])

/-- Region 3 leaves relation 1's messages of the first layer. -/
theorem w8_v43 : W8 m ρ c (Proc.devRef .tc main_v43) = Cert.Layer.prod ((G m c).take1 (H m c)) (rel1_1 (m ((c : Thread nD τ).loc main_arg6))) := by
  refine (W8_arr m ρ c 2).trans ?_
  rw [RF.f3 (V7 m ρ) c]
  have ea : V7 m ρ c main_v40 = (G m c).take1 (H m c) := w7_v40 RF m ρ c
  have eb : V7 m ρ c main_v42 = rel1_1 (m ((c : Thread nD τ).loc main_arg6)) := w7_v42 RF m ρ c
  rw [ea, eb]

/-- Region 4 leaves the table after the first layer. -/
theorem w10_v48 : W10 m ρ c (Proc.devRef .tc main_v48) = H1 m c := by
  refine (W10_arr m ρ c 7).trans ?_
  rw [RF.f4 (V9 m ρ) c]
  have e0 : V9 m ρ c main_v4 = H m c := (Keep.from_v4_9 m ρ c).trans (w5_v4 RF m ρ c)
  have e1 : V9 m ρ c main_arg7 = (m ((c : Thread nD τ).loc main_arg7)) := Keep.at_arg7_9 m ρ c
  have e2 : V9 m ρ c main_v47 = row64 (m ((c : Thread nD τ).loc main_arg8)) := (host4_v47 (W8 m ρ c)).trans (congrArg row64 (Keep.at_arg8_8 m ρ c))
  have e3 : V9 m ρ c main_v33 = (G m c).sum0h (Cert.Layer.prod ((G m c).take0 (H m c)) (rel1_0 (m ((c : Thread nD τ).loc main_arg6)))) :=
    (Keep.from_v33_9 m ρ c).trans (w7_v33 RF m ρ c)
  have e4 : V9 m ρ c main_v15 = (G m c).inv0 := (Keep.from_v15_9 m ρ c).trans (w5_v15 RF m ρ c)
  have e5 : V9 m ρ c main_v46 = (G m c).sum1h (Cert.Layer.prod ((G m c).take1 (H m c)) (rel1_1 (m ((c : Thread nD τ).loc main_arg6)))) :=
    (host4_v46 (W8 m ρ c)).trans (by rw [w8_v43 RF m ρ c, Keep.at_arg15_8 m ρ c]; simp only [G, H, H1, embed, glue])
  have e6 : V9 m ρ c main_v19 = (G m c).inv1 := (Keep.from_v19_9 m ρ c).trans (w5_v19 RF m ρ c)
  rw [e0, e1, e2, e3, e4, e5, e6]
  rfl

/-- After the sixth stretch: the new table's rows at relation 0's sources, relation 0's second weights. -/
theorem w11_v49 : W11 m ρ c (Proc.devRef .tc main_v49) = truncf .bf16 (H1 m c) bitsLt_bf16_f32 :=
  (host5_v49 (W10 m ρ c)).trans (by rw [w10_v48 RF m ρ c])
theorem w11_v56 : W11 m ρ c (Proc.devRef .tc main_v56) = (G m c).take0 (H1 m c) :=
  (host5_v56 (W10 m ρ c)).trans (by rw [w10_v48 RF m ρ c, Keep.at_arg12_10 m ρ c]; simp only [G, H, H1, embed, glue])
theorem w11_v58 : W11 m ρ c (Proc.devRef .tc main_v58) = rel2_0 (m ((c : Thread nD τ).loc main_arg9)) :=
  (host5_v58 (W10 m ρ c)).trans (by rw [Keep.at_arg9_10 m ρ c])

/-- Region 5 leaves relation 0's messages of the second layer. -/
theorem w12_v59 : W12 m ρ c (Proc.devRef .tc main_v59) = Cert.Layer.prod ((G m c).take0 (H1 m c)) (rel2_0 (m ((c : Thread nD τ).loc main_arg9))) := by
  refine (W12_arr m ρ c 2).trans ?_
  rw [RF.f5 (V11 m ρ) c]
  have ea : V11 m ρ c main_v56 = (G m c).take0 (H1 m c) := w11_v56 RF m ρ c
  have eb : V11 m ρ c main_v58 = rel2_0 (m ((c : Thread nD τ).loc main_arg9)) := w11_v58 RF m ρ c
  rw [ea, eb]

theorem w13_v62 : W13 m ρ c (Proc.devRef .tc main_v62) = (G m c).sum0o (Cert.Layer.prod ((G m c).take0 (H1 m c)) (rel2_0 (m ((c : Thread nD τ).loc main_arg9)))) :=
  (host6_v62 (W12 m ρ c)).trans (by rw [w12_v59 RF m ρ c, Keep.at_arg13_12 m ρ c]; simp only [G, H, H1, embed, glue])
theorem w13_v69 : W13 m ρ c (Proc.devRef .tc main_v69) = (G m c).take1 (H1 m c) :=
  (host6_v69 (W12 m ρ c)).trans (by rw [(Keep.from_v49_12 m ρ c).trans (w11_v49 RF m ρ c), Keep.at_arg14_12 m ρ c]; simp only [G, H, H1, embed, glue, take])
theorem w13_v71 : W13 m ρ c (Proc.devRef .tc main_v71) = rel2_1 (m ((c : Thread nD τ).loc main_arg9)) :=
  (host6_v71 (W12 m ρ c)).trans (by rw [Keep.at_arg9_12 m ρ c])

/-- Region 6 leaves relation 1's messages of the second layer. -/
theorem w14_v72 : W14 m ρ c (Proc.devRef .tc main_v72) = Cert.Layer.prod ((G m c).take1 (H1 m c)) (rel2_1 (m ((c : Thread nD τ).loc main_arg9))) := by
  refine (W14_arr m ρ c 2).trans ?_
  rw [RF.f6 (V13 m ρ) c]
  have ea : V13 m ρ c main_v69 = (G m c).take1 (H1 m c) := w13_v69 RF m ρ c
  have eb : V13 m ρ c main_v71 = rel2_1 (m ((c : Thread nD τ).loc main_arg9)) := w13_v71 RF m ρ c
  rw [ea, eb]

/-- Region 7 leaves the network: the result buffer at the last boundary. -/
theorem result : W16 m ρ c (Proc.devRef .tc main_v77) = OUT m c := by
  refine (W16_arr m ρ c 7).trans ?_
  rw [RF.f7 (V15 m ρ) c]
  have e0 : V15 m ρ c main_v48 = H1 m c := (Keep.from_v48_15 m ρ c).trans (w10_v48 RF m ρ c)
  have e1 : V15 m ρ c main_arg10 = (m ((c : Thread nD τ).loc main_arg10)) := Keep.at_arg10_15 m ρ c
  have e2 : V15 m ρ c main_v76 = row32 (m ((c : Thread nD τ).loc main_arg11)) := (host7_v76 (W14 m ρ c)).trans (congrArg row32 (Keep.at_arg11_14 m ρ c))
  have e3 : V15 m ρ c main_v62 = (G m c).sum0o (Cert.Layer.prod ((G m c).take0 (H1 m c)) (rel2_0 (m ((c : Thread nD τ).loc main_arg9)))) :=
    (Keep.from_v62_15 m ρ c).trans (w13_v62 RF m ρ c)
  have e4 : V15 m ρ c main_v15 = (G m c).inv0 := (Keep.from_v15_15 m ρ c).trans (w5_v15 RF m ρ c)
  have e5 : V15 m ρ c main_v75 = (G m c).sum1o (Cert.Layer.prod ((G m c).take1 (H1 m c)) (rel2_1 (m ((c : Thread nD τ).loc main_arg9)))) :=
    (host7_v75 (W14 m ρ c)).trans (by rw [w14_v72 RF m ρ c, Keep.at_arg15_14 m ρ c]; simp only [G, H, H1, embed, glue])
  have e6 : V15 m ρ c main_v19 = (G m c).inv1 := (Keep.from_v19_15 m ρ c).trans (w5_v19 RF m ρ c)
  rw [e0, e1, e2, e3, e4, e5, e6]
  rfl

end Walk

end Cert.KernelIdeal.Vals

end
-- ==== Proof.LibPlainDims.lean ====
/-
  The dimension record of a plain matrix product: an A by K matrix times a K by B matrix, the left operand
  contracted on its second axis and the right on its first, no batch axes. Whatever record spells this pattern,
  its contraction index has one coordinate of extent K, the left operand is read at (row, k) and the right at
  (k, column). These are the six facts the entry-wise readings of a product ask for.
-/
import Idealize.ShloMosaic.PureOps.Dims
import Idealize.ShloMosaic.Lib.ValueIdx

namespace Cert.LibPlainDims

open Idealize.ShloMosaic Idealize.ShloMosaic.ValueIdx

/-- The coordinate facts of a plain product's dimension record. -/
structure PlainFacts {A K B : ℕ} (d : DotDims (⟨2, ![A, K]⟩ : Shape) (⟨2, ![K, B]⟩ : Shape) (⟨2, ![A, B]⟩ : Shape)) : Prop where
  rank : d.contr.rank = 1
  size : d.contr.size ⟨0, by omega⟩ = K
  l0 : ∀ i q, (d.lhsIdx i q (0 : Fin 2)).val = (i (0 : Fin 2)).val
  l1 : ∀ i q, (d.lhsIdx i q (1 : Fin 2)).val = (q ⟨0, by omega⟩).val
  r0 : ∀ i q, (d.rhsIdx i q (0 : Fin 2)).val = (q ⟨0, by omega⟩).val
  r1 : ∀ i q, (d.rhsIdx i q (1 : Fin 2)).val = (i (1 : Fin 2)).val

/-- Any record with the plain pattern's six lists has the coordinate facts. -/
theorem plainFacts {A K B : ℕ} (d : DotDims (⟨2, ![A, K]⟩ : Shape) (⟨2, ![K, B]⟩ : Shape) (⟨2, ![A, B]⟩ : Shape))
    (hlc : d.lhsContracting = [1]) (hrc : d.rhsContracting = [0]) (hln : d.lhsNonContracting = [0])
    (hrn : d.rhsNonContracting = [1]) (hlb : d.lhsBatch = []) (hrb : d.rhsBatch = []) : PlainFacts d := by
  obtain ⟨lc, rc, ln, rn, lb, rb, wf⟩ := d
  simp only at hlc hrc hln hrn hlb hrb
  subst hlc hrc hln hrn hlb hrb
  refine ⟨rfl, rfl, ?_, ?_, ?_, ?_⟩
  · intro i q
    unfold DotDims.lhsIdx
    rw [dif_neg (show ¬ (0 : Fin (⟨2, ![A, K]⟩ : Shape).rank) ∈ (DotDims.mk (so := (⟨2, ![A, B]⟩ : Shape)) [1] [0] [0] [1] [] [] wf).lhsBatch from List.not_mem_nil),
      dif_pos (show (0 : Fin (⟨2, ![A, K]⟩ : Shape).rank) ∈ (DotDims.mk (so := (⟨2, ![A, B]⟩ : Shape)) [1] [0] [0] [1] [] [] wf).lhsNonContracting from List.mem_singleton.mpr rfl)]
    rfl
  · intro i q
    exact DotDims.lhsIdx_val_of_single _ rfl i q
  · intro i q
    exact DotDims.rhsIdx_val_of_single _ rfl i q
  · intro i q
    unfold DotDims.rhsIdx
    rw [dif_neg (show ¬ (1 : Fin (⟨2, ![K, B]⟩ : Shape).rank) ∈ (DotDims.mk (sl := (⟨2, ![A, K]⟩ : Shape)) (so := (⟨2, ![A, B]⟩ : Shape)) [1] [0] [0] [1] [] [] wf).rhsBatch from List.not_mem_nil),
      dif_pos (show (1 : Fin (⟨2, ![K, B]⟩ : Shape).rank) ∈ (DotDims.mk (sl := (⟨2, ![A, K]⟩ : Shape)) (so := (⟨2, ![A, B]⟩ : Shape)) [1] [0] [0] [1] [] [] wf).rhsNonContracting from List.mem_singleton.mpr rfl)]
    rfl

end Cert.LibPlainDims
-- ==== Proof.Region0.lean ====
import proofs.«169592_j3186865733924_2_alg».proof.Proof.Gen.KernelIdeal.Frame
import proofs.«169592_j3186865733924_2_alg».proof.Proof.Spec
import proofs.«169592_j3186865733924_2_alg».proof.Proof.LibPlainDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b)) (c : Dev nD)

/-- The zero offsets of a whole-block access, as a constant function. -/
theorem hz : (![0, 0] : Fin 2 → Nat) = fun _ => 0 := funext fun a => by fin_cases a <;> rfl

/-- The stored block at an entry: the product of the two loaded blocks plus the bias row's entry of that
    column (rounding the factors is the identity over the extended reals, the accumulator is zero, and the
    bias row is spread over all rows). -/
theorem pay_apply (x0 : FVec Ideal S10000x128 .f32) (x1 : FVec Ideal S128x64 .f32) (x2 : FVec Ideal S1x64 .f32)
    (p : Fin 10000) (q : Fin 64) :
    k0_pay1 (F := Ideal) x0 x1 x2 (ix2 p q) = Cert.Rgcn.linBias x0 x1 x2 (ix2 p q) := by
  unfold k0_pay1
  simp only [shapeCast_self]
  have f := Cert.LibPlainDims.plainFacts dot_S10000x128_S128x64_S10000x64_1_0_0_1_n_n rfl rfl rfl rfl rfl rfl
  refine (addf_apply _ _ _).trans ?_
  exact congrArg₂ (· + ·) (Cert.Layer.matmul_trunc_apply _ f.rank f.size f.l0 f.l1 f.r0 f.r1 _ x0 x1 p q)
    (broadcastTo_1b_ab_apply x2 _ p q)

/-- The index maps over the 10 grid points: the row-blocked input moves with the output, whose block
    index is the point itself; the weight matrix and the bias row stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the left factor's block at point t is row 10000 t + p of the array. -/
theorem read0 (t : Fin cfg0.N) (p : Fin 10000) (k : Fin 128) (p' : Fin 100000) (hp : p'.val = t.val * 10000 + p.val) :
    iblk0 (F := Ideal) V c 0 t (ix2 p k) = V c main_arg0 (ix2 p' k) := by
  obtain ⟨e0, e1, -⟩ := idx_facts t
  unfold iblk0
  show V c main_arg0 (((cfg0.win 0).blk t).view.emb (ix2 p k)) = V c main_arg0 (ix2 p' k)
  refine congrArg _ (funext fun a => Fin.ext ?_)
  match a with
  | ⟨0, _⟩ => show win0_0.index t (0 : Fin 2) * 10000 + 1 * p.val = p'.val; omega
  | ⟨1, _⟩ => show win0_0.index t (1 : Fin 2) * 128 + 1 * k.val = k.val; omega

/-- The weight matrix's block at every point is the matrix. -/
theorem read1 (t : Fin cfg0.N) (k : Fin 128) (q : Fin 64) :
    iblk0 (F := Ideal) V c 1 t (ix2 k q) = V c main_arg2 (ix2 k q) := by
  obtain ⟨-, -, e2, e3, -⟩ := idx_facts t
  unfold iblk0
  show V c main_arg2 (((cfg0.win 1).blk t).view.emb (ix2 k q)) = V c main_arg2 (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 64 + 1 * q.val = q.val; omega

/-- The bias row's block at every point is the row. -/
theorem read2 (t : Fin cfg0.N) (u : Fin 1) (q : Fin 64) :
    iblk0 (F := Ideal) V c 2 t (ix2 u q) = V c main_v0 (ix2 u q) := by
  obtain ⟨-, -, -, -, e4, e5, -⟩ := idx_facts t
  unfold iblk0
  show V c main_v0 (((cfg0.win 2).blk t).view.emb (ix2 u q)) = V c main_v0 (ix2 u q)
  refine congrArg _ (funext fun a => Fin.ext ?_)
  match a with
  | ⟨0, _⟩ => show win0_2.index t (0 : Fin 2) * 1 + 1 * u.val = u.val; omega
  | ⟨1, _⟩ => show win0_2.index t (1 : Fin 2) * 64 + 1 * q.val = q.val; omega

/-- What point t writes back is block t of the product plus bias of the three arrays as the region finds them. -/
theorem flushed_eq (t : Fin cfg0.N) :
    (dat0 (F := Ideal) V c).flushed 3 t
      = ((cfg0.win 3).blk t).view.read (Elt Ideal) (Cert.Rgcn.linBias (V c main_arg0) (V c main_arg2) (V c main_v0)) := by
  show (cfg0.win 3).cut (grid0.coords t) ((dat0 (F := Ideal) V c).after 3 t) = _
  rw [after0_3]
  unfold out0_3
  rw [View.canon_unit_zero hz]
  simp only [View.ld_unit_zero (S := S10000x128) hz, View.ld_unit_zero (S := S128x64) hz, View.ld_unit_zero (S := S1x64) hz]
  funext j
  obtain ⟨p, q, rfl⟩ : ∃ (p : Fin 10000) (q : Fin 64), j = ix2 p q := ⟨j 0, j 1, eq_ix2 j⟩
  have hN : cfg0.N = 10 := N_0
  have ht : t.val < 10 := by have := t.isLt; omega
  obtain ⟨-, -, -, -, -, -, e6, e7⟩ := idx_facts t
  have hemb : ((cfg0.win 3).blk t).view.emb (ix2 p q) = ix2 (⟨t.val * 10000 + p.val, by omega⟩ : Fin 100000) q := by
    funext a; apply Fin.ext
    match a with
    | ⟨0, _⟩ => show win0_3.index t (0 : Fin 2) * 10000 + 1 * p.val = t.val * 10000 + p.val; omega
    | ⟨1, _⟩ => show win0_3.index t (1 : Fin 2) * 64 + 1 * q.val = q.val; omega
  show k0_pay1 (F := Ideal) (iblk0 V c 0 t) (iblk0 V c 1 t) (iblk0 V c 2 t) (ix2 p q)
    = Cert.Rgcn.linBias (V c main_arg0) (V c main_arg2) (V c main_v0) (((cfg0.win 3).blk t).view.emb (ix2 p q))
  rw [hemb]
  refine (pay_apply _ _ _ p q).trans ?_
  exact congrArg₂ (· + ·)
    (Cert.Layer.prod_congr _ _ _ _ p q _ q (fun k => read0 V c t p k _ rfl) (fun k => read1 V c t k q))
    (read2 V c t 0 q)

/-- An index of the array is in point t's block iff each coordinate is in the block's range on its axis. -/
theorem mem_blk (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v1).slice (win0_3.rect t)).set ↔ _
  rw [View.set_slice_whole, Rect.mem_set_unit]
  exact Iff.rfl

/-- Every index of the array is in some point's block: row r is in the block of point r / 10000. -/
theorem cover (i : S100000x64.Idx) :
    ∃ t : Fin cfg0.N, (cfg0.win 3).flush t = true ∧ i ∈ ((cfg0.win 3).blk t).view.set := by
  have hN : cfg0.N = 10 := N_0
  have hi0 : (i 0).val < 100000 := (i 0).isLt
  have hi1 : (i 1).val < 64 := (i 1).isLt
  obtain ⟨t, ht⟩ : ∃ t : Fin cfg0.N, t.val = (i 0).val / 10000 := ⟨⟨(i 0).val / 10000, by rw [hN]; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 64 ≤ (i 1).val ∧ (i 1).val < win0_3.index t (1 : Fin 2) * 64 + 64
    omega

/-- The output array after the region is the product plus bias of the three input arrays as the region finds them. -/
theorem final0 : (dat0 (F := Ideal) V c).arrAt 3 cfg0.N
    = Cert.Rgcn.linBias (V c main_arg0) (V c main_arg2) (V c main_v0) :=
  (dat0 (F := Ideal) V c).arrAt_eq_of_cover 3 (Cert.Rgcn.linBias (V c main_arg0) (V c main_arg2) (V c main_v0))
    (fun t _ => flushed_eq V c t) cover

end Cert.KernelIdeal.Region0

end
-- ==== Proof.Region1.lean ====
import proofs.«169592_j3186865733924_2_alg».proof.Proof.Gen.KernelIdeal.Frame
import proofs.«169592_j3186865733924_2_alg».proof.Proof.Spec
import proofs.«169592_j3186865733924_2_alg».proof.Proof.LibPlainDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b)) (c : Dev nD)

/-! ## The body's stored value at an entry -/

/-- The coordinate facts of the product's dimension record: left operand read at (row, k), right at (k, column). -/
theorem dotFacts : Cert.LibPlainDims.PlainFacts dot_S5000x64_S64x64_S5000x64_1_0_0_1_n_n :=
  Cert.LibPlainDims.plainFacts dot_S5000x64_S64x64_S5000x64_1_0_0_1_n_n rfl rfl rfl rfl rfl rfl

/-- Entry (p, q) of the stored block: the product plus the bias row. The cast to the same shape is the identity,
    rounding is the identity over the extended reals, and the product accumulated into zero is the plain sum. -/
theorem pay_apply (x0 : FVec Ideal S5000x64 .f32) (x1 : FVec Ideal S64x64 .f32) (x2 : FVec Ideal S1x64 .f32)
    (p : Fin 5000) (q : Fin 64) :
    k1_pay1 (F := Ideal) x0 x1 x2 (ix2 p q) = Cert.Rgcn.linBias x0 x1 x2 (ix2 p q) := by
  unfold k1_pay1
  simp only [shapeCast_self]
  show FloatOps.matmul dot_S5000x64_S64x64_S5000x64_1_0_0_1_n_n none (truncf .bf16 x0 bitsLt_bf16_f32)
        (truncf .bf16 x1 bitsLt_bf16_f32) (constant (F := Ideal) S5000x64 .f32 0x00000000#32) (ix2 p q)
      + broadcastTo S5000x64 x2 broadcasts_S1x64_S5000x64 (ix2 p q) = _
  rw [Cert.Layer.matmul_trunc_apply _ dotFacts.rank dotFacts.size dotFacts.l0 dotFacts.l1 dotFacts.r0 dotFacts.r1,
    broadcastTo_1b_ab_apply]
  rfl

/-! ## Two entries of the product plus bias agree when everything they read agrees -/

/-- An entry depends on row r of the left matrix and column q of the weights and of the bias row. -/
theorem linBias_congr {A A' K B : ℕ}
    (x : Cert.Rgcn.Mat A K) (w : Cert.Rgcn.Mat K B) (b : Cert.Rgcn.Mat 1 B)
    (x' : Cert.Rgcn.Mat A' K) (w' : Cert.Rgcn.Mat K B) (b' : Cert.Rgcn.Mat 1 B)
    (r : Fin A) (r' : Fin A') (q : Fin B)
    (hx : ∀ k : Fin K, x (ix2 r k) = x' (ix2 r' k)) (hw : ∀ k : Fin K, w (ix2 k q) = w' (ix2 k q))
    (hb : b (ix2 (0 : Fin 1) q) = b' (ix2 (0 : Fin 1) q)) :
    Cert.Rgcn.linBias x w b (ix2 r q) = Cert.Rgcn.linBias x' w' b' (ix2 r' q) := by
  show Cert.Layer.prod x w (ix2 r q) + b (ix2 (0 : Fin 1) q) = Cert.Layer.prod x' w' (ix2 r' q) + b' (ix2 (0 : Fin 1) q)
  rw [Cert.Layer.prod_congr x w x' w' r q r' q hx hw, hb]

/-! ## The index maps, decided over the grid's four points -/

theorem hz : (![0, 0] : Fin 2 → Nat) = fun _ => 0 := funext fun a => by fin_cases a <;> rfl

/-- The row-blocked windows are at block (t, 0) at point t; the weights and the bias row are at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every block of rows is some point's. -/
theorem idx_onto : ∀ q0 : Fin 4, ∃ t : Fin cfg1.N, win1_3.index t (0 : Fin 2) = q0.val ∧ win1_3.index t (1 : Fin 2) = 0 :=
  (by decide +kernel : ∀ q0 : Fin 4, ∃ t : Fin grid1.N, win1_3.index t (0 : Fin 2) = q0.val ∧ win1_3.index t (1 : Fin 2) = 0)

/-! ## Each window's block, read at an entry, as an entry of its array -/

/-- The left matrix's block at point t holds, at (p, k), the matrix's entry (5000 t + p, k). -/
theorem blk0_apply (t : Fin cfg1.N) (p : Fin 5000) (k : Fin 64) (r : Fin 20000) (hr : r.val = t.val * 5000 + p.val) :
    (iblk1 V c 0 t : Vec Ideal S5000x64 .f32) (ix2 p k) = (V c main_arg1 : Cert.Rgcn.Mat 20000 64) (ix2 r k) := by
  obtain ⟨e0, e1, -⟩ := idx_facts t
  unfold iblk1
  rw [View.read_apply]
  show V c main_arg1 _ = V c main_arg1 _
  congr 1
  funext a
  apply Fin.ext
  match a with
  | ⟨0, _⟩ => show win1_0.index t (0 : Fin 2) * 5000 + 1 * p.val = r.val; omega
  | ⟨1, _⟩ => show win1_0.index t (1 : Fin 2) * 64 + 1 * k.val = k.val; omega

/-- The weights' block is the whole array at every point. -/
theorem blk1_apply (t : Fin cfg1.N) (k : Fin 64) (q : Fin 64) :
    (iblk1 V c 1 t : Vec Ideal S64x64 .f32) (ix2 k q) = (V c main_arg4 : Cert.Rgcn.Mat 64 64) (ix2 k q) := by
  obtain ⟨-, -, e0, e1, -⟩ := idx_facts t
  unfold iblk1
  rw [View.read_apply]
  show V c main_arg4 _ = V c main_arg4 _
  congr 1
  funext a
  apply Fin.ext
  match a with
  | ⟨0, _⟩ => show win1_1.index t (0 : Fin 2) * 64 + 1 * k.val = k.val; omega
  | ⟨1, _⟩ => show win1_1.index t (1 : Fin 2) * 64 + 1 * q.val = q.val; omega

/-- The bias row's block is the whole row at every point. -/
theorem blk2_apply (t : Fin cfg1.N) (q : Fin 64) :
    (iblk1 V c 2 t : Vec Ideal S1x64 .f32) (ix2 (0 : Fin 1) q) = (V c main_v2 : Cert.Rgcn.Mat 1 64) (ix2 (0 : Fin 1) q) := by
  obtain ⟨-, -, -, -, e0, e1, -⟩ := idx_facts t
  unfold iblk1
  rw [View.read_apply]
  show V c main_v2 _ = V c main_v2 _
  congr 1
  funext a
  apply Fin.ext
  match a with
  | ⟨0, _⟩ => show win1_2.index t (0 : Fin 2) * 1 + 1 * (0 : Fin 1).val = (0 : Fin 1).val; omega
  | ⟨1, _⟩ => show win1_2.index t (1 : Fin 2) * 64 + 1 * q.val = q.val; omega

/-! ## What a point writes back, and the array after the region -/

/-- Point t writes back block t of the product plus bias of the arrays as the region finds them. -/
theorem flushed_eq (t : Fin cfg1.N) :
    (dat1 (F := Ideal) V c).flushed 3 t = ((cfg1.win 3).blk t).view.read (Elt Ideal)
      (Cert.Rgcn.linBias (V c main_arg1) (V c main_arg4) (V c main_v2)) := by
  show (cfg1.win 3).cut (grid1.coords t) ((dat1 (F := Ideal) V c).after 3 t) = _
  rw [after1_3]
  unfold out1_3
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  obtain ⟨-, -, -, -, -, -, e0, e1⟩ := idx_facts t
  have ht : t.val < 4 := lt_of_lt_of_eq t.isLt N_1
  have hp : p.val < 5000 := p.isLt
  have hr : t.val * 5000 + p.val < 20000 := by omega
  have he : ((cfg1.win 3).blk t).view.emb (ix2 p q) = ix2 (⟨t.val * 5000 + p.val, hr⟩ : Fin 20000) q := by
    funext a
    apply Fin.ext
    match a with
    | ⟨0, _⟩ => show win1_3.index t (0 : Fin 2) * 5000 + 1 * p.val = t.val * 5000 + p.val; omega
    | ⟨1, _⟩ => show win1_3.index t (1 : Fin 2) * 64 + 1 * q.val = q.val; omega
  rw [View.read_apply, he]
  refine (pay_apply _ _ _ p q).trans ?_
  exact linBias_congr _ _ _ _ _ _ p _ q
    (fun k => blk0_apply V c t p k _ rfl) (fun k => blk1_apply V c t k q) (blk2_apply V c t q)

/-- An entry of the array is in point t's block iff each coordinate is in the block's range on its axis. -/
theorem mem_blk (t : Fin cfg1.N) (i : S20000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v3).slice (win1_3.rect t)).set ↔ _
  rw [View.set_slice_whole, Rect.mem_set_unit]
  exact Iff.rfl

/-- Row r of the array is in the block of point r / 5000, and every point writes its block back. -/
theorem cover (i : S20000x64.Idx) :
    ∃ t : Fin cfg1.N, (cfg1.win 3).flush t = true ∧ i ∈ ((cfg1.win 3).blk t).view.set := by
  have hi0 : (i 0).val < 20000 := (i 0).isLt
  have hi1 : (i 1).val < 64 := (i 1).isLt
  obtain ⟨t, q0, q1⟩ := idx_onto ⟨(i 0).val / 5000, by omega⟩
  have q0' : win1_3.index t (0 : Fin 2) = (i 0).val / 5000 := q0
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The array after the region: the product plus bias of the arrays as the region finds them. -/
theorem final1 : (dat1 (F := Ideal) V c).arrAt 3 cfg1.N = Cert.Rgcn.linBias (V c main_arg1) (V c main_arg4) (V c main_v2) :=
  (dat1 (F := Ideal) V c).arrAt_eq_of_cover 3
    (Cert.Rgcn.linBias (V c main_arg1) (V c main_arg4) (V c main_v2))
    (fun t _ => flushed_eq V c t) cover

end Cert.KernelIdeal.Region1

end
-- ==== Proof.Region2.lean ====
import proofs.«169592_j3186865733924_2_alg».proof.Proof.Gen.KernelIdeal.Frame
import proofs.«169592_j3186865733924_2_alg».proof.Proof.Spec
import proofs.«169592_j3186865733924_2_alg».proof.Proof.LibPlainDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b)) (c : Dev nD)

/-- The zero offsets of a whole-block access, as a constant function. -/
theorem hz : (![0, 0] : Fin 2 → Nat) = fun _ => 0 := funext fun a => by fin_cases a <;> rfl

/-- The stored block at an entry: the plain product of the two loaded blocks (the left factor arrives
    rounded, the right factor's rounding is the identity over the extended reals, the accumulator is zero). -/
theorem pay_apply (x0 : FVec Ideal S20000x64 .bf16) (x1 : FVec Ideal S64x64 .f32) (p : Fin 20000) (q : Fin 64) :
    k2_pay1 (F := Ideal) x0 x1 (ix2 p q) = Cert.Layer.prod x0 x1 (ix2 p q) := by
  unfold k2_pay1
  simp only [shapeCast_self]
  have f := Cert.LibPlainDims.plainFacts dot_S20000x64_S64x64_S20000x64_1_0_0_1_n_n rfl rfl rfl rfl rfl rfl
  exact (Cert.LibMatmul.matmul_zero_ix2 _ f.rank f.size f.l0 f.l1 f.r0 f.r1 none _ _ p q).trans
    (Finset.sum_congr rfl fun _ _ => rfl)

/-- The index maps over the 50 grid points: the row-blocked input moves with the output, whose block
    index is the point itself; the weight matrix stays at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of the left factor's block at point t is row 20000 t + p of the array. -/
theorem read0 (t : Fin cfg2.N) (p : Fin 20000) (k : Fin 64) (p' : Fin 1000000) (hp : p'.val = t.val * 20000 + p.val) :
    iblk2 (F := Ideal) V c 0 t (ix2 p k) = V c main_v27 (ix2 p' k) := by
  obtain ⟨e0, e1, -⟩ := idx_facts t
  unfold iblk2
  show V c main_v27 (((cfg2.win 0).blk t).view.emb (ix2 p k)) = V c main_v27 (ix2 p' k)
  refine congrArg _ (funext fun a => Fin.ext ?_)
  match a with
  | ⟨0, _⟩ => show win2_0.index t (0 : Fin 2) * 20000 + 1 * p.val = p'.val; omega
  | ⟨1, _⟩ => show win2_0.index t (1 : Fin 2) * 64 + 1 * k.val = k.val; omega

/-- The weight matrix's block at every point is the matrix. -/
theorem read1 (t : Fin cfg2.N) (k : Fin 64) (q : Fin 64) :
    iblk2 (F := Ideal) V c 1 t (ix2 k q) = V c main_v29 (ix2 k q) := by
  obtain ⟨-, -, e2, e3, -⟩ := idx_facts t
  unfold iblk2
  show V c main_v29 (((cfg2.win 1).blk t).view.emb (ix2 k q)) = V c main_v29 (ix2 k q)
  refine congrArg _ (funext fun a => Fin.ext ?_)
  match a with
  | ⟨0, _⟩ => show win2_1.index t (0 : Fin 2) * 64 + 1 * k.val = k.val; omega
  | ⟨1, _⟩ => show win2_1.index t (1 : Fin 2) * 64 + 1 * q.val = q.val; omega

/-- What point t writes back is block t of the product of the two arrays as the region finds them. -/
theorem flushed_eq (t : Fin cfg2.N) :
    (dat2 (F := Ideal) V c).flushed 2 t
      = ((cfg2.win 2).blk t).view.read (Elt Ideal) (Cert.Layer.prod (V c main_v27) (V c main_v29)) := by
  show (cfg2.win 2).cut (grid2.coords t) ((dat2 (F := Ideal) V c).after 2 t) = _
  rw [after2_2]
  unfold out2_2
  rw [View.canon_unit_zero hz]
  simp only [View.ld_unit_zero (S := S20000x64) hz, View.ld_unit_zero (S := S64x64) hz]
  funext j
  obtain ⟨p, q, rfl⟩ : ∃ (p : Fin 20000) (q : Fin 64), j = ix2 p q := ⟨j 0, j 1, eq_ix2 j⟩
  have hN : cfg2.N = 50 := N_2
  have ht : t.val < 50 := by have := t.isLt; omega
  obtain ⟨-, -, -, -, e4, e5⟩ := idx_facts t
  have hemb : ((cfg2.win 2).blk t).view.emb (ix2 p q) = ix2 (⟨t.val * 20000 + p.val, by omega⟩ : Fin 1000000) q := by
    funext a; apply Fin.ext
    match a with
    | ⟨0, _⟩ => show win2_2.index t (0 : Fin 2) * 20000 + 1 * p.val = t.val * 20000 + p.val; omega
    | ⟨1, _⟩ => show win2_2.index t (1 : Fin 2) * 64 + 1 * q.val = q.val; omega
  show k2_pay1 (F := Ideal) (iblk2 V c 0 t) (iblk2 V c 1 t) (ix2 p q)
    = Cert.Layer.prod (V c main_v27) (V c main_v29) (((cfg2.win 2).blk t).view.emb (ix2 p q))
  rw [hemb]
  refine (pay_apply _ _ p q).trans ?_
  exact Cert.Layer.prod_congr _ _ _ _ p q _ q (fun k => read0 V c t p k _ rfl) (fun k => read1 V c t k q)

/-- An index of the array is in point t's block iff each coordinate is in the block's range on its axis. -/
theorem mem_blk (t : Fin cfg2.N) (i : S1000000x64.Idx) :
    i ∈ ((cfg2.win 2).blk t).view.set ↔ ∀ a : Fin 2, win2_2.index t a * S20000x64.size a ≤ (i a).val
      ∧ (i a).val < win2_2.index t a * S20000x64.size a + S20000x64.size a := by
  show i ∈ ((View.whole main_v30).slice (win2_2.rect t)).set ↔ _
  rw [View.set_slice_whole, Rect.mem_set_unit]
  exact Iff.rfl

/-- Every index of the array is in some point's block: row r is in the block of point r / 20000. -/
theorem cover (i : S1000000x64.Idx) :
    ∃ t : Fin cfg2.N, (cfg2.win 2).flush t = true ∧ i ∈ ((cfg2.win 2).blk t).view.set := by
  have hN : cfg2.N = 50 := N_2
  have hi0 : (i 0).val < 1000000 := (i 0).isLt
  have hi1 : (i 1).val < 64 := (i 1).isLt
  obtain ⟨t, ht⟩ : ∃ t : Fin cfg2.N, t.val = (i 0).val / 20000 := ⟨⟨(i 0).val / 20000, by rw [hN]; omega⟩, rfl⟩
  obtain ⟨-, -, -, -, e4, e5⟩ := idx_facts t
  refine ⟨t, flush2_2 t, ?_⟩
  rw [mem_blk]
  intro a
  match a with
  | ⟨0, _⟩ =>
    show win2_2.index t (0 : Fin 2) * 20000 ≤ (i 0).val ∧ (i 0).val < win2_2.index t (0 : Fin 2) * 20000 + 20000
    omega
  | ⟨1, _⟩ =>
    show win2_2.index t (1 : Fin 2) * 64 ≤ (i 1).val ∧ (i 1).val < win2_2.index t (1 : Fin 2) * 64 + 64
    omega

/-- The output array after the region is the product of the two input arrays as the region finds them. -/
theorem final2 : (dat2 (F := Ideal) V c).arrAt 2 cfg2.N = Cert.Layer.prod (V c main_v27) (V c main_v29) :=
  (dat2 (F := Ideal) V c).arrAt_eq_of_cover 2 (Cert.Layer.prod (V c main_v27) (V c main_v29))
    (fun t _ => flushed_eq V c t) cover

end Cert.KernelIdeal.Region2

end
-- ==== Proof.Region3.lean ====
import proofs.«169592_j3186865733924_2_alg».proof.Proof.Gen.KernelIdeal.Frame
import proofs.«169592_j3186865733924_2_alg».proof.Proof.Spec
import proofs.«169592_j3186865733924_2_alg».proof.Proof.LibPlainDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b)) (c : Dev nD)

/-- The zero offsets of a whole-block access, as a constant function. -/
theorem hz : (![0, 0] : Fin 2 → Nat) = fun _ => 0 := funext fun a => by fin_cases a <;> rfl

/-- The stored block at an entry: the plain product of the two loaded blocks (the left factor arrives
    rounded, the right factor's rounding is the identity over the extended reals, the accumulator is zero). -/
theorem pay_apply (x0 : FVec Ideal S20000x64 .bf16) (x1 : FVec Ideal S64x64 .f32) (p : Fin 20000) (q : Fin 64) :
    k3_pay1 (F := Ideal) x0 x1 (ix2 p q) = Cert.Layer.prod x0 x1 (ix2 p q) := by
  unfold k3_pay1
  simp only [shapeCast_self]
  have f := Cert.LibPlainDims.plainFacts dot_S20000x64_S64x64_S20000x64_1_0_0_1_n_n rfl rfl rfl rfl rfl rfl
  exact (Cert.LibMatmul.matmul_zero_ix2 _ f.rank f.size f.l0 f.l1 f.r0 f.r1 none _ _ p q).trans
    (Finset.sum_congr rfl fun _ _ => rfl)

/-- The index maps over the 50 grid points: the row-blocked input moves with the output, whose block
    index is the point itself; the weight matrix stays at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p of the left factor's block at point t is row 20000 t + p of the array. -/
theorem read0 (t : Fin cfg3.N) (p : Fin 20000) (k : Fin 64) (p' : Fin 1000000) (hp : p'.val = t.val * 20000 + p.val) :
    iblk3 (F := Ideal) V c 0 t (ix2 p k) = V c main_v40 (ix2 p' k) := by
  obtain ⟨e0, e1, -⟩ := idx_facts t
  unfold iblk3
  show V c main_v40 (((cfg3.win 0).blk t).view.emb (ix2 p k)) = V c main_v40 (ix2 p' k)
  refine congrArg _ (funext fun a => Fin.ext ?_)
  match a with
  | ⟨0, _⟩ => show win3_0.index t (0 : Fin 2) * 20000 + 1 * p.val = p'.val; omega
  | ⟨1, _⟩ => show win3_0.index t (1 : Fin 2) * 64 + 1 * k.val = k.val; omega

/-- The weight matrix's block at every point is the matrix. -/
theorem read1 (t : Fin cfg3.N) (k : Fin 64) (q : Fin 64) :
    iblk3 (F := Ideal) V c 1 t (ix2 k q) = V c main_v42 (ix2 k q) := by
  obtain ⟨-, -, e2, e3, -⟩ := idx_facts t
  unfold iblk3
  show V c main_v42 (((cfg3.win 1).blk t).view.emb (ix2 k q)) = V c main_v42 (ix2 k q)
  refine congrArg _ (funext fun a => Fin.ext ?_)
  match a with
  | ⟨0, _⟩ => show win3_1.index t (0 : Fin 2) * 64 + 1 * k.val = k.val; omega
  | ⟨1, _⟩ => show win3_1.index t (1 : Fin 2) * 64 + 1 * q.val = q.val; omega

/-- What point t writes back is block t of the product of the two arrays as the region finds them. -/
theorem flushed_eq (t : Fin cfg3.N) :
    (dat3 (F := Ideal) V c).flushed 2 t
      = ((cfg3.win 2).blk t).view.read (Elt Ideal) (Cert.Layer.prod (V c main_v40) (V c main_v42)) := by
  show (cfg3.win 2).cut (grid3.coords t) ((dat3 (F := Ideal) V c).after 2 t) = _
  rw [after3_2]
  unfold out3_2
  rw [View.canon_unit_zero hz]
  simp only [View.ld_unit_zero (S := S20000x64) hz, View.ld_unit_zero (S := S64x64) hz]
  funext j
  obtain ⟨p, q, rfl⟩ : ∃ (p : Fin 20000) (q : Fin 64), j = ix2 p q := ⟨j 0, j 1, eq_ix2 j⟩
  have hN : cfg3.N = 50 := N_3
  have ht : t.val < 50 := by have := t.isLt; omega
  obtain ⟨-, -, -, -, e4, e5⟩ := idx_facts t
  have hemb : ((cfg3.win 2).blk t).view.emb (ix2 p q) = ix2 (⟨t.val * 20000 + p.val, by omega⟩ : Fin 1000000) q := by
    funext a; apply Fin.ext
    match a with
    | ⟨0, _⟩ => show win3_2.index t (0 : Fin 2) * 20000 + 1 * p.val = t.val * 20000 + p.val; omega
    | ⟨1, _⟩ => show win3_2.index t (1 : Fin 2) * 64 + 1 * q.val = q.val; omega
  show k3_pay1 (F := Ideal) (iblk3 V c 0 t) (iblk3 V c 1 t) (ix2 p q)
    = Cert.Layer.prod (V c main_v40) (V c main_v42) (((cfg3.win 2).blk t).view.emb (ix2 p q))
  rw [hemb]
  refine (pay_apply _ _ p q).trans ?_
  exact Cert.Layer.prod_congr _ _ _ _ p q _ q (fun k => read0 V c t p k _ rfl) (fun k => read1 V c t k q)

/-- An index of the array is in point t's block iff each coordinate is in the block's range on its axis. -/
theorem mem_blk (t : Fin cfg3.N) (i : S1000000x64.Idx) :
    i ∈ ((cfg3.win 2).blk t).view.set ↔ ∀ a : Fin 2, win3_2.index t a * S20000x64.size a ≤ (i a).val
      ∧ (i a).val < win3_2.index t a * S20000x64.size a + S20000x64.size a := by
  show i ∈ ((View.whole main_v43).slice (win3_2.rect t)).set ↔ _
  rw [View.set_slice_whole, Rect.mem_set_unit]
  exact Iff.rfl

/-- Every index of the array is in some point's block: row r is in the block of point r / 20000. -/
theorem cover (i : S1000000x64.Idx) :
    ∃ t : Fin cfg3.N, (cfg3.win 2).flush t = true ∧ i ∈ ((cfg3.win 2).blk t).view.set := by
  have hN : cfg3.N = 50 := N_3
  have hi0 : (i 0).val < 1000000 := (i 0).isLt
  have hi1 : (i 1).val < 64 := (i 1).isLt
  obtain ⟨t, ht⟩ : ∃ t : Fin cfg3.N, t.val = (i 0).val / 20000 := ⟨⟨(i 0).val / 20000, by rw [hN]; omega⟩, rfl⟩
  obtain ⟨-, -, -, -, e4, e5⟩ := idx_facts t
  refine ⟨t, flush3_2 t, ?_⟩
  rw [mem_blk]
  intro a
  match a with
  | ⟨0, _⟩ =>
    show win3_2.index t (0 : Fin 2) * 20000 ≤ (i 0).val ∧ (i 0).val < win3_2.index t (0 : Fin 2) * 20000 + 20000
    omega
  | ⟨1, _⟩ =>
    show win3_2.index t (1 : Fin 2) * 64 ≤ (i 1).val ∧ (i 1).val < win3_2.index t (1 : Fin 2) * 64 + 64
    omega

/-- The output array after the region is the product of the two input arrays as the region finds them. -/
theorem final3 : (dat3 (F := Ideal) V c).arrAt 2 cfg3.N = Cert.Layer.prod (V c main_v40) (V c main_v42) :=
  (dat3 (F := Ideal) V c).arrAt_eq_of_cover 2 (Cert.Layer.prod (V c main_v40) (V c main_v42))
    (fun t _ => flushed_eq V c t) cover

end Cert.KernelIdeal.Region3

end
-- ==== Proof.LibKeepdims.lean ====
/-
  A reduction over the last axis kept as a unit axis, read at an index.

  A vector of `a` numbers viewed as an `a × 1` column holds, at (i, u), the vector's entry i, whatever the unit
  coordinate u; and an `a × 1` column spread over `b` columns holds, at (p, c), the column's entry (p, 0): every
  entry of row p is that row's one number. Together they read the common pattern "sum each row, keep the axis,
  combine with the matrix again" at an entry (p, c) as the row sum of row p.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the one entry of the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Region4.lean ====
import proofs.«169592_j3186865733924_2_alg».proof.Proof.Gen.KernelIdeal.Frame
import proofs.«169592_j3186865733924_2_alg».proof.Proof.Spec
import proofs.«169592_j3186865733924_2_alg».proof.Proof.LibPlainDims
import proofs.«169592_j3186865733924_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b)) (c : Dev nD)

/-! ## The body's stored value at an entry -/

/-- The coordinate facts of the root product's dimension record: left operand read at (row, k), right at (k, column). -/
theorem dotFacts : Cert.LibPlainDims.PlainFacts dot_S4000x64_S64x64_S4000x64_1_0_0_1_n_n :=
  Cert.LibPlainDims.plainFacts dot_S4000x64_S64x64_S4000x64_1_0_0_1_n_n rfl rfl rfl rfl rfl rfl

/-- Entry (p, q) of the stored block: the root product plus the bias row, plus each relation's summed messages at
    (p, q) times that relation's number for row p, clamped below at zero. Casts to the same shape are the identity,
    rounding is the identity over the extended reals, and the product accumulated into zero is the plain sum. -/
theorem pay_apply (x0 : FVec Ideal S4000x64 .f32) (x1 : FVec Ideal S64x64 .f32) (x2 : FVec Ideal S1x64 .f32)
    (x3 : FVec Ideal S4000x64 .f32) (x4 : FVec Ideal S4000x1 .f32) (x5 : FVec Ideal S4000x64 .f32)
    (x6 : FVec Ideal S4000x1 .f32) (p : Fin 4000) (q : Fin 64) :
    k4_pay1 (F := Ideal) x0 x1 x2 x3 x4 x5 x6 (ix2 p q) = Cert.Rgcn.rootRelu x0 x1 x2 x3 x4 x5 x6 (ix2 p q) := by
  unfold k4_pay1
  simp only [shapeCast_self]
  show max (((FloatOps.matmul dot_S4000x64_S64x64_S4000x64_1_0_0_1_n_n none (truncf .bf16 x0 bitsLt_bf16_f32)
          (truncf .bf16 x1 bitsLt_bf16_f32) (constant (F := Ideal) S4000x64 .f32 0x00000000#32) (ix2 p q)
        + broadcastTo S4000x64 x2 broadcasts_S1x64_S4000x64 (ix2 p q))
      + x3 (ix2 p q) * broadcastTo S4000x64 x4 broadcasts_S4000x1_S4000x64 (ix2 p q))
      + x5 (ix2 p q) * broadcastTo S4000x64 x6 broadcasts_S4000x1_S4000x64 (ix2 p q))
      (Ideal.ofBits .f32 0x00000000#32) = _
  rw [Cert.Layer.matmul_trunc_apply _ dotFacts.rank dotFacts.size dotFacts.l0 dotFacts.l1 dotFacts.r0 dotFacts.r1,
    broadcastTo_1b_ab_apply, Cert.LibKeepdims.broadcastTo_a1_ab_apply, Cert.LibKeepdims.broadcastTo_a1_ab_apply,
    Ideal.ofBits_zero_f32]
  rfl

/-! ## Two entries of the layer agree when everything they read agrees -/

/-- An entry of the clamped layer depends on row r of the node table, column q of the weights and of the bias row,
    entry (r, q) of each relation's summed messages and entry r of each relation's per-node numbers. -/
theorem rootRelu_congr {A A' K B : ℕ}
    (x : Cert.Rgcn.Mat A K) (w : Cert.Rgcn.Mat K B) (b : Cert.Rgcn.Mat 1 B) (g0 : Cert.Rgcn.Mat A B)
    (n0 : Cert.Rgcn.Mat A 1) (g1 : Cert.Rgcn.Mat A B) (n1 : Cert.Rgcn.Mat A 1)
    (x' : Cert.Rgcn.Mat A' K) (w' : Cert.Rgcn.Mat K B) (b' : Cert.Rgcn.Mat 1 B) (g0' : Cert.Rgcn.Mat A' B)
    (n0' : Cert.Rgcn.Mat A' 1) (g1' : Cert.Rgcn.Mat A' B) (n1' : Cert.Rgcn.Mat A' 1)
    (r : Fin A) (r' : Fin A') (q : Fin B)
    (hx : ∀ k : Fin K, x (ix2 r k) = x' (ix2 r' k)) (hw : ∀ k : Fin K, w (ix2 k q) = w' (ix2 k q))
    (hb : b (ix2 (0 : Fin 1) q) = b' (ix2 (0 : Fin 1) q))
    (hg0 : g0 (ix2 r q) = g0' (ix2 r' q)) (hn0 : n0 (ix2 r (0 : Fin 1)) = n0' (ix2 r' (0 : Fin 1)))
    (hg1 : g1 (ix2 r q) = g1' (ix2 r' q)) (hn1 : n1 (ix2 r (0 : Fin 1)) = n1' (ix2 r' (0 : Fin 1))) :
    Cert.Rgcn.rootRelu x w b g0 n0 g1 n1 (ix2 r q) = Cert.Rgcn.rootRelu x' w' b' g0' n0' g1' n1' (ix2 r' q) := by
  show max (((Cert.Layer.prod x w (ix2 r q) + b (ix2 (0 : Fin 1) q)) + g0 (ix2 r q) * n0 (ix2 r (0 : Fin 1)))
      + g1 (ix2 r q) * n1 (ix2 r (0 : Fin 1))) 0
    = max (((Cert.Layer.prod x' w' (ix2 r' q) + b' (ix2 (0 : Fin 1) q)) + g0' (ix2 r' q) * n0' (ix2 r' (0 : Fin 1)))
      + g1' (ix2 r' q) * n1' (ix2 r' (0 : Fin 1))) 0
  rw [Cert.Layer.prod_congr x w x' w' r q r' q hx hw, hb, hg0, hn0, hg1, hn1]

/-! ## The index maps, decided over the grid's thirty points -/

theorem hz : (![0, 0] : Fin 2 → Nat) = fun _ => 0 := funext fun a => by fin_cases a <;> rfl

/-- Each row-blocked window is at block (t, 0) at point t; the weights and the bias row are at block (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0
    ∧ win4_7.index t (0 : Fin 2) = t.val ∧ win4_7.index t (1 : Fin 2) = 0 :=
  (by decide +kernel : ∀ t : Fin grid4.N, _)

/-- Every block of rows is some point's. -/
theorem idx_onto : ∀ q0 : Fin 30, ∃ t : Fin cfg4.N, win4_7.index t (0 : Fin 2) = q0.val ∧ win4_7.index t (1 : Fin 2) = 0 :=
  (by decide +kernel : ∀ q0 : Fin 30, ∃ t : Fin grid4.N, win4_7.index t (0 : Fin 2) = q0.val ∧ win4_7.index t (1 : Fin 2) = 0)

/-! ## Each window's block, read at an entry, as an entry of its array -/

/-- The node table's block at point t holds, at (p, k), the table's entry (4000 t + p, k). -/
theorem blk0_apply (t : Fin cfg4.N) (p : Fin 4000) (k : Fin 64) (r : Fin 120000) (hr : r.val = t.val * 4000 + p.val) :
    (iblk4 V c 0 t : Vec Ideal S4000x64 .f32) (ix2 p k) = (V c main_v4 : Cert.Rgcn.Mat 120000 64) (ix2 r k) := by
  obtain ⟨e0, e1, -⟩ := idx_facts t
  unfold iblk4
  rw [View.read_apply]
  show V c main_v4 _ = V c main_v4 _
  congr 1
  funext a
  apply Fin.ext
  match a with
  | ⟨0, _⟩ => show win4_0.index t (0 : Fin 2) * 4000 + 1 * p.val = r.val; omega
  | ⟨1, _⟩ => show win4_0.index t (1 : Fin 2) * 64 + 1 * k.val = k.val; omega

/-- The root weights' block is the whole array at every point. -/
theorem blk1_apply (t : Fin cfg4.N) (k : Fin 64) (q : Fin 64) :
    (iblk4 V c 1 t : Vec Ideal S64x64 .f32) (ix2 k q) = (V c main_arg7 : Cert.Rgcn.Mat 64 64) (ix2 k q) := by
  obtain ⟨-, -, e0, e1, -⟩ := idx_facts t
  unfold iblk4
  rw [View.read_apply]
  show V c main_arg7 _ = V c main_arg7 _
  congr 1
  funext a
  apply Fin.ext
  match a with
  | ⟨0, _⟩ => show win4_1.index t (0 : Fin 2) * 64 + 1 * k.val = k.val; omega
  | ⟨1, _⟩ => show win4_1.index t (1 : Fin 2) * 64 + 1 * q.val = q.val; omega

/-- The bias row's block is the whole row at every point. -/
theorem blk2_apply (t : Fin cfg4.N) (q : Fin 64) :
    (iblk4 V c 2 t : Vec Ideal S1x64 .f32) (ix2 (0 : Fin 1) q) = (V c main_v47 : Cert.Rgcn.Mat 1 64) (ix2 (0 : Fin 1) q) := by
  obtain ⟨-, -, -, -, e0, e1, -⟩ := idx_facts t
  unfold iblk4
  rw [View.read_apply]
  show V c main_v47 _ = V c main_v47 _
  congr 1
  funext a
  apply Fin.ext
  match a with
  | ⟨0, _⟩ => show win4_2.index t (0 : Fin 2) * 1 + 1 * (0 : Fin 1).val = (0 : Fin 1).val; omega
  | ⟨1, _⟩ => show win4_2.index t (1 : Fin 2) * 64 + 1 * q.val = q.val; omega

/-- Relation 0's summed messages: the block at point t holds, at (p, q), the array's entry (4000 t + p, q). -/
theorem blk3_apply (t : Fin cfg4.N) (p : Fin 4000) (q : Fin 64) (r : Fin 120000) (hr : r.val = t.val * 4000 + p.val) :
    (iblk4 V c 3 t : Vec Ideal S4000x64 .f32) (ix2 p q) = (V c main_v33 : Cert.Rgcn.Mat 120000 64) (ix2 r q) := by
  obtain ⟨-, -, -, -, -, -, e0, e1, -⟩ := idx_facts t
  unfold iblk4
  rw [View.read_apply]
  show V c main_v33 _ = V c main_v33 _
  congr 1
  funext a
  apply Fin.ext
  match a with
  | ⟨0, _⟩ => show win4_3.index t (0 : Fin 2) * 4000 + 1 * p.val = r.val; omega
  | ⟨1, _⟩ => show win4_3.index t (1 : Fin 2) * 64 + 1 * q.val = q.val; omega

/-- Relation 0's per-node numbers: the block at point t holds, at (p, 0), the column's entry (4000 t + p, 0). -/
theorem blk4_apply (t : Fin cfg4.N) (p : Fin 4000) (r : Fin 120000) (hr : r.val = t.val * 4000 + p.val) :
    (iblk4 V c 4 t : Vec Ideal S4000x1 .f32) (ix2 p (0 : Fin 1)) = (V c main_v15 : Cert.Rgcn.Mat 120000 1) (ix2 r (0 : Fin 1)) := by
  obtain ⟨-, -, -, -, -, -, -, -, e0, e1, -⟩ := idx_facts t
  unfold iblk4
  rw [View.read_apply]
  show V c main_v15 _ = V c main_v15 _
  congr 1
  funext a
  apply Fin.ext
  match a with
  | ⟨0, _⟩ => show win4_4.index t (0 : Fin 2) * 4000 + 1 * p.val = r.val; omega
  | ⟨1, _⟩ => show win4_4.index t (1 : Fin 2) * 1 + 1 * (0 : Fin 1).val = (0 : Fin 1).val; omega

/-- Relation 1's summed messages, likewise. -/
theorem blk5_apply (t : Fin cfg4.N) (p : Fin 4000) (q : Fin 64) (r : Fin 120000) (hr : r.val = t.val * 4000 + p.val) :
    (iblk4 V c 5 t : Vec Ideal S4000x64 .f32) (ix2 p q) = (V c main_v46 : Cert.Rgcn.Mat 120000 64) (ix2 r q) := by
  obtain ⟨-, -, -, -, -, -, -, -, -, -, e0, e1, -⟩ := idx_facts t
  unfold iblk4
  rw [View.read_apply]
  show V c main_v46 _ = V c main_v46 _
  congr 1
  funext a
  apply Fin.ext
  match a with
  | ⟨0, _⟩ => show win4_5.index t (0 : Fin 2) * 4000 + 1 * p.val = r.val; omega
  | ⟨1, _⟩ => show win4_5.index t (1 : Fin 2) * 64 + 1 * q.val = q.val; omega

/-- Relation 1's per-node numbers, likewise. -/
theorem blk6_apply (t : Fin cfg4.N) (p : Fin 4000) (r : Fin 120000) (hr : r.val = t.val * 4000 + p.val) :
    (iblk4 V c 6 t : Vec Ideal S4000x1 .f32) (ix2 p (0 : Fin 1)) = (V c main_v19 : Cert.Rgcn.Mat 120000 1) (ix2 r (0 : Fin 1)) := by
  obtain ⟨-, -, -, -, -, -, -, -, -, -, -, -, e0, e1, -⟩ := idx_facts t
  unfold iblk4
  rw [View.read_apply]
  show V c main_v19 _ = V c main_v19 _
  congr 1
  funext a
  apply Fin.ext
  match a with
  | ⟨0, _⟩ => show win4_6.index t (0 : Fin 2) * 4000 + 1 * p.val = r.val; omega
  | ⟨1, _⟩ => show win4_6.index t (1 : Fin 2) * 1 + 1 * (0 : Fin 1).val = (0 : Fin 1).val; omega

/-! ## What a point writes back, and the array after the region -/

/-- Point t writes back block t of the clamped layer of the arrays as the region finds them. -/
theorem flushed_eq (t : Fin cfg4.N) :
    (dat4 (F := Ideal) V c).flushed 7 t = ((cfg4.win 7).blk t).view.read (Elt Ideal)
      (Cert.Rgcn.rootRelu (V c main_v4) (V c main_arg7) (V c main_v47) (V c main_v33) (V c main_v15) (V c main_v46) (V c main_v19)) := by
  show (cfg4.win 7).cut (grid4.coords t) ((dat4 (F := Ideal) V c).after 7 t) = _
  rw [after4_7]
  unfold out4_7
  rw [View.canon_unit_zero hz]
  simp only [View.ld_unit_zero (S := S4000x64) hz, View.ld_unit_zero (S := S64x64) hz, View.ld_unit_zero (S := S1x64) hz,
    View.ld_unit_zero (S := S4000x1) hz]
  funext j
  obtain ⟨p, q, rfl⟩ : ∃ (p : Fin 4000) (q : Fin 64), j = ix2 p q := ⟨j 0, j 1, eq_ix2 j⟩
  obtain ⟨-, -, -, -, -, -, -, -, -, -, -, -, -, -, e0, e1⟩ := idx_facts t
  have ht : t.val < 30 := lt_of_lt_of_eq t.isLt N_4
  have hp : p.val < 4000 := p.isLt
  have hr : t.val * 4000 + p.val < 120000 := by omega
  have he : ((cfg4.win 7).blk t).view.emb (ix2 p q) = ix2 (⟨t.val * 4000 + p.val, hr⟩ : Fin 120000) q := by
    funext a
    apply Fin.ext
    match a with
    | ⟨0, _⟩ => show win4_7.index t (0 : Fin 2) * 4000 + 1 * p.val = t.val * 4000 + p.val; omega
    | ⟨1, _⟩ => show win4_7.index t (1 : Fin 2) * 64 + 1 * q.val = q.val; omega
  rw [View.read_apply, he]
  refine (pay_apply _ _ _ _ _ _ _ p q).trans ?_
  exact rootRelu_congr _ _ _ _ _ _ _ _ _ _ _ _ _ _ p _ q
    (fun k => blk0_apply V c t p k _ rfl) (fun k => blk1_apply V c t k q) (blk2_apply V c t q)
    (blk3_apply V c t p q _ rfl) (blk4_apply V c t p _ rfl) (blk5_apply V c t p q _ rfl) (blk6_apply V c t p _ rfl)

/-- An entry of the array is in point t's block iff each coordinate is in the block's range on its axis. -/
theorem mem_blk (t : Fin cfg4.N) (i : S120000x64.Idx) :
    i ∈ ((cfg4.win 7).blk t).view.set ↔ ∀ a : Fin 2, win4_7.index t a * S4000x64.size a ≤ (i a).val
      ∧ (i a).val < win4_7.index t a * S4000x64.size a + S4000x64.size a := by
  show i ∈ ((View.whole main_v48).slice (win4_7.rect t)).set ↔ _
  rw [View.set_slice_whole, Rect.mem_set_unit]
  exact Iff.rfl

/-- Row r of the array is in the block of point r / 4000, and every point writes its block back. -/
theorem cover (i : S120000x64.Idx) :
    ∃ t : Fin cfg4.N, (cfg4.win 7).flush t = true ∧ i ∈ ((cfg4.win 7).blk t).view.set := by
  have hi0 : (i 0).val < 120000 := (i 0).isLt
  have hi1 : (i 1).val < 64 := (i 1).isLt
  obtain ⟨t, q0, q1⟩ := idx_onto ⟨(i 0).val / 4000, by omega⟩
  have q0' : win4_7.index t (0 : Fin 2) = (i 0).val / 4000 := q0
  refine ⟨t, flush4_7 t, ?_⟩
  rw [mem_blk]
  intro a
  match a with
  | ⟨0, _⟩ => show win4_7.index t (0 : Fin 2) * 4000 ≤ (i 0).val ∧ (i 0).val < win4_7.index t (0 : Fin 2) * 4000 + 4000; omega
  | ⟨1, _⟩ => show win4_7.index t (1 : Fin 2) * 64 ≤ (i 1).val ∧ (i 1).val < win4_7.index t (1 : Fin 2) * 64 + 64; omega

/-- The array after the region: the clamped layer of the arrays as the region finds them. -/
theorem final4 : (dat4 (F := Ideal) V c).arrAt 7 cfg4.N = Cert.Rgcn.rootRelu (V c main_v4) (V c main_arg7) (V c main_v47) (V c main_v33) (V c main_v15) (V c main_v46) (V c main_v19) :=
  (dat4 (F := Ideal) V c).arrAt_eq_of_cover 7
    (Cert.Rgcn.rootRelu (V c main_v4) (V c main_arg7) (V c main_v47) (V c main_v33) (V c main_v15) (V c main_v46) (V c main_v19))
    (fun t _ => flushed_eq V c t) cover

end Cert.KernelIdeal.Region4

end
-- ==== Proof.Region5.lean ====
import proofs.«169592_j3186865733924_2_alg».proof.Proof.Gen.KernelIdeal.Frame
import proofs.«169592_j3186865733924_2_alg».proof.Proof.Spec
import proofs.«169592_j3186865733924_2_alg».proof.Proof.LibPlainDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region5

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b)) (c : Dev nD)

/-- The zero offsets of a whole-block access, as a constant function. -/
theorem hz : (![0, 0] : Fin 2 → Nat) = fun _ => 0 := funext fun a => by fin_cases a <;> rfl

/-- The stored block at an entry: the plain product of the two loaded blocks (the left factor arrives
    rounded, the right factor's rounding is the identity over the extended reals, the accumulator is zero). -/
theorem pay_apply (x0 : FVec Ideal S20000x64 .bf16) (x1 : FVec Ideal S64x32 .f32) (p : Fin 20000) (q : Fin 32) :
    k5_pay1 (F := Ideal) x0 x1 (ix2 p q) = Cert.Layer.prod x0 x1 (ix2 p q) := by
  unfold k5_pay1
  simp only [shapeCast_self]
  have f := Cert.LibPlainDims.plainFacts dot_S20000x64_S64x32_S20000x32_1_0_0_1_n_n rfl rfl rfl rfl rfl rfl
  exact (Cert.LibMatmul.matmul_zero_ix2 _ f.rank f.size f.l0 f.l1 f.r0 f.r1 none _ _ p q).trans
    (Finset.sum_congr rfl fun _ _ => rfl)

/-- The index maps over the 50 grid points: the row-blocked input moves with the output, whose block
    index is the point itself; the weight matrix stays at block (0, 0). -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Row p of the left factor's block at point t is row 20000 t + p of the array. -/
theorem read0 (t : Fin cfg5.N) (p : Fin 20000) (k : Fin 64) (p' : Fin 1000000) (hp : p'.val = t.val * 20000 + p.val) :
    iblk5 (F := Ideal) V c 0 t (ix2 p k) = V c main_v56 (ix2 p' k) := by
  obtain ⟨e0, e1, -⟩ := idx_facts t
  unfold iblk5
  show V c main_v56 (((cfg5.win 0).blk t).view.emb (ix2 p k)) = V c main_v56 (ix2 p' k)
  refine congrArg _ (funext fun a => Fin.ext ?_)
  match a with
  | ⟨0, _⟩ => show win5_0.index t (0 : Fin 2) * 20000 + 1 * p.val = p'.val; omega
  | ⟨1, _⟩ => show win5_0.index t (1 : Fin 2) * 64 + 1 * k.val = k.val; omega

/-- The weight matrix's block at every point is the matrix. -/
theorem read1 (t : Fin cfg5.N) (k : Fin 64) (q : Fin 32) :
    iblk5 (F := Ideal) V c 1 t (ix2 k q) = V c main_v58 (ix2 k q) := by
  obtain ⟨-, -, e2, e3, -⟩ := idx_facts t
  unfold iblk5
  show V c main_v58 (((cfg5.win 1).blk t).view.emb (ix2 k q)) = V c main_v58 (ix2 k q)
  refine congrArg _ (funext fun a => Fin.ext ?_)
  match a with
  | ⟨0, _⟩ => show win5_1.index t (0 : Fin 2) * 64 + 1 * k.val = k.val; omega
  | ⟨1, _⟩ => show win5_1.index t (1 : Fin 2) * 32 + 1 * q.val = q.val; omega

/-- What point t writes back is block t of the product of the two arrays as the region finds them. -/
theorem flushed_eq (t : Fin cfg5.N) :
    (dat5 (F := Ideal) V c).flushed 2 t
      = ((cfg5.win 2).blk t).view.read (Elt Ideal) (Cert.Layer.prod (V c main_v56) (V c main_v58)) := by
  show (cfg5.win 2).cut (grid5.coords t) ((dat5 (F := Ideal) V c).after 2 t) = _
  rw [after5_2]
  unfold out5_2
  rw [View.canon_unit_zero hz]
  simp only [View.ld_unit_zero (S := S20000x64) hz, View.ld_unit_zero (S := S64x32) hz]
  funext j
  obtain ⟨p, q, rfl⟩ : ∃ (p : Fin 20000) (q : Fin 32), j = ix2 p q := ⟨j 0, j 1, eq_ix2 j⟩
  have hN : cfg5.N = 50 := N_5
  have ht : t.val < 50 := by have := t.isLt; omega
  obtain ⟨-, -, -, -, e4, e5⟩ := idx_facts t
  have hemb : ((cfg5.win 2).blk t).view.emb (ix2 p q) = ix2 (⟨t.val * 20000 + p.val, by omega⟩ : Fin 1000000) q := by
    funext a; apply Fin.ext
    match a with
    | ⟨0, _⟩ => show win5_2.index t (0 : Fin 2) * 20000 + 1 * p.val = t.val * 20000 + p.val; omega
    | ⟨1, _⟩ => show win5_2.index t (1 : Fin 2) * 32 + 1 * q.val = q.val; omega
  show k5_pay1 (F := Ideal) (iblk5 V c 0 t) (iblk5 V c 1 t) (ix2 p q)
    = Cert.Layer.prod (V c main_v56) (V c main_v58) (((cfg5.win 2).blk t).view.emb (ix2 p q))
  rw [hemb]
  refine (pay_apply _ _ p q).trans ?_
  exact Cert.Layer.prod_congr _ _ _ _ p q _ q (fun k => read0 V c t p k _ rfl) (fun k => read1 V c t k q)

/-- An index of the array is in point t's block iff each coordinate is in the block's range on its axis. -/
theorem mem_blk (t : Fin cfg5.N) (i : S1000000x32.Idx) :
    i ∈ ((cfg5.win 2).blk t).view.set ↔ ∀ a : Fin 2, win5_2.index t a * S20000x32.size a ≤ (i a).val
      ∧ (i a).val < win5_2.index t a * S20000x32.size a + S20000x32.size a := by
  show i ∈ ((View.whole main_v59).slice (win5_2.rect t)).set ↔ _
  rw [View.set_slice_whole, Rect.mem_set_unit]
  exact Iff.rfl

/-- Every index of the array is in some point's block: row r is in the block of point r / 20000. -/
theorem cover (i : S1000000x32.Idx) :
    ∃ t : Fin cfg5.N, (cfg5.win 2).flush t = true ∧ i ∈ ((cfg5.win 2).blk t).view.set := by
  have hN : cfg5.N = 50 := N_5
  have hi0 : (i 0).val < 1000000 := (i 0).isLt
  have hi1 : (i 1).val < 32 := (i 1).isLt
  obtain ⟨t, ht⟩ : ∃ t : Fin cfg5.N, t.val = (i 0).val / 20000 := ⟨⟨(i 0).val / 20000, by rw [hN]; omega⟩, rfl⟩
  obtain ⟨-, -, -, -, e4, e5⟩ := idx_facts t
  refine ⟨t, flush5_2 t, ?_⟩
  rw [mem_blk]
  intro a
  match a with
  | ⟨0, _⟩ =>
    show win5_2.index t (0 : Fin 2) * 20000 ≤ (i 0).val ∧ (i 0).val < win5_2.index t (0 : Fin 2) * 20000 + 20000
    omega
  | ⟨1, _⟩ =>
    show win5_2.index t (1 : Fin 2) * 32 ≤ (i 1).val ∧ (i 1).val < win5_2.index t (1 : Fin 2) * 32 + 32
    omega

/-- The output array after the region is the product of the two input arrays as the region finds them. -/
theorem final5 : (dat5 (F := Ideal) V c).arrAt 2 cfg5.N = Cert.Layer.prod (V c main_v56) (V c main_v58) :=
  (dat5 (F := Ideal) V c).arrAt_eq_of_cover 2 (Cert.Layer.prod (V c main_v56) (V c main_v58))
    (fun t _ => flushed_eq V c t) cover

end Cert.KernelIdeal.Region5

end
-- ==== Proof.Region6.lean ====
import proofs.«169592_j3186865733924_2_alg».proof.Proof.Gen.KernelIdeal.Frame
import proofs.«169592_j3186865733924_2_alg».proof.Proof.Spec
import proofs.«169592_j3186865733924_2_alg».proof.Proof.LibPlainDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region6

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b)) (c : Dev nD)

/-- The zero offsets of a whole-block access, as a constant function. -/
theorem hz : (![0, 0] : Fin 2 → Nat) = fun _ => 0 := funext fun a => by fin_cases a <;> rfl

/-- The stored block at an entry: the plain product of the two loaded blocks (the left factor arrives
    rounded, the right factor's rounding is the identity over the extended reals, the accumulator is zero). -/
theorem pay_apply (x0 : FVec Ideal S20000x64 .bf16) (x1 : FVec Ideal S64x32 .f32) (p : Fin 20000) (q : Fin 32) :
    k6_pay1 (F := Ideal) x0 x1 (ix2 p q) = Cert.Layer.prod x0 x1 (ix2 p q) := by
  unfold k6_pay1
  simp only [shapeCast_self]
  have f := Cert.LibPlainDims.plainFacts dot_S20000x64_S64x32_S20000x32_1_0_0_1_n_n rfl rfl rfl rfl rfl rfl
  exact (Cert.LibMatmul.matmul_zero_ix2 _ f.rank f.size f.l0 f.l1 f.r0 f.r1 none _ _ p q).trans
    (Finset.sum_congr rfl fun _ _ => rfl)

/-- The index maps over the 50 grid points: the row-blocked input moves with the output, whose block
    index is the point itself; the weight matrix stays at block (0, 0). -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Row p of the left factor's block at point t is row 20000 t + p of the array. -/
theorem read0 (t : Fin cfg6.N) (p : Fin 20000) (k : Fin 64) (p' : Fin 1000000) (hp : p'.val = t.val * 20000 + p.val) :
    iblk6 (F := Ideal) V c 0 t (ix2 p k) = V c main_v69 (ix2 p' k) := by
  obtain ⟨e0, e1, -⟩ := idx_facts t
  unfold iblk6
  show V c main_v69 (((cfg6.win 0).blk t).view.emb (ix2 p k)) = V c main_v69 (ix2 p' k)
  refine congrArg _ (funext fun a => Fin.ext ?_)
  match a with
  | ⟨0, _⟩ => show win6_0.index t (0 : Fin 2) * 20000 + 1 * p.val = p'.val; omega
  | ⟨1, _⟩ => show win6_0.index t (1 : Fin 2) * 64 + 1 * k.val = k.val; omega

/-- The weight matrix's block at every point is the matrix. -/
theorem read1 (t : Fin cfg6.N) (k : Fin 64) (q : Fin 32) :
    iblk6 (F := Ideal) V c 1 t (ix2 k q) = V c main_v71 (ix2 k q) := by
  obtain ⟨-, -, e2, e3, -⟩ := idx_facts t
  unfold iblk6
  show V c main_v71 (((cfg6.win 1).blk t).view.emb (ix2 k q)) = V c main_v71 (ix2 k q)
  refine congrArg _ (funext fun a => Fin.ext ?_)
  match a with
  | ⟨0, _⟩ => show win6_1.index t (0 : Fin 2) * 64 + 1 * k.val = k.val; omega
  | ⟨1, _⟩ => show win6_1.index t (1 : Fin 2) * 32 + 1 * q.val = q.val; omega

/-- What point t writes back is block t of the product of the two arrays as the region finds them. -/
theorem flushed_eq (t : Fin cfg6.N) :
    (dat6 (F := Ideal) V c).flushed 2 t
      = ((cfg6.win 2).blk t).view.read (Elt Ideal) (Cert.Layer.prod (V c main_v69) (V c main_v71)) := by
  show (cfg6.win 2).cut (grid6.coords t) ((dat6 (F := Ideal) V c).after 2 t) = _
  rw [after6_2]
  unfold out6_2
  rw [View.canon_unit_zero hz]
  simp only [View.ld_unit_zero (S := S20000x64) hz, View.ld_unit_zero (S := S64x32) hz]
  funext j
  obtain ⟨p, q, rfl⟩ : ∃ (p : Fin 20000) (q : Fin 32), j = ix2 p q := ⟨j 0, j 1, eq_ix2 j⟩
  have hN : cfg6.N = 50 := N_6
  have ht : t.val < 50 := by have := t.isLt; omega
  obtain ⟨-, -, -, -, e4, e5⟩ := idx_facts t
  have hemb : ((cfg6.win 2).blk t).view.emb (ix2 p q) = ix2 (⟨t.val * 20000 + p.val, by omega⟩ : Fin 1000000) q := by
    funext a; apply Fin.ext
    match a with
    | ⟨0, _⟩ => show win6_2.index t (0 : Fin 2) * 20000 + 1 * p.val = t.val * 20000 + p.val; omega
    | ⟨1, _⟩ => show win6_2.index t (1 : Fin 2) * 32 + 1 * q.val = q.val; omega
  show k6_pay1 (F := Ideal) (iblk6 V c 0 t) (iblk6 V c 1 t) (ix2 p q)
    = Cert.Layer.prod (V c main_v69) (V c main_v71) (((cfg6.win 2).blk t).view.emb (ix2 p q))
  rw [hemb]
  refine (pay_apply _ _ p q).trans ?_
  exact Cert.Layer.prod_congr _ _ _ _ p q _ q (fun k => read0 V c t p k _ rfl) (fun k => read1 V c t k q)

/-- An index of the array is in point t's block iff each coordinate is in the block's range on its axis. -/
theorem mem_blk (t : Fin cfg6.N) (i : S1000000x32.Idx) :
    i ∈ ((cfg6.win 2).blk t).view.set ↔ ∀ a : Fin 2, win6_2.index t a * S20000x32.size a ≤ (i a).val
      ∧ (i a).val < win6_2.index t a * S20000x32.size a + S20000x32.size a := by
  show i ∈ ((View.whole main_v72).slice (win6_2.rect t)).set ↔ _
  rw [View.set_slice_whole, Rect.mem_set_unit]
  exact Iff.rfl

/-- Every index of the array is in some point's block: row r is in the block of point r / 20000. -/
theorem cover (i : S1000000x32.Idx) :
    ∃ t : Fin cfg6.N, (cfg6.win 2).flush t = true ∧ i ∈ ((cfg6.win 2).blk t).view.set := by
  have hN : cfg6.N = 50 := N_6
  have hi0 : (i 0).val < 1000000 := (i 0).isLt
  have hi1 : (i 1).val < 32 := (i 1).isLt
  obtain ⟨t, ht⟩ : ∃ t : Fin cfg6.N, t.val = (i 0).val / 20000 := ⟨⟨(i 0).val / 20000, by rw [hN]; omega⟩, rfl⟩
  obtain ⟨-, -, -, -, e4, e5⟩ := idx_facts t
  refine ⟨t, flush6_2 t, ?_⟩
  rw [mem_blk]
  intro a
  match a with
  | ⟨0, _⟩ =>
    show win6_2.index t (0 : Fin 2) * 20000 ≤ (i 0).val ∧ (i 0).val < win6_2.index t (0 : Fin 2) * 20000 + 20000
    omega
  | ⟨1, _⟩ =>
    show win6_2.index t (1 : Fin 2) * 32 ≤ (i 1).val ∧ (i 1).val < win6_2.index t (1 : Fin 2) * 32 + 32
    omega

/-- The output array after the region is the product of the two input arrays as the region finds them. -/
theorem final6 : (dat6 (F := Ideal) V c).arrAt 2 cfg6.N = Cert.Layer.prod (V c main_v69) (V c main_v71) :=
  (dat6 (F := Ideal) V c).arrAt_eq_of_cover 2 (Cert.Layer.prod (V c main_v69) (V c main_v71))
    (fun t _ => flushed_eq V c t) cover

end Cert.KernelIdeal.Region6

end
-- ==== Proof.Region7.lean ====
import proofs.«169592_j3186865733924_2_alg».proof.Proof.Gen.KernelIdeal.Frame
import proofs.«169592_j3186865733924_2_alg».proof.Proof.Spec
import proofs.«169592_j3186865733924_2_alg».proof.Proof.LibPlainDims
import proofs.«169592_j3186865733924_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region7

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b)) (c : Dev nD)

/-! ## The body's stored value at an entry -/

/-- The coordinate facts of the root product's dimension record: left operand read at (row, k), right at (k, column). -/
theorem dotFacts : Cert.LibPlainDims.PlainFacts dot_S4000x64_S64x32_S4000x32_1_0_0_1_n_n :=
  Cert.LibPlainDims.plainFacts dot_S4000x64_S64x32_S4000x32_1_0_0_1_n_n rfl rfl rfl rfl rfl rfl

/-- Entry (p, q) of the stored block: the root product plus the bias row, plus each relation's summed messages at
    (p, q) times that relation's number for row p. Casts to the same shape are the identity, rounding is the identity
    over the extended reals, and the product accumulated into zero is the plain sum. -/
theorem pay_apply (x0 : FVec Ideal S4000x64 .f32) (x1 : FVec Ideal S64x32 .f32) (x2 : FVec Ideal S1x32 .f32)
    (x3 : FVec Ideal S4000x32 .f32) (x4 : FVec Ideal S4000x1 .f32) (x5 : FVec Ideal S4000x32 .f32)
    (x6 : FVec Ideal S4000x1 .f32) (p : Fin 4000) (q : Fin 32) :
    k7_pay1 (F := Ideal) x0 x1 x2 x3 x4 x5 x6 (ix2 p q) = Cert.Rgcn.root x0 x1 x2 x3 x4 x5 x6 (ix2 p q) := by
  unfold k7_pay1
  simp only [shapeCast_self]
  show ((FloatOps.matmul dot_S4000x64_S64x32_S4000x32_1_0_0_1_n_n none (truncf .bf16 x0 bitsLt_bf16_f32)
          (truncf .bf16 x1 bitsLt_bf16_f32) (constant (F := Ideal) S4000x32 .f32 0x00000000#32) (ix2 p q)
        + broadcastTo S4000x32 x2 broadcasts_S1x32_S4000x32 (ix2 p q))
      + x3 (ix2 p q) * broadcastTo S4000x32 x4 broadcasts_S4000x1_S4000x32 (ix2 p q))
      + x5 (ix2 p q) * broadcastTo S4000x32 x6 broadcasts_S4000x1_S4000x32 (ix2 p q) = _
  rw [Cert.Layer.matmul_trunc_apply _ dotFacts.rank dotFacts.size dotFacts.l0 dotFacts.l1 dotFacts.r0 dotFacts.r1,
    broadcastTo_1b_ab_apply, Cert.LibKeepdims.broadcastTo_a1_ab_apply, Cert.LibKeepdims.broadcastTo_a1_ab_apply]
  rfl

/-! ## Two entries of the layer agree when everything they read agrees -/

/-- An entry of the layer depends on row r of the node table, column q of the weights and of the bias row,
    entry (r, q) of each relation's summed messages and entry r of each relation's per-node numbers. -/
theorem root_congr {A A' K B : ℕ}
    (x : Cert.Rgcn.Mat A K) (w : Cert.Rgcn.Mat K B) (b : Cert.Rgcn.Mat 1 B) (g0 : Cert.Rgcn.Mat A B)
    (n0 : Cert.Rgcn.Mat A 1) (g1 : Cert.Rgcn.Mat A B) (n1 : Cert.Rgcn.Mat A 1)
    (x' : Cert.Rgcn.Mat A' K) (w' : Cert.Rgcn.Mat K B) (b' : Cert.Rgcn.Mat 1 B) (g0' : Cert.Rgcn.Mat A' B)
    (n0' : Cert.Rgcn.Mat A' 1) (g1' : Cert.Rgcn.Mat A' B) (n1' : Cert.Rgcn.Mat A' 1)
    (r : Fin A) (r' : Fin A') (q : Fin B)
    (hx : ∀ k : Fin K, x (ix2 r k) = x' (ix2 r' k)) (hw : ∀ k : Fin K, w (ix2 k q) = w' (ix2 k q))
    (hb : b (ix2 (0 : Fin 1) q) = b' (ix2 (0 : Fin 1) q))
    (hg0 : g0 (ix2 r q) = g0' (ix2 r' q)) (hn0 : n0 (ix2 r (0 : Fin 1)) = n0' (ix2 r' (0 : Fin 1)))
    (hg1 : g1 (ix2 r q) = g1' (ix2 r' q)) (hn1 : n1 (ix2 r (0 : Fin 1)) = n1' (ix2 r' (0 : Fin 1))) :
    Cert.Rgcn.root x w b g0 n0 g1 n1 (ix2 r q) = Cert.Rgcn.root x' w' b' g0' n0' g1' n1' (ix2 r' q) := by
  show ((Cert.Layer.prod x w (ix2 r q) + b (ix2 (0 : Fin 1) q)) + g0 (ix2 r q) * n0 (ix2 r (0 : Fin 1)))
      + g1 (ix2 r q) * n1 (ix2 r (0 : Fin 1))
    = ((Cert.Layer.prod x' w' (ix2 r' q) + b' (ix2 (0 : Fin 1) q)) + g0' (ix2 r' q) * n0' (ix2 r' (0 : Fin 1)))
      + g1' (ix2 r' q) * n1' (ix2 r' (0 : Fin 1))
  rw [Cert.Layer.prod_congr x w x' w' r q r' q hx hw, hb, hg0, hn0, hg1, hn1]
/-! ## The index maps, decided over the grid's thirty points -/

theorem hz : (![0, 0] : Fin 2 → Nat) = fun _ => 0 := funext fun a => by fin_cases a <;> rfl

/-- Each row-blocked window is at block (t, 0) at point t; the weights and the bias row are at block (0, 0). -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0
    ∧ win7_5.index t (0 : Fin 2) = t.val ∧ win7_5.index t (1 : Fin 2) = 0
    ∧ win7_6.index t (0 : Fin 2) = t.val ∧ win7_6.index t (1 : Fin 2) = 0
    ∧ win7_7.index t (0 : Fin 2) = t.val ∧ win7_7.index t (1 : Fin 2) = 0 :=
  (by decide +kernel : ∀ t : Fin grid7.N, _)

/-- Every block of rows is some point's. -/
theorem idx_onto : ∀ q0 : Fin 30, ∃ t : Fin cfg7.N, win7_7.index t (0 : Fin 2) = q0.val ∧ win7_7.index t (1 : Fin 2) = 0 :=
  (by decide +kernel : ∀ q0 : Fin 30, ∃ t : Fin grid7.N, win7_7.index t (0 : Fin 2) = q0.val ∧ win7_7.index t (1 : Fin 2) = 0)

/-! ## Each window's block, read at an entry, as an entry of its array -/

/-- The node table's block at point t holds, at (p, k), the table's entry (4000 t + p, k). -/
theorem blk0_apply (t : Fin cfg7.N) (p : Fin 4000) (k : Fin 64) (r : Fin 120000) (hr : r.val = t.val * 4000 + p.val) :
    (iblk7 V c 0 t : Vec Ideal S4000x64 .f32) (ix2 p k) = (V c main_v48 : Cert.Rgcn.Mat 120000 64) (ix2 r k) := by
  obtain ⟨e0, e1, -⟩ := idx_facts t
  unfold iblk7
  rw [View.read_apply]
  show V c main_v48 _ = V c main_v48 _
  congr 1
  funext a
  apply Fin.ext
  match a with
  | ⟨0, _⟩ => show win7_0.index t (0 : Fin 2) * 4000 + 1 * p.val = r.val; omega
  | ⟨1, _⟩ => show win7_0.index t (1 : Fin 2) * 64 + 1 * k.val = k.val; omega

/-- The root weights' block is the whole array at every point. -/
theorem blk1_apply (t : Fin cfg7.N) (k : Fin 64) (q : Fin 32) :
    (iblk7 V c 1 t : Vec Ideal S64x32 .f32) (ix2 k q) = (V c main_arg10 : Cert.Rgcn.Mat 64 32) (ix2 k q) := by
  obtain ⟨-, -, e0, e1, -⟩ := idx_facts t
  unfold iblk7
  rw [View.read_apply]
  show V c main_arg10 _ = V c main_arg10 _
  congr 1
  funext a
  apply Fin.ext
  match a with
  | ⟨0, _⟩ => show win7_1.index t (0 : Fin 2) * 64 + 1 * k.val = k.val; omega
  | ⟨1, _⟩ => show win7_1.index t (1 : Fin 2) * 32 + 1 * q.val = q.val; omega

/-- The bias row's block is the whole row at every point. -/
theorem blk2_apply (t : Fin cfg7.N) (q : Fin 32) :
    (iblk7 V c 2 t : Vec Ideal S1x32 .f32) (ix2 (0 : Fin 1) q) = (V c main_v76 : Cert.Rgcn.Mat 1 32) (ix2 (0 : Fin 1) q) := by
  obtain ⟨-, -, -, -, e0, e1, -⟩ := idx_facts t
  unfold iblk7
  rw [View.read_apply]
  show V c main_v76 _ = V c main_v76 _
  congr 1
  funext a
  apply Fin.ext
  match a with
  | ⟨0, _⟩ => show win7_2.index t (0 : Fin 2) * 1 + 1 * (0 : Fin 1).val = (0 : Fin 1).val; omega
  | ⟨1, _⟩ => show win7_2.index t (1 : Fin 2) * 32 + 1 * q.val = q.val; omega

/-- Relation 0's summed messages: the block at point t holds, at (p, q), the array's entry (4000 t + p, q). -/
theorem blk3_apply (t : Fin cfg7.N) (p : Fin 4000) (q : Fin 32) (r : Fin 120000) (hr : r.val = t.val * 4000 + p.val) :
    (iblk7 V c 3 t : Vec Ideal S4000x32 .f32) (ix2 p q) = (V c main_v62 : Cert.Rgcn.Mat 120000 32) (ix2 r q) := by
  obtain ⟨-, -, -, -, -, -, e0, e1, -⟩ := idx_facts t
  unfold iblk7
  rw [View.read_apply]
  show V c main_v62 _ = V c main_v62 _
  congr 1
  funext a
  apply Fin.ext
  match a with
  | ⟨0, _⟩ => show win7_3.index t (0 : Fin 2) * 4000 + 1 * p.val = r.val; omega
  | ⟨1, _⟩ => show win7_3.index t (1 : Fin 2) * 32 + 1 * q.val = q.val; omega

/-- Relation 0's per-node numbers: the block at point t holds, at (p, 0), the column's entry (4000 t + p, 0). -/
theorem blk4_apply (t : Fin cfg7.N) (p : Fin 4000) (r : Fin 120000) (hr : r.val = t.val * 4000 + p.val) :
    (iblk7 V c 4 t : Vec Ideal S4000x1 .f32) (ix2 p (0 : Fin 1)) = (V c main_v15 : Cert.Rgcn.Mat 120000 1) (ix2 r (0 : Fin 1)) := by
  obtain ⟨-, -, -, -, -, -, -, -, e0, e1, -⟩ := idx_facts t
  unfold iblk7
  rw [View.read_apply]
  show V c main_v15 _ = V c main_v15 _
  congr 1
  funext a
  apply Fin.ext
  match a with
  | ⟨0, _⟩ => show win7_4.index t (0 : Fin 2) * 4000 + 1 * p.val = r.val; omega
  | ⟨1, _⟩ => show win7_4.index t (1 : Fin 2) * 1 + 1 * (0 : Fin 1).val = (0 : Fin 1).val; omega

/-- Relation 1's summed messages, likewise. -/
theorem blk5_apply (t : Fin cfg7.N) (p : Fin 4000) (q : Fin 32) (r : Fin 120000) (hr : r.val = t.val * 4000 + p.val) :
    (iblk7 V c 5 t : Vec Ideal S4000x32 .f32) (ix2 p q) = (V c main_v75 : Cert.Rgcn.Mat 120000 32) (ix2 r q) := by
  obtain ⟨-, -, -, -, -, -, -, -, -, -, e0, e1, -⟩ := idx_facts t
  unfold iblk7
  rw [View.read_apply]
  show V c main_v75 _ = V c main_v75 _
  congr 1
  funext a
  apply Fin.ext
  match a with
  | ⟨0, _⟩ => show win7_5.index t (0 : Fin 2) * 4000 + 1 * p.val = r.val; omega
  | ⟨1, _⟩ => show win7_5.index t (1 : Fin 2) * 32 + 1 * q.val = q.val; omega

/-- Relation 1's per-node numbers, likewise. -/
theorem blk6_apply (t : Fin cfg7.N) (p : Fin 4000) (r : Fin 120000) (hr : r.val = t.val * 4000 + p.val) :
    (iblk7 V c 6 t : Vec Ideal S4000x1 .f32) (ix2 p (0 : Fin 1)) = (V c main_v19 : Cert.Rgcn.Mat 120000 1) (ix2 r (0 : Fin 1)) := by
  obtain ⟨-, -, -, -, -, -, -, -, -, -, -, -, e0, e1, -⟩ := idx_facts t
  unfold iblk7
  rw [View.read_apply]
  show V c main_v19 _ = V c main_v19 _
  congr 1
  funext a
  apply Fin.ext
  match a with
  | ⟨0, _⟩ => show win7_6.index t (0 : Fin 2) * 4000 + 1 * p.val = r.val; omega
  | ⟨1, _⟩ => show win7_6.index t (1 : Fin 2) * 1 + 1 * (0 : Fin 1).val = (0 : Fin 1).val; omega

/-! ## What a point writes back, and the array after the region -/

/-- Point t writes back block t of the layer of the arrays as the region finds them. -/
theorem flushed_eq (t : Fin cfg7.N) :
    (dat7 (F := Ideal) V c).flushed 7 t = ((cfg7.win 7).blk t).view.read (Elt Ideal)
      (Cert.Rgcn.root (V c main_v48) (V c main_arg10) (V c main_v76) (V c main_v62) (V c main_v15) (V c main_v75) (V c main_v19)) := by
  show (cfg7.win 7).cut (grid7.coords t) ((dat7 (F := Ideal) V c).after 7 t) = _
  rw [after7_7]
  unfold out7_7
  rw [View.canon_unit_zero hz]
  simp only [View.ld_unit_zero (S := S4000x64) hz, View.ld_unit_zero (S := S64x32) hz, View.ld_unit_zero (S := S1x32) hz,
    View.ld_unit_zero (S := S4000x32) hz, View.ld_unit_zero (S := S4000x1) hz]
  funext j
  obtain ⟨p, q, rfl⟩ : ∃ (p : Fin 4000) (q : Fin 32), j = ix2 p q := ⟨j 0, j 1, eq_ix2 j⟩
  obtain ⟨-, -, -, -, -, -, -, -, -, -, -, -, -, -, e0, e1⟩ := idx_facts t
  have ht : t.val < 30 := lt_of_lt_of_eq t.isLt N_7
  have hp : p.val < 4000 := p.isLt
  have hr : t.val * 4000 + p.val < 120000 := by omega
  have he : ((cfg7.win 7).blk t).view.emb (ix2 p q) = ix2 (⟨t.val * 4000 + p.val, hr⟩ : Fin 120000) q := by
    funext a
    apply Fin.ext
    match a with
    | ⟨0, _⟩ => show win7_7.index t (0 : Fin 2) * 4000 + 1 * p.val = t.val * 4000 + p.val; omega
    | ⟨1, _⟩ => show win7_7.index t (1 : Fin 2) * 32 + 1 * q.val = q.val; omega
  rw [View.read_apply, he]
  refine (pay_apply _ _ _ _ _ _ _ p q).trans ?_
  exact root_congr _ _ _ _ _ _ _ _ _ _ _ _ _ _ p _ q
    (fun k => blk0_apply V c t p k _ rfl) (fun k => blk1_apply V c t k q) (blk2_apply V c t q)
    (blk3_apply V c t p q _ rfl) (blk4_apply V c t p _ rfl) (blk5_apply V c t p q _ rfl) (blk6_apply V c t p _ rfl)

/-- An entry of the array is in point t's block iff each coordinate is in the block's range on its axis. -/
theorem mem_blk (t : Fin cfg7.N) (i : S120000x32.Idx) :
    i ∈ ((cfg7.win 7).blk t).view.set ↔ ∀ a : Fin 2, win7_7.index t a * S4000x32.size a ≤ (i a).val
      ∧ (i a).val < win7_7.index t a * S4000x32.size a + S4000x32.size a := by
  show i ∈ ((View.whole main_v77).slice (win7_7.rect t)).set ↔ _
  rw [View.set_slice_whole, Rect.mem_set_unit]
  exact Iff.rfl

/-- Row r of the array is in the block of point r / 4000, and every point writes its block back. -/
theorem cover (i : S120000x32.Idx) :
    ∃ t : Fin cfg7.N, (cfg7.win 7).flush t = true ∧ i ∈ ((cfg7.win 7).blk t).view.set := by
  have hi0 : (i 0).val < 120000 := (i 0).isLt
  have hi1 : (i 1).val < 32 := (i 1).isLt
  obtain ⟨t, q0, q1⟩ := idx_onto ⟨(i 0).val / 4000, by omega⟩
  have q0' : win7_7.index t (0 : Fin 2) = (i 0).val / 4000 := q0
  refine ⟨t, flush7_7 t, ?_⟩
  rw [mem_blk]
  intro a
  match a with
  | ⟨0, _⟩ => show win7_7.index t (0 : Fin 2) * 4000 ≤ (i 0).val ∧ (i 0).val < win7_7.index t (0 : Fin 2) * 4000 + 4000; omega
  | ⟨1, _⟩ => show win7_7.index t (1 : Fin 2) * 32 ≤ (i 1).val ∧ (i 1).val < win7_7.index t (1 : Fin 2) * 32 + 32; omega

/-- The array after the region: the layer of the arrays as the region finds them. -/
theorem final7 : (dat7 (F := Ideal) V c).arrAt 7 cfg7.N = Cert.Rgcn.root (V c main_v48) (V c main_arg10) (V c main_v76) (V c main_v62) (V c main_v15) (V c main_v75) (V c main_v19) :=
  (dat7 (F := Ideal) V c).arrAt_eq_of_cover 7
    (Cert.Rgcn.root (V c main_v48) (V c main_arg10) (V c main_v76) (V c main_v62) (V c main_v15) (V c main_v75) (V c main_v19))
    (fun t _ => flushed_eq V c t) cover

end Cert.KernelIdeal.Region7

end
-- ==== Proof.LibDot.lean ====
/-
  A host matrix product with one contracted axis, read at one entry.

  Over the extended reals the host's product of an A by K matrix and a K by B matrix at entry (p, q) is the sum over k
  of l (p, k) r (k, q): there is no accumulator, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibDot

open Idealize.ShloMosaic Idealize.ShloMosaic.ValueIdx

/-- Entry (p, q) of the host's plain matrix product is the sum over the contracted axis. -/
theorem dotGeneral_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    Host.dotGeneral (F := Ideal) d prec l r (ix2 p q) = ∑ k : Fin K, l (ix2 p k) * r (ix2 k q) := by
  show FloatOps.dotGeneral d prec .single l r (ix2 p q) = _
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibDot

end
-- ==== Proof.LibBcast.lean ====
/-
  A host broadcast read at an entry, for the shapes a bias row and a per-row factor go through.

  A vector of `a` numbers placed as an `a × 1` column holds, at (p, u), the vector's entry p; a column spread over `b`
  columns holds, at (p, q), the column's entry (p, 0); a vector of `b` numbers placed as a `1 × b` row holds, at (u, q),
  the vector's entry q; a row spread over `a` rows holds, at (p, q), the row's entry (0, q); and a scalar spread over
  any shape holds that scalar everywhere. Each is the rule that a broadcast reads its operand at the named axes'
  coordinates, with 0 on the operand's unit axes.
-/
import Idealize.ShloMosaic.Lib.Pipeline.Value
import Idealize.ShloMosaic.Lib.ValueIdx

namespace Cert.LibBcast

open Idealize.ShloMosaic Idealize.ShloMosaic.ValueIdx

variable {α : Type}

/-- An `[a]` vector placed along axis 0 of `[a, 1]` reads, at `(p, u)`, the vector at `p`. -/
theorem bcast_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- An `[a, 1]` column spread over `[a, b]` reads, at `(p, q)`, the column at `(p, 0)`. -/
theorem bcast_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-- A `[b]` vector placed along axis 1 of `[1, b]` reads, at `(u, q)`, the vector at `q`. -/
theorem bcast_b_1b_apply {b : ℕ} (v : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h v (ix2 u q) = v (ix1 q) := by
  refine broadcastInDim_apply _ h v (ix2 u q) (ix1 q) fun ax => ?_
  match ax with
  | ⟨0, _⟩ =>
    show q.val = if b = 1 then 0 else q.val
    split
    · have := q.isLt; omega
    · rfl

/-- A `[1, b]` row spread over `[a, b]` reads, at `(p, q)`, the row at `(0, q)`. -/
theorem bcast_1b_ab_apply {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

/-- A scalar spread over any shape reads that scalar everywhere. -/
theorem bcast_scalar_apply {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun ax => ax.elim0

end Cert.LibBcast
-- ==== Proof.RefValue.lean ====
/-
  The reference program's result, read as the network of Spec at the reference's own record of glue operations.

  The reference embeds reviews and products by a matrix product plus a bias row each and stacks them; a layer adds, to
  the root product plus its bias row, each relation's scattered sums divided by the node's count of incoming edges
  (at least one) spread over the columns. Dividing by max(count, 1) is multiplying by its reciprocal, because
  max(count, 1) is never zero; this is the one law of the extended reals used. Everything else is reading the
  pointwise operations, the broadcasts and the matrix products at an entry, while rows taken at the sources, sums at
  the targets and the stacking stay opaque functions.
-/
import proofs.«169592_j3186865733924_2_alg».proof.Proof.Gen.ReferenceIdeal.Read
import proofs.«169592_j3186865733924_2_alg».proof.Proof.Spec
import proofs.«169592_j3186865733924_2_alg».proof.Proof.LibDot
import proofs.«169592_j3186865733924_2_alg».proof.Proof.LibPlainDims
import proofs.«169592_j3186865733924_2_alg».proof.Proof.LibBcast
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Idealize.ShloMosaic Idealize.ShloMosaic.ValueIdx
open Cert.ReferenceIdeal Cert.ReferenceIdeal.Gen Cert.ReferenceIdeal.Read

/-- A vector of one million edge endpoints. -/
abbrev I32 : Type := (⟨S1000000, .i32⟩ : BufTy).Contents (Elt Ideal)

/-- What the reference does outside the matrix products. -/
def glue (x12 x13 x14 x15 : I32) : Cert.Rgcn.Glue 100000 20000 120000 1000000 where
  cat a b := concatenate S120000x64 0 [⟨S100000x64, a⟩, ⟨S20000x64, b⟩] concatenates_S100000x64_S20000x64_S120000x64_d0
  take0 x := Host.gather gather_S120000x64_S1000000x1_S1000000x64_1_0_n_n_0_1_164 x (val_main_v18 (F := Ideal) x12)
  take1 x := Host.gather gather_S120000x64_S1000000x1_S1000000x64_1_0_n_n_0_1_164 x (val_main_v40 (F := Ideal) x14)
  sum0h u := Host.scatterAdd scatter_S120000x64_S1000000x1_S1000000x64_1_0_0_1 (val_main_v23 (F := Ideal)) (val_main_v24 (F := Ideal) x13) u
  sum1h u := Host.scatterAdd scatter_S120000x64_S1000000x1_S1000000x64_1_0_0_1 (val_main_v45 (F := Ideal)) (val_main_v46 (F := Ideal) x15) u
  sum0o u := Host.scatterAdd scatter_S120000x32_S1000000x1_S1000000x32_1_0_0_1 (val_main_v72 (F := Ideal)) (val_main_v73 (F := Ideal) x13) u
  sum1o u := Host.scatterAdd scatter_S120000x32_S1000000x1_S1000000x32_1_0_0_1 (val_main_v94 (F := Ideal)) (val_main_v95 (F := Ideal) x15) u
  inv0 := Host.divf (val_main_v30 (F := Ideal)) (val_main_v31 (F := Ideal) x13)
  inv1 := Host.divf (val_main_v52 (F := Ideal)) (val_main_v53 (F := Ideal) x15)

/-! ## Numbers -/

/-- The pattern 0x3F800000 denotes the number one. -/
theorem ofBits_one_f32 : Ideal.ofBits .f32 0x3F800000#32 = 1 := by
  have h : ((8388608 : ℝ) : EReal) * (((2 : ℝ) ^ 23)⁻¹ : ℝ) = 1 := by rw [← EReal.coe_mul]; norm_num
  simpa [Ideal.ofBits, Ideal.ieee] using h

/-- Dividing by a number that is not zero is multiplying by its reciprocal; no finiteness is needed. -/
theorem div_eq_mul_div_one (a c : EReal) (hc : c ≠ 0) : Ideal.div a c = a * Ideal.div 1 c := by
  unfold Ideal.div
  rw [if_neg hc, if_neg hc, one_mul]

/-- A number clamped below at one is not zero. -/
theorem max_one_ne_zero (s : EReal) : max s 1 ≠ 0 :=
  ne_of_gt (lt_of_lt_of_le zero_lt_one (le_max_right s 1))

/-! ## Readings that do not depend on the sizes -/

section generic

variable {A K B : ℕ}

/-- The host's plain product, as a function, is the plain product. -/
theorem dot_eq_prod (d : DotDims (⟨2, ![A, K]⟩ : Shape) (⟨2, ![K, B]⟩ : Shape) (⟨2, ![A, B]⟩ : Shape))
    (hd : Cert.LibPlainDims.PlainFacts d) (l : Cert.Rgcn.Mat A K) (r : Cert.Rgcn.Mat K B) :
    Host.dotGeneral (F := Ideal) d none l r = Cert.Layer.prod l r := by
  funext i
  obtain ⟨p, q, rfl⟩ : ∃ (p : Fin A) (q : Fin B), i = ix2 p q := ⟨i 0, i 1, eq_ix2 i⟩
  exact Cert.LibDot.dotGeneral_ix2 d hd.rank hd.size hd.l0 hd.l1 hd.r0 hd.r1 none l r p q

/-- A product plus a bias row spread over the rows is the product plus the bias. -/
theorem prod_addf_bcast (h : (⟨2, ![1, B]⟩ : Shape).BroadcastsInDim ⟨2, ![A, B]⟩ ![0, 1])
    (x : Cert.Rgcn.Mat A K) (w : Cert.Rgcn.Mat K B) (b : Cert.Rgcn.Mat 1 B) :
    addf (F := Ideal) (Cert.Layer.prod x w) (broadcastInDim (⟨2, ![A, B]⟩ : Shape) ![0, 1] h b) = Cert.Rgcn.linBias x w b := by
  funext i
  obtain ⟨p, q, rfl⟩ : ∃ (p : Fin A) (q : Fin B), i = ix2 p q := ⟨i 0, i 1, eq_ix2 i⟩
  show Cert.Layer.prod x w (ix2 p q) + broadcastInDim (⟨2, ![A, B]⟩ : Shape) ![0, 1] h b (ix2 p q)
    = Cert.Layer.prod x w (ix2 p q) + b (ix2 (0 : Fin 1) q)
  rw [Cert.LibBcast.bcast_1b_ab_apply]

/-- Dividing by a column of numbers that are not zero, spread over the columns, is multiplying by the column of
    reciprocals. -/
theorem divf_bcast_col (h : (⟨2, ![A, 1]⟩ : Shape).BroadcastsInDim ⟨2, ![A, B]⟩ ![0, 1])
    (g : Cert.Rgcn.Mat A B) (one c : Cert.Rgcn.Mat A 1) (h1 : ∀ j, one j = 1) (hc : ∀ j, c j ≠ 0) :
    Host.divf (F := Ideal) g (broadcastInDim (⟨2, ![A, B]⟩ : Shape) ![0, 1] h c)
      = fun i => g i * Host.divf (F := Ideal) one c (ix2 (i 0) (0 : Fin 1)) := by
  funext i
  obtain ⟨p, q, rfl⟩ : ∃ (p : Fin A) (q : Fin B), i = ix2 p q := ⟨i 0, i 1, eq_ix2 i⟩
  show Ideal.div (g (ix2 p q)) (broadcastInDim (⟨2, ![A, B]⟩ : Shape) ![0, 1] h c (ix2 p q))
    = g (ix2 p q) * Ideal.div (one (ix2 p (0 : Fin 1))) (c (ix2 p (0 : Fin 1)))
  rw [Cert.LibBcast.bcast_a1_ab_apply, h1]
  exact div_eq_mul_div_one _ _ (hc _)

end generic

/-! ## The reference's dimension records are plain products -/

theorem plain_review : Cert.LibPlainDims.PlainFacts dot_S100000x128_S128x64_S100000x64_1_0_0_1_n_n :=
  Cert.LibPlainDims.plainFacts _ rfl rfl rfl rfl rfl rfl
theorem plain_product : Cert.LibPlainDims.PlainFacts dot_S20000x64_S64x64_S20000x64_1_0_0_1_n_n :=
  Cert.LibPlainDims.plainFacts _ rfl rfl rfl rfl rfl rfl
theorem plain_root1 : Cert.LibPlainDims.PlainFacts dot_S120000x64_S64x64_S120000x64_1_0_0_1_n_n :=
  Cert.LibPlainDims.plainFacts _ rfl rfl rfl rfl rfl rfl
theorem plain_msg1 : Cert.LibPlainDims.PlainFacts dot_S1000000x64_S64x64_S1000000x64_1_0_0_1_n_n :=
  Cert.LibPlainDims.plainFacts _ rfl rfl rfl rfl rfl rfl
theorem plain_root2 : Cert.LibPlainDims.PlainFacts dot_S120000x64_S64x32_S120000x32_1_0_0_1_n_n :=
  Cert.LibPlainDims.plainFacts _ rfl rfl rfl rfl rfl rfl
theorem plain_msg2 : Cert.LibPlainDims.PlainFacts dot_S1000000x64_S64x32_S1000000x32_1_0_0_1_n_n :=
  Cert.LibPlainDims.plainFacts _ rfl rfl rfl rfl rfl rfl

/-! ## The constants and the counts -/

/-- The column of ones of relation 0 holds the number one. -/
theorem v30_one (j : S120000x1.Idx) : val_main_v30 (F := Ideal) j = 1 := by
  rw [val_main_v30_apply, val_main_cst_3_apply]
  exact ofBits_one_f32

/-- The column of ones of relation 1 holds the number one. -/
theorem v52_one (j : S120000x1.Idx) : val_main_v52 (F := Ideal) j = 1 := by
  rw [val_main_v52_apply, val_main_cst_9_apply]
  exact ofBits_one_f32

/-- Relation 0's counts clamped below at one are not zero. -/
theorem v31_ne (x13 : I32) (j : S120000x1.Idx) : val_main_v31 (F := Ideal) x13 j ≠ 0 := by
  rw [val_main_v31_apply, v30_one]
  exact max_one_ne_zero _

/-- Relation 1's counts clamped below at one are not zero. -/
theorem v53_ne (x15 : I32) (j : S120000x1.Idx) : val_main_v53 (F := Ideal) x15 j ≠ 0 := by
  rw [val_main_v53_apply, v52_one]
  exact max_one_ne_zero _

/-- The clamp's zero array is zero everywhere. -/
theorem call0_zero : val_main_call0_v0 (F := Ideal) = fun _ => (0 : EReal) := by
  funext i
  rw [val_main_call0_v0_apply, val_main_call0_cst_apply]
  exact Ideal.ofBits_zero_f32

/-! ## The second layer recomputes the first layer's index columns and counts under new names -/

theorem v67_eq (x12 : I32) : val_main_v67 (F := Ideal) x12 = val_main_v18 (F := Ideal) x12 := rfl
theorem v89_eq (x14 : I32) : val_main_v89 (F := Ideal) x14 = val_main_v40 (F := Ideal) x14 := rfl
theorem v80_eq (x13 : I32) : val_main_v80 (F := Ideal) x13 = val_main_v31 (F := Ideal) x13 := rfl
theorem v102_eq (x15 : I32) : val_main_v102 (F := Ideal) x15 = val_main_v53 (F := Ideal) x15 := rfl

/-! ## A layer of the reference, for any table of nodes -/

section layers

variable (x12 x13 x14 x15 : I32)

/-- The first layer's chain of operations, applied to a table h, is the clamped layer at the reference's glue. -/
theorem layer1_ref (h : Cert.Rgcn.Mat 120000 64) (u0 u1 w : Cert.Rgcn.Mat 64 64) (b : Cert.Rgcn.Mat 1 64) :
    maximumf (F := Ideal)
      (addf
        (addf
          (addf (Host.dotGeneral dot_S120000x64_S64x64_S120000x64_1_0_0_1_n_n none h w)
            (broadcastInDim S120000x64 ![0, 1] bcast_S1x64_S120000x64_0_1 b))
          (Host.divf
            (Host.scatterAdd scatter_S120000x64_S1000000x1_S1000000x64_1_0_0_1 (val_main_v23 (F := Ideal)) (val_main_v24 (F := Ideal) x13)
              (Host.dotGeneral dot_S1000000x64_S64x64_S1000000x64_1_0_0_1_n_n none
                (Host.gather gather_S120000x64_S1000000x1_S1000000x64_1_0_n_n_0_1_164 h (val_main_v18 (F := Ideal) x12)) u0))
            (broadcastInDim S120000x64 ![0, 1] bcast_S120000x1_S120000x64_0_1 (val_main_v31 (F := Ideal) x13))))
        (Host.divf
          (Host.scatterAdd scatter_S120000x64_S1000000x1_S1000000x64_1_0_0_1 (val_main_v45 (F := Ideal)) (val_main_v46 (F := Ideal) x15)
            (Host.dotGeneral dot_S1000000x64_S64x64_S1000000x64_1_0_0_1_n_n none
              (Host.gather gather_S120000x64_S1000000x1_S1000000x64_1_0_n_n_0_1_164 h (val_main_v40 (F := Ideal) x14)) u1))
          (broadcastInDim S120000x64 ![0, 1] bcast_S120000x1_S120000x64_0_1 (val_main_v53 (F := Ideal) x15))))
      (val_main_call0_v0 (F := Ideal))
    = Cert.Rgcn.layer1 (glue x12 x13 x14 x15) h u0 u1 w b := by
  rw [dot_eq_prod _ plain_root1, dot_eq_prod _ plain_msg1 _ u0, dot_eq_prod _ plain_msg1 _ u1, prod_addf_bcast,
    divf_bcast_col _ _ (val_main_v30 (F := Ideal)) _ v30_one (v31_ne x13),
    divf_bcast_col _ _ (val_main_v52 (F := Ideal)) _ v52_one (v53_ne x15), call0_zero]
  rfl

/-- The second layer's chain of operations, applied to a table h, is the unclamped layer at the reference's glue. -/
theorem layer2_ref (h : Cert.Rgcn.Mat 120000 64) (v0 v1 w : Cert.Rgcn.Mat 64 32) (b : Cert.Rgcn.Mat 1 32) :
    addf (F := Ideal)
      (addf
        (addf (Host.dotGeneral dot_S120000x64_S64x32_S120000x32_1_0_0_1_n_n none h w)
          (broadcastInDim S120000x32 ![0, 1] bcast_S1x32_S120000x32_0_1 b))
        (Host.divf
          (Host.scatterAdd scatter_S120000x32_S1000000x1_S1000000x32_1_0_0_1 (val_main_v72 (F := Ideal)) (val_main_v73 (F := Ideal) x13)
            (Host.dotGeneral dot_S1000000x64_S64x32_S1000000x32_1_0_0_1_n_n none
              (Host.gather gather_S120000x64_S1000000x1_S1000000x64_1_0_n_n_0_1_164 h (val_main_v18 (F := Ideal) x12)) v0))
          (broadcastInDim S120000x32 ![0, 1] bcast_S120000x1_S120000x32_0_1 (val_main_v31 (F := Ideal) x13))))
      (Host.divf
        (Host.scatterAdd scatter_S120000x32_S1000000x1_S1000000x32_1_0_0_1 (val_main_v94 (F := Ideal)) (val_main_v95 (F := Ideal) x15)
          (Host.dotGeneral dot_S1000000x64_S64x32_S1000000x32_1_0_0_1_n_n none
            (Host.gather gather_S120000x64_S1000000x1_S1000000x64_1_0_n_n_0_1_164 h (val_main_v40 (F := Ideal) x14)) v1))
        (broadcastInDim S120000x32 ![0, 1] bcast_S120000x1_S120000x32_0_1 (val_main_v53 (F := Ideal) x15)))
    = Cert.Rgcn.layer2 (glue x12 x13 x14 x15) h v0 v1 w b := by
  rw [dot_eq_prod _ plain_root2, dot_eq_prod _ plain_msg2 _ v0, dot_eq_prod _ plain_msg2 _ v1, prod_addf_bcast,
    divf_bcast_col _ _ (val_main_v30 (F := Ideal)) _ v30_one (v31_ne x13),
    divf_bcast_col _ _ (val_main_v52 (F := Ideal)) _ v52_one (v53_ne x15)]
  rfl

end layers

/-- The reference's result is the network at its own glue. -/
theorem value (x0 : (⟨S100000x128, .f32⟩ : BufTy).Contents (Elt Ideal)) (x1 : (⟨S20000x64, .f32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S2x64x64, .f32⟩ : BufTy).Contents (Elt Ideal)) (x7 : (⟨S64x64, .f32⟩ : BufTy).Contents (Elt Ideal))
    (x8 : (⟨S64, .f32⟩ : BufTy).Contents (Elt Ideal)) (x9 : (⟨S2x64x32, .f32⟩ : BufTy).Contents (Elt Ideal))
    (x10 : (⟨S64x32, .f32⟩ : BufTy).Contents (Elt Ideal)) (x11 : (⟨S32, .f32⟩ : BufTy).Contents (Elt Ideal))
    (x12 x13 x14 x15 : (⟨S1000000, .i32⟩ : BufTy).Contents (Elt Ideal)) :
    val_main_v105 (F := Ideal) x0 x1 x2 x3 x4 x5 x6 x7 x8 x9 x10 x11 x12 x13 x14 x15
      = Cert.Rgcn.net (glue x12 x13 x14 x15) x0 x2 (val_main_v1 (F := Ideal) x3) x1 x4 (val_main_v5 (F := Ideal) x5)
          (val_main_v21 (F := Ideal) x6) (val_main_v43 (F := Ideal) x6) x7 (val_main_v10 (F := Ideal) x8)
          (val_main_v70 (F := Ideal) x9) (val_main_v92 (F := Ideal) x9) x10 (val_main_v59 (F := Ideal) x11) := by
  -- the stacked table of embedded nodes
  have e8 : val_main_v8 (F := Ideal) x0 x1 x2 x3 x4 x5
      = Cert.Rgcn.embed (glue x12 x13 x14 x15) x0 x2 (val_main_v1 (F := Ideal) x3) x1 x4 (val_main_v5 (F := Ideal) x5) := by
    unfold val_main_v8 val_main_v3 val_main_v7 val_main_v0 val_main_v2 val_main_v4 val_main_v6
    rw [dot_eq_prod _ plain_review, dot_eq_prod _ plain_product, prod_addf_bcast, prod_addf_bcast]
    rfl
  -- the first layer, at that table
  have e57 : val_main_v57 (F := Ideal) x0 x1 x2 x3 x4 x5 x6 x7 x8 x12 x13 x14 x15
      = Cert.Rgcn.layer1 (glue x12 x13 x14 x15) (val_main_v8 (F := Ideal) x0 x1 x2 x3 x4 x5)
          (val_main_v21 (F := Ideal) x6) (val_main_v43 (F := Ideal) x6) x7 (val_main_v10 (F := Ideal) x8) := by
    unfold val_main_v57 val_main_v56 val_main_v55 val_main_v54 val_main_v47 val_main_v44 val_main_v41 val_main_v34
      val_main_v33 val_main_v32 val_main_v25 val_main_v22 val_main_v19 val_main_v12 val_main_v11 val_main_v9
    exact layer1_ref x12 x13 x14 x15 _ _ _ _ _
  -- the second layer, at the first layer's result
  unfold val_main_v105 val_main_v104 val_main_v103 val_main_v96 val_main_v93 val_main_v90 val_main_v83 val_main_v82
    val_main_v81 val_main_v74 val_main_v71 val_main_v68 val_main_v61 val_main_v60 val_main_v58
  rw [v67_eq, v89_eq, v80_eq, v102_eq, layer2_ref, e57, e8]
  rfl

end Cert.ReferenceIdeal.RefValue

end
-- ==== Proof.Bridge.lean ====
/-
  The two programs agree outside the matrix products.

  Both programs wrap and place the edge endpoints, take rows, sum messages, count edges and slice the relation weights
  by the same host operations on the same arguments; the idealized kernel's program only changes the table's float
  format before taking rows, which is the identity over the extended reals, and lays a bias vector out as a row by a
  reshape where the reference uses a broadcast, which read the same entry. So the record of shared functions is one and
  the same for the two programs, and so are the bias rows and the relation weight matrices.
-/
import proofs.«169592_j3186865733924_2_alg».proof.Proof.Gen.ReferenceIdeal.Read
import proofs.«169592_j3186865733924_2_alg».proof.Proof.KGlue
import proofs.«169592_j3186865733924_2_alg».proof.Proof.LibBcast
import Idealize.ShloMosaic.Lib.Pipeline.Value
import Idealize.ShloMosaic.Lib.ValueIdx

set_option maxRecDepth 16384

noncomputable section

namespace Cert.Bridge

open Idealize.ShloMosaic Idealize.ShloMosaic.ValueIdx
open Cert.Rgcn Cert.KernelIdeal.KGlue

/-- Rows at the sources: the reference takes them from the table itself, the kernel's program from the table in a
    narrower float format, which over the extended reals is the same table. -/
theorem take_eq0 (s : Ends) : (fun x : Mat 120000 64 =>
      Host.gather Cert.ReferenceIdeal.gather_S120000x64_S1000000x1_S1000000x64_1_0_n_n_0_1_164 x
        (Cert.ReferenceIdeal.Read.val_main_v18 (F := Ideal) s)) = take s := by
  funext x; rfl
theorem take_eq1 (s : Ends) : (fun x : Mat 120000 64 =>
      Host.gather Cert.ReferenceIdeal.gather_S120000x64_S1000000x1_S1000000x64_1_0_n_n_0_1_164 x
        (Cert.ReferenceIdeal.Read.val_main_v40 (F := Ideal) s)) = take s := by
  funext x; rfl

/-- Sums at the targets, 64 columns. -/
theorem sumH_eq0 (d : Ends) : (fun u : Mat 1000000 64 =>
      Host.scatterAdd Cert.ReferenceIdeal.scatter_S120000x64_S1000000x1_S1000000x64_1_0_0_1
        (Cert.ReferenceIdeal.Read.val_main_v23 (F := Ideal)) (Cert.ReferenceIdeal.Read.val_main_v24 (F := Ideal) d) u) = sumH d := by
  funext u; rfl
theorem sumH_eq1 (d : Ends) : (fun u : Mat 1000000 64 =>
      Host.scatterAdd Cert.ReferenceIdeal.scatter_S120000x64_S1000000x1_S1000000x64_1_0_0_1
        (Cert.ReferenceIdeal.Read.val_main_v45 (F := Ideal)) (Cert.ReferenceIdeal.Read.val_main_v46 (F := Ideal) d) u) = sumH d := by
  funext u; rfl

/-- Sums at the targets, 32 columns. -/
theorem sumO_eq0 (d : Ends) : (fun u : Mat 1000000 32 =>
      Host.scatterAdd Cert.ReferenceIdeal.scatter_S120000x32_S1000000x1_S1000000x32_1_0_0_1
        (Cert.ReferenceIdeal.Read.val_main_v72 (F := Ideal)) (Cert.ReferenceIdeal.Read.val_main_v73 (F := Ideal) d) u) = sumO d := by
  funext u; rfl
theorem sumO_eq1 (d : Ends) : (fun u : Mat 1000000 32 =>
      Host.scatterAdd Cert.ReferenceIdeal.scatter_S120000x32_S1000000x1_S1000000x32_1_0_0_1
        (Cert.ReferenceIdeal.Read.val_main_v94 (F := Ideal)) (Cert.ReferenceIdeal.Read.val_main_v95 (F := Ideal) d) u) = sumO d := by
  funext u; rfl

/-- The per-node reciprocals. -/
theorem inv_eq0 (d : Ends) : Host.divf (F := Ideal) (Cert.ReferenceIdeal.Read.val_main_v30 (F := Ideal))
      (Cert.ReferenceIdeal.Read.val_main_v31 (F := Ideal) d) = inv d := rfl
theorem inv_eq1 (d : Ends) : Host.divf (F := Ideal) (Cert.ReferenceIdeal.Read.val_main_v52 (F := Ideal))
      (Cert.ReferenceIdeal.Read.val_main_v53 (F := Ideal) d) = inv d := rfl

/-- Stacking. -/
theorem cat_eq : (fun (a : Mat 100000 64) (b : Mat 20000 64) =>
      concatenate Cert.ReferenceIdeal.S120000x64 0 [⟨Cert.ReferenceIdeal.S100000x64, a⟩, ⟨Cert.ReferenceIdeal.S20000x64, b⟩]
        Cert.ReferenceIdeal.Gen.concatenates_S100000x64_S20000x64_S120000x64_d0) = cat := by
  funext a b; rfl

/-- The relation weight matrices. -/
theorem rel1_0_eq (w) : Cert.ReferenceIdeal.Read.val_main_v21 (F := Ideal) w = rel1_0 w := rfl
theorem rel1_1_eq (w) : Cert.ReferenceIdeal.Read.val_main_v43 (F := Ideal) w = rel1_1 w := rfl
theorem rel2_0_eq (w) : Cert.ReferenceIdeal.Read.val_main_v70 (F := Ideal) w = rel2_0 w := rfl
theorem rel2_1_eq (w) : Cert.ReferenceIdeal.Read.val_main_v92 (F := Ideal) w = rel2_1 w := rfl

/-- A vector of 64 numbers as a row: the broadcast along axis 1 and the reshape read the same entry. -/
theorem row64_eq (b : (⟨Cert.KernelIdeal.S64, .f32⟩ : BufTy).Contents (Elt Ideal)) :
    broadcastInDim Cert.ReferenceIdeal.S1x64 ![1] Cert.ReferenceIdeal.Gen.bcast_S64_S1x64_1 b = row64 b := by
  funext i
  obtain ⟨u, q, rfl⟩ : ∃ (u : Fin 1) (q : Fin 64), i = ix2 u q := ⟨i 0, i 1, eq_ix2 i⟩
  rw [Cert.LibBcast.bcast_b_1b_apply]
  unfold row64
  exact (shapeCast_apply b _ (ix2 u q) (ix1 q) (by
    have hu : u.val = 0 := by omega
    rw [Shape.rowMajor_val_two, Shape.rowMajor_val_one]
    show q.val = u.val * 64 + q.val
    rw [hu, Nat.zero_mul, Nat.zero_add])).symm

/-- The same for 32 numbers. -/
theorem row32_eq (b : (⟨Cert.KernelIdeal.S32, .f32⟩ : BufTy).Contents (Elt Ideal)) :
    broadcastInDim Cert.ReferenceIdeal.S1x32 ![1] Cert.ReferenceIdeal.Gen.bcast_S32_S1x32_1 b = row32 b := by
  funext i
  obtain ⟨u, q, rfl⟩ : ∃ (u : Fin 1) (q : Fin 32), i = ix2 u q := ⟨i 0, i 1, eq_ix2 i⟩
  rw [Cert.LibBcast.bcast_b_1b_apply]
  unfold row32
  exact (shapeCast_apply b _ (ix2 u q) (ix1 q) (by
    have hu : u.val = 0 := by omega
    rw [Shape.rowMajor_val_two, Shape.rowMajor_val_one]
    show q.val = u.val * 32 + q.val
    rw [hu, Nat.zero_mul, Nat.zero_add])).symm

/-- The reference's four bias rows are those rows. -/
theorem v1_eq (b) : Cert.ReferenceIdeal.Read.val_main_v1 (F := Ideal) b = row64 b := row64_eq b
theorem v5_eq (b) : Cert.ReferenceIdeal.Read.val_main_v5 (F := Ideal) b = row64 b := row64_eq b
theorem v10_eq (b) : Cert.ReferenceIdeal.Read.val_main_v10 (F := Ideal) b = row64 b := row64_eq b
theorem v59_eq (b) : Cert.ReferenceIdeal.Read.val_main_v59 (F := Ideal) b = row32 b := row32_eq b

end Cert.Bridge

end
-- ==== Proof.lean ====
/-
  The certificate of the two-layer relational graph network.

  The kernel's program embeds reviews and products by a linear map each, stacks them, and applies two layers; in each
  layer every edge carries its source's row times the relation's weight matrix, every node sums what arrives over each
  relation and scales it by the reciprocal of its number of incoming edges (at least one), and adds the root term and
  the bias; the first layer is clamped at zero. The matrix products are eight tiled kernel regions; the rest is host
  operations. The reference does the same with plain array operations, dividing by the count where the kernel's
  program multiplies by its reciprocal.

  The three frame claims are the generated frame proofs (the reference's is its generated run with the result
  dropped). The ideal pass rewrote nothing, so the kernel's program is its own idealization. For the value claim the
  idealized kernel's run is read at its result buffer as the network of the argument arrays (the regions' output
  arrays as whole-array functions, the host stretches as their operations' functions), the reference's generated run
  as the same network, and the two programs' host-side functions are identified; division by a count that is at least
  one is multiplication by its reciprocal on every extended real, so no finiteness of the inputs is used.
-/
import proofs.«169592_j3186865733924_2_alg».proof.Defs
import proofs.«169592_j3186865733924_2_alg».proof.Proof.Gen.Kernel
import proofs.«169592_j3186865733924_2_alg».proof.Proof.Gen.Kernel.Skeleton
import proofs.«169592_j3186865733924_2_alg».proof.Proof.Gen.Kernel.Launch
import proofs.«169592_j3186865733924_2_alg».proof.Proof.Gen.Kernel.Points
import proofs.«169592_j3186865733924_2_alg».proof.Proof.Gen.Kernel.Frame
import proofs.«169592_j3186865733924_2_alg».proof.Proof.Gen.KernelIdeal
import proofs.«169592_j3186865733924_2_alg».proof.Proof.Gen.KernelIdeal.Skeleton
import proofs.«169592_j3186865733924_2_alg».proof.Proof.Gen.KernelIdeal.Launch
import proofs.«169592_j3186865733924_2_alg».proof.Proof.Gen.KernelIdeal.Points
import proofs.«169592_j3186865733924_2_alg».proof.Proof.Gen.KernelIdeal.Frame
import proofs.«169592_j3186865733924_2_alg».proof.Proof.Gen.ReferenceIdeal
import proofs.«169592_j3186865733924_2_alg».proof.Proof.Gen.Pre_finite_inputs
import proofs.«169592_j3186865733924_2_alg».proof.Proof.Gen.ReferenceIdeal.Run
import proofs.«169592_j3186865733924_2_alg».proof.Proof.Gen.ReferenceIdeal.Read
import proofs.«169592_j3186865733924_2_alg».proof.Proof.KRun
import proofs.«169592_j3186865733924_2_alg».proof.Proof.Vals
import proofs.«169592_j3186865733924_2_alg».proof.Proof.Region0
import proofs.«169592_j3186865733924_2_alg».proof.Proof.Region1
import proofs.«169592_j3186865733924_2_alg».proof.Proof.Region2
import proofs.«169592_j3186865733924_2_alg».proof.Proof.Region3
import proofs.«169592_j3186865733924_2_alg».proof.Proof.Region4
import proofs.«169592_j3186865733924_2_alg».proof.Proof.Region5
import proofs.«169592_j3186865733924_2_alg».proof.Proof.Region6
import proofs.«169592_j3186865733924_2_alg».proof.Proof.Region7
import proofs.«169592_j3186865733924_2_alg».proof.Proof.RefValue
import proofs.«169592_j3186865733924_2_alg».proof.Proof.Bridge
import Idealize.ShloMosaic.Adequacy
import Idealize.ShloMosaic.Init

set_option maxRecDepth 16384

noncomputable section

namespace Cert.Proof

open Idealize.ShloMosaic Idealize.SL.Sem

/-- What the eight kernel regions leave in their output arrays. -/
theorem regionFacts : Cert.KernelIdeal.Vals.RegionFacts :=
  ⟨Cert.KernelIdeal.Region0.final0, Cert.KernelIdeal.Region1.final1, Cert.KernelIdeal.Region2.final2,
   Cert.KernelIdeal.Region3.final3, Cert.KernelIdeal.Region4.final4, Cert.KernelIdeal.Region5.final5,
   Cert.KernelIdeal.Region6.final6, Cert.KernelIdeal.Region7.final7⟩

/-- The two programs' records of host-side functions are one record: field by field they are the same operations on the
    same arguments (the bridge module states each field's equality on its own). -/
theorem glue_eq (s0 d0 s1 d1 : Cert.KernelIdeal.KGlue.Ends) :
    Cert.ReferenceIdeal.RefValue.glue s0 d0 s1 d1 = Cert.KernelIdeal.KGlue.glue s0 d0 s1 d1 := by
  unfold Cert.ReferenceIdeal.RefValue.glue Cert.KernelIdeal.KGlue.glue
  congr 1

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the network of the argument arrays in their result buffers. -/
theorem algebraic : Cert.algebraic_KernelIdeal_ReferenceIdeal := by
  intro m ρ m' ρ' _ hagree
  refine ⟨fun c => Cert.KernelIdeal.Vals.OUT m c, ?_, ?_⟩
  · exact (θ_run Cert.KernelIdeal.defs _ _).mono
      (fun r h c => ⟨(h c).1.trans (Cert.KernelIdeal.Vals.result regionFacts m ρ c), (h c).2⟩)
      (Cert.KernelIdeal.Fold.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15⟩ := hagree c
    rw [Cert.ReferenceIdeal.Read.val_main_v105_eq, Cert.ReferenceIdeal.RefValue.value,
      e0, e1, e2, e3, e4, e5, e6, e7, e8, e9, e10, e11, e12, e13, e14, e15,
      glue_eq, Cert.Bridge.v1_eq, Cert.Bridge.v5_eq, Cert.Bridge.v10_eq, Cert.Bridge.v59_eq,
      Cert.Bridge.rel1_0_eq, Cert.Bridge.rel1_1_eq, Cert.Bridge.rel2_0_eq, Cert.Bridge.rel2_1_eq]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
